-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50000 : Shape := ⟨1, ![50000]⟩
abbrev S2x128 : Shape := ⟨2, ![2, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg10 : FVec F S128 .f32) (main_arg18 : FVec F S4x128 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_cst_40 : FVec F S_ .f32 := constant S_ .f32 0x00000000#32
  let main_v104 : FVec F S128 .f32 := broadcastInDim S128 ![] bcast_S_S128 main_cst_40
  let main_v105 : IVec S128 1 := cmpf .oge main_arg10 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v103 main_v106
  let main_cst_42 : FVec F S_ .f32 := constant S_ .f32 0x00000000#32
  let main_v108 : FVec F S4x128 .f32 := broadcastInDim S4x128 ![] bcast_S_S4x128 main_cst_42
  let main_v109 : IVec S4x128 1 := cmpf .oge main_arg18 main_v108
  let main_c_43 : IVec S_ 1 := constantI S_ 1 1#1
  let main_v110 : IVec S_ 1 := (fun x v => Host.reduce IntOp.andi x v reducesTo_S4x128_S_d0_1 h_S_) main_v109 main_c_43
  let main_v111 : IVec S_ 1 := andi main_v107 main_v110
  main_v111

def fn_part5 {F : FTy → Type} [FloatOps F] (main_arg10 : FVec F S128 .f32) (main_arg18 : FVec F S4x128 .f32) (main_arg20 : FVec F S128 .f32) (main_arg21 : FVec F S128x1 .f32) (main_arg22 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x1 .f32 := Host.absf main_arg21
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg10 main_arg18 main_v98 main_v101 main_c_39

def fn_part4 {F : FTy → Type} [FloatOps F] (main_arg10 : FVec F S128 .f32) (main_arg16 : FVec F S4x128 .f32) (main_arg17 : FVec F S4x128 .f32) (main_arg18 : FVec F S4x128 .f32) (main_arg19 : FVec F S128x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S4x128 .f32 := Host.absf main_arg16
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S4x128 .f32 := Host.absf main_arg17
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S4x128 .f32 := Host.absf main_arg18
  let main_cst_30 : FVec F S_ .f32 := constant S_ .f32 0x7F800000#32
  let main_v80 : FVec F S4x128 .f32 := broadcastInDim S4x128 ![] bcast_S_S4x128 main_cst_30
  let main_v81 : IVec S4x128 1 := cmpf .olt main_v79 main_v80
  let main_c_31 : IVec S_ 1 := constantI S_ 1 1#1
  let main_v82 : IVec S_ 1 := (fun x v => Host.reduce IntOp.andi x v reducesTo_S4x128_S_d0_1 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg10 main_arg18 main_arg20 main_arg21 main_arg22 main_v83 main_v84 main_cst_32

def fn_part3 {F : FTy → Type} [FloatOps F] (main_arg10 : FVec F S128 .f32) (main_arg13 : FVec F S4x128x128 .f32) (main_arg14 : FVec F S4x128 .f32) (main_arg15 : FVec F S4x128 .f32) (main_arg16 : FVec F S4x128 .f32) (main_arg17 : FVec F S4x128 .f32) (main_arg18 : FVec F S4x128 .f32) (main_arg19 : FVec F S128x128 .f32) (main_arg20 : FVec F S128 .f32) (main_arg21 : FVec F S128x1 .f32) (main_arg22 : FVec F S1 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128x128 .f32 := Host.absf main_arg13
  let main_cst_20 : FVec F S_ .f32 := constant S_ .f32 0x7F800000#32
  let main_v55 : FVec F S4x128x128 .f32 := broadcastInDim S4x128x128 ![] bcast_S_S4x128x128 main_cst_20
  let main_v56 : IVec S4x128x128 1 := cmpf .olt main_v54 main_v55
  let main_c_21 : IVec S_ 1 := constantI S_ 1 1#1
  let main_v57 : IVec S_ 1 := (fun x v => Host.reduce IntOp.andi x v reducesTo_S4x128x128_S_d0_1_2 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg15
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg10 main_arg16 main_arg17 main_arg18 main_arg19 main_arg20 main_arg21 main_arg22 main_v63 main_v67

def fn_part2 {F : FTy → Type} [FloatOps F] (main_arg9 : FVec F S128 .f32) (main_arg10 : FVec F S128 .f32) (main_arg11 : FVec F S4x128x128 .f32) (main_arg12 : FVec F S4x128 .f32) (main_arg13 : FVec F S4x128x128 .f32) (main_arg14 : FVec F S4x128 .f32) (main_arg15 : FVec F S4x128 .f32) (main_arg16 : FVec F S4x128 .f32) (main_arg17 : FVec F S4x128 .f32) (main_arg18 : FVec F S4x128 .f32) (main_arg19 : FVec F S128x128 .f32) (main_arg20 : FVec F S128 .f32) (main_arg21 : FVec F S128x1 .f32) (main_arg22 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x128x128 .f32 := Host.absf main_arg11
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg10 main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S4x128x128 .f32) (main_arg12 : FVec F S4x128 .f32) (main_arg13 : FVec F S4x128x128 .f32) (main_arg14 : FVec F S4x128 .f32) (main_arg15 : FVec F S4x128 .f32) (main_arg16 : FVec F S4x128 .f32) (main_arg17 : FVec F S4x128 .f32) (main_arg18 : FVec F S4x128 .f32) (main_arg19 : FVec F S128x128 .f32) (main_arg20 : FVec F S128 .f32) (main_arg21 : FVec F S128x1 .f32) (main_arg22 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x2 .f32) (main_arg1 : IVec S2x800000 32) (main_arg2 : IVec S50000 32) (main_arg3 : FVec F S2x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S4x128x128 .f32) (main_arg12 : FVec F S4x128 .f32) (main_arg13 : FVec F S4x128x128 .f32) (main_arg14 : FVec F S4x128 .f32) (main_arg15 : FVec F S4x128 .f32) (main_arg16 : FVec F S4x128 .f32) (main_arg17 : FVec F S4x128 .f32) (main_arg18 : FVec F S4x128 .f32) (main_arg19 : FVec F S128x128 .f32) (main_arg20 : FVec F S128 .f32) (main_arg21 : FVec F S128x1 .f32) (main_arg22 : FVec F S1 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x128 .f32 := Host.absf main_arg3
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x2 : Shape := ⟨2, ![50000, 2]⟩
abbrev S2x800000 : Shape := ⟨2, ![2, 800000]⟩
abbrev S50000 : Shape := ⟨1, ![50000]⟩
abbrev S2x128 : Shape := ⟨2, ![2, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S1x128 : Shape := ⟨2, ![1, 128]⟩
abbrev S50000x128 : Shape := ⟨2, ![50000, 128]⟩
abbrev S2000x2 : Shape := ⟨2, ![2000, 2]⟩
abbrev S2000x128 : Shape := ⟨2, ![2000, 128]⟩
abbrev S800000x128 : Shape := ⟨2, ![800000, 128]⟩
abbrev S1x128x128 : Shape := ⟨3, ![1, 128, 128]⟩
abbrev S512x128 : Shape := ⟨2, ![512, 128]⟩
abbrev S50000x1 : Shape := ⟨2, ![50000, 1]⟩
abbrev S1x1 : Shape := ⟨2, ![1, 1]⟩
abbrev S512x1 : Shape := ⟨2, ![512, 1]⟩
abbrev S512 : Shape := ⟨1, ![512]⟩

abbrev nBuf : Space → Nat
  | .hbm => 199
  | .vmem => 76
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S2x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S4x128x128, .f32⟩
  | 12 => ⟨S4x128, .f32⟩
  | 13 => ⟨S4x128x128, .f32⟩
  | 14 => ⟨S4x128, .f32⟩
  | 15 => ⟨S4x128, .f32⟩
  | 16 => ⟨S4x128, .f32⟩
  | 17 => ⟨S4x128, .f32⟩
  | 18 => ⟨S4x128, .f32⟩
  | 19 => ⟨S128x128, .f32⟩
  | 20 => ⟨S128, .f32⟩
  | 21 => ⟨S128x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x2, .f32⟩
  | 36 => ⟨S_, .f32⟩
  | 37 => ⟨S50000x2, .f32⟩
  | 38 => ⟨S800000x1, .i32⟩
  | 39 => ⟨S50000x2, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S50000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x2, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S50000x128, .f32⟩
  | 63 => ⟨S_, .f32⟩
  | 64 => ⟨S512x128, .f32⟩
  | 65 => ⟨S50000x1, .i32⟩
  | 66 => ⟨S512x128, .f32⟩
  | 67 => ⟨S1x128, .f32⟩
  | 68 => ⟨S1x1, .f32⟩
  | 69 => ⟨S512x1, .f32⟩
  | 70 => ⟨S512, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | .local _ .vmem, ⟨0, _⟩ => ⟨S2000x2, .f32⟩
  | .local _ .vmem, ⟨1, _⟩ => ⟨S2000x2, .f32⟩
  | .local _ .vmem, ⟨2, _⟩ => ⟨S2000x2, .f32⟩
  | .local _ .vmem, ⟨3, _⟩ => ⟨S2000x2, .f32⟩
  | .local _ .vmem, ⟨4, _⟩ => ⟨S2x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S128x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S512x128, .f32⟩
  | .local _ .vmem, ⟨71, _⟩ => ⟨S128x128, .f32⟩
  | .local _ .vmem, ⟨72, _⟩ => ⟨S1x128, .f32⟩
  | .local _ .vmem, ⟨73, _⟩ => ⟨S128x1, .f32⟩
  | .local _ .vmem, ⟨74, _⟩ => ⟨S1x1, .f32⟩
  | .local _ .vmem, ⟨75, _⟩ => ⟨S512x1, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_1 : Ref sig .tc := ⟨.hbm, 47, rfl⟩
abbrev main_v21 : Ref sig .tc := ⟨.hbm, 48, rfl⟩
abbrev main_v22 : Ref sig .tc := ⟨.hbm, 49, rfl⟩
abbrev main_c_2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_4 : Ref sig .tc := ⟨.hbm, 83, rfl⟩
abbrev main_v54 : Ref sig .tc := ⟨.hbm, 84, rfl⟩
abbrev main_v55 : Ref sig .tc := ⟨.hbm, 85, rfl⟩
abbrev main_c_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_7 : Ref sig .tc := ⟨.hbm, 119, rfl⟩
abbrev main_v87 : Ref sig .tc := ⟨.hbm, 120, rfl⟩
abbrev main_v88 : Ref sig .tc := ⟨.hbm, 121, rfl⟩
abbrev main_c_8 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_9 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_10 : Ref sig .tc := ⟨.hbm, 155, rfl⟩
abbrev main_v120 : Ref sig .tc := ⟨.hbm, 156, rfl⟩
abbrev main_v121 : Ref sig .tc := ⟨.hbm, 157, rfl⟩
abbrev main_c_11 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_12 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_13 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg10_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg7_0 : Ref sig .tc := ⟨.vmem, 65, rfl⟩
abbrev cc4_stg8_0 : Ref sig .tc := ⟨.vmem, 66, rfl⟩
abbrev cc4_stg9_0 : Ref sig .tc := ⟨.vmem, 67, rfl⟩
abbrev cc4_stg10_0 : Ref sig .tc := ⟨.vmem, 68, rfl⟩
abbrev cc4_stg10_1 : Ref sig .tc := ⟨.vmem, 69, rfl⟩
abbrev cc5_stg0_0 : Ref sig .tc := ⟨.vmem, 70, rfl⟩
abbrev cc5_stg1_0 : Ref sig .tc := ⟨.vmem, 71, rfl⟩
abbrev cc5_stg2_0 : Ref sig .tc := ⟨.vmem, 72, rfl⟩
abbrev cc5_stg3_0 : Ref sig .tc := ⟨.vmem, 73, rfl⟩
abbrev cc5_stg4_0 : Ref sig .tc := ⟨.vmem, 74, rfl⟩
abbrev cc5_stg5_0 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem10_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem6_0 : DmaSem sig := 64
abbrev cc4_sem7_0 : DmaSem sig := 65
abbrev cc4_sem8_0 : DmaSem sig := 66
abbrev cc4_sem9_0 : DmaSem sig := 67
abbrev cc4_sem10_0 : DmaSem sig := 68
abbrev cc4_sem10_1 : DmaSem sig := 69
abbrev cc5_sem0_0 : DmaSem sig := 70
abbrev cc5_sem1_0 : DmaSem sig := 71
abbrev cc5_sem2_0 : DmaSem sig := 72
abbrev cc5_sem3_0 : DmaSem sig := 73
abbrev cc5_sem4_0 : DmaSem sig := 74
abbrev cc5_sem5_0 : DmaSem sig := 75

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x2 : S_.BroadcastsInDim S50000x2 (![] : Fin 0 → Fin S50000x2.rank)
  shapeCasts_S128_S1x128 : S128.ShapeCasts S1x128
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S2000x2_S2x128_S2000x128_1_0_0_1_n_n_wf : DotDims.WF S2000x2 S2x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S50000x2.size a
  hwx0_0 : ∀ i : grid0.Coords, EltTy.bits .f32 = 32 ∨ (Rect.block (s := S50000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2.size a ≤ S50000x2.size a
  hwx0_1 : ∀ i : grid0.Coords, EltTy.bits .f32 = 32 ∨ (Rect.block (s := S50000x2) S2000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .f32 = 32 ∨ (Rect.block (s := S50000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x128.size a ≤ S50000x128.size a
  hwx4_10 : ∀ i : grid4.Coords, EltTy.bits .f32 = 32 ∨ (Rect.block (s := S50000x128) S2000x128.size (cc4_transform_10 i) (hinb4_10 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x1.size a ≤ S512x1.size a
  hwx5_5 : ∀ i : grid5.Coords, EltTy.bits .f32 = 32 ∨ (Rect.block (s := S512x1) S512x1.size (cc5_transform_5 i) (hinb5_5 i)).WholeWords (EltTy.packing .f32)

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S2000x2_S2x128_S2000x128_1_0_0_1_n_n : DotDims S2000x2 S2x128 S2000x128 where
  lhsContracting := [1]
  rhsContracting := [0]
  lhsNonContracting := [0]
  rhsNonContracting := [1]
  lhsBatch := []
  rhsBatch := []
  wf := dot_S2000x2_S2x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v53) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v53) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v83) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v84) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v85) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v86) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v86) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v113) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v114) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v115) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v116) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v117) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v118) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v119) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v119) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v131) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v146) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v135) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v147) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v148) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v149) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v150) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v151) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v152) S2000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v155) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg19) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v156) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg21) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v157) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v158) S512x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50000 : Shape := ⟨1, ![50000]⟩
abbrev S2x128 : Shape := ⟨2, ![2, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S50000x128 : Shape := ⟨2, ![50000, 128]⟩
abbrev S1x128 : Shape := ⟨2, ![1, 128]⟩
abbrev S1x128x128 : Shape := ⟨3, ![1, 128, 128]⟩
abbrev S800000x128 : Shape := ⟨2, ![800000, 128]⟩
abbrev S512x128 : Shape := ⟨2, ![512, 128]⟩
abbrev S50000x1 : Shape := ⟨2, ![50000, 1]⟩
abbrev S512x1 : Shape := ⟨2, ![512, 1]⟩
abbrev S1x1 : Shape := ⟨2, ![1, 1]⟩
abbrev S512 : Shape := ⟨1, ![512]⟩

abbrev nBuf : Space → Nat
  | .hbm => 317
  | .vmem => 0
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S2x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S4x128x128, .f32⟩
  | 12 => ⟨S4x128, .f32⟩
  | 13 => ⟨S4x128x128, .f32⟩
  | 14 => ⟨S4x128, .f32⟩
  | 15 => ⟨S4x128, .f32⟩
  | 16 => ⟨S4x128, .f32⟩
  | 17 => ⟨S4x128, .f32⟩
  | 18 => ⟨S4x128, .f32⟩
  | 19 => ⟨S128x128, .f32⟩
  | 20 => ⟨S128, .f32⟩
  | 21 => ⟨S128x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x2, .f32⟩
  | 36 => ⟨S_, .f32⟩
  | 37 => ⟨S50000x2, .f32⟩
  | 38 => ⟨S800000x1, .i32⟩
  | 39 => ⟨S50000x2, .f32⟩
  | 40 => ⟨S50000x2, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128x128, .f32⟩
  | 70 => ⟨S128x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x128x128, .f32⟩
  | _ => ⟨S50000x2, .f32⟩

abbrev hbmTy0_1 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128x128, .f32⟩
  | 116 => ⟨S128x128, .f32⟩
  | 117 => ⟨S1x128, .f32⟩
  | 118 => ⟨S128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S50000x2, .f32⟩

abbrev hbmTy0_2 (i : Nat) : BufTy := match i % 128 with
  | 0 => ⟨S128, .f32⟩
  | 1 => ⟨S1x128, .f32⟩
  | 2 => ⟨S128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S128, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S512x128, .f32⟩
  | 47 => ⟨S50000x1, .i32⟩
  | 48 => ⟨S512x128, .f32⟩
  | 49 => ⟨S512x128, .f32⟩
  | 50 => ⟨S1x128, .f32⟩
  | 51 => ⟨S512x128, .f32⟩
  | 52 => ⟨S512x128, .f32⟩
  | 53 => ⟨S_, .f32⟩
  | 54 => ⟨S512x128, .f32⟩
  | 55 => ⟨S512x128, .f32⟩
  | 56 => ⟨S512x1, .f32⟩
  | 57 => ⟨S1x1, .f32⟩
  | 58 => ⟨S512x1, .f32⟩
  | 59 => ⟨S512x1, .f32⟩
  | 60 => ⟨S512, .f32⟩
  | _ => ⟨S50000x2, .f32⟩

abbrev hbmTy (i : Nat) : BufTy := match i / 128 with
  | 0 => hbmTy0_0 i
  | 1 => hbmTy0_1 i
  | 2 => hbmTy0_2 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_2 : Ref sig .tc := ⟨.hbm, 85, rfl⟩
abbrev main_v54 : Ref sig .tc := ⟨.hbm, 86, rfl⟩
abbrev main_v55 : Ref sig .tc := ⟨.hbm, 87, rfl⟩
abbrev main_c_3 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_4 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call2_cst : Ref sig .tc := ⟨.hbm, 103, rfl⟩
abbrev main_call2_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call3_cst : Ref sig .tc := ⟨.hbm, 110, rfl⟩
abbrev main_call3_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_5 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_6 : Ref sig .tc := ⟨.hbm, 143, rfl⟩
abbrev main_v104 : Ref sig .tc := ⟨.hbm, 144, rfl⟩
abbrev main_v105 : Ref sig .tc := ⟨.hbm, 145, rfl⟩
abbrev main_c_7 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_8 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call4_cst : Ref sig .tc := ⟨.hbm, 161, rfl⟩
abbrev main_call4_v0 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_call5_cst : Ref sig .tc := ⟨.hbm, 168, rfl⟩
abbrev main_call5_v0 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_9 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_c_10 : Ref sig .tc := ⟨.hbm, 201, rfl⟩
abbrev main_v154 : Ref sig .tc := ⟨.hbm, 202, rfl⟩
abbrev main_v155 : Ref sig .tc := ⟨.hbm, 203, rfl⟩
abbrev main_c_11 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_12 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_call6_cst : Ref sig .tc := ⟨.hbm, 219, rfl⟩
abbrev main_call6_v0 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_call7_cst : Ref sig .tc := ⟨.hbm, 226, rfl⟩
abbrev main_call7_v0 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_13 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_c_14 : Ref sig .tc := ⟨.hbm, 259, rfl⟩
abbrev main_v204 : Ref sig .tc := ⟨.hbm, 260, rfl⟩
abbrev main_v205 : Ref sig .tc := ⟨.hbm, 261, rfl⟩
abbrev main_c_15 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_16 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_call8_cst : Ref sig .tc := ⟨.hbm, 277, rfl⟩
abbrev main_call8_v0 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_call9_cst : Ref sig .tc := ⟨.hbm, 284, rfl⟩
abbrev main_call9_v0 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_cst_17 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_18 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_call10_cst : Ref sig .tc := ⟨.hbm, 309, rfl⟩
abbrev main_call10_v0 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x2 : S_.BroadcastsInDim S50000x2 (![] : Fin 0 → Fin S50000x2.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S128 : S_.BroadcastsInDim S128 (![] : Fin 0 → Fin S128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S50000x2_S2x128_S50000x128_1_0_0_1_n_n_wf : DotDims.WF S50000x2 S2x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S50000x2_S2x128_S50000x128_1_0_0_1_n_n : DotDims S50000x2 S2x128 S50000x128 where
  lhsContracting := [1]
  rhsContracting := [0]
  lhsNonContracting := [0]
  rhsNonContracting := [1]
  lhsBatch := []
  rhsBatch := []
  wf := dot_S50000x2_S2x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.RKept.lean ====
/-
  No operation of the reference program writes an argument buffer: each argument buffer holds its launch contents
  after the whole line of operations.
-/
import proofs.«115757_j9131100472083_1_alg».proof.Proof.RefRunP

noncomputable section

namespace Cert.ReferenceIdeal.RKept

open Cert.ReferenceIdeal Cert.ReferenceIdeal.Gen Cert.ReferenceIdeal.ValueP Idealize.ShloMosaic Idealize.ShloMosaic.TcCoe
open Idealize.SL.Sem Idealize.ShloMosaic.StableHlo

variable {F : FTy → Type} [FloatOps F]

set_option maxRecDepth 16384 in
set_option maxHeartbeats 40000000 in
theorem kept0 (W : Valuation τ sig (Elt F)) :
    after ops W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept1 (W : Valuation τ sig (Elt F)) :
    after ops W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept2 (W : Valuation τ sig (Elt F)) :
    after ops W (Proc.devRef .tc main_arg2) = W (Proc.devRef .tc main_arg2) :=
  after_of_forall_not_mem (b := Proc.devRef .tc main_arg2) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept3 (W : Valuation τ sig (Elt F)) :
    after ops W (Proc.devRef .tc main_arg3) = W (Proc.devRef .tc main_arg3) :=
  after_of_forall_not_mem (b := Proc.devRef .tc main_arg3) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept4 (W : Valuation τ sig (Elt F)) :
    after ops W (Proc.devRef .tc main_arg4) = W (Proc.devRef .tc main_arg4) :=
  after_of_forall_not_mem (b := Proc.devRef .tc main_arg4) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept5 (W : Valuation τ sig (Elt F)) :
    after ops W (Proc.devRef .tc main_arg5) = W (Proc.devRef .tc main_arg5) :=
  after_of_forall_not_mem (b := Proc.devRef .tc main_arg5) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept6 (W : Valuation τ sig (Elt F)) :
    after ops W (Proc.devRef .tc main_arg6) = W (Proc.devRef .tc main_arg6) :=
  after_of_forall_not_mem (b := Proc.devRef .tc main_arg6) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept7 (W : Valuation τ sig (Elt F)) :
    after ops W (Proc.devRef .tc main_arg7) = W (Proc.devRef .tc main_arg7) :=
  after_of_forall_not_mem (b := Proc.devRef .tc main_arg7) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept8 (W : Valuation τ sig (Elt F)) :
    after ops W (Proc.devRef .tc main_arg8) = W (Proc.devRef .tc main_arg8) :=
  after_of_forall_not_mem (b := Proc.devRef .tc main_arg8) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept9 (W : Valuation τ sig (Elt F)) :
    after ops W (Proc.devRef .tc main_arg9) = W (Proc.devRef .tc main_arg9) :=
  after_of_forall_not_mem (b := Proc.devRef .tc main_arg9) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept10 (W : Valuation τ sig (Elt F)) :
    after ops W (Proc.devRef .tc main_arg10) = W (Proc.devRef .tc main_arg10) :=
  after_of_forall_not_mem (b := Proc.devRef .tc main_arg10) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept11 (W : Valuation τ sig (Elt F)) :
    after ops W (Proc.devRef .tc main_arg11) = W (Proc.devRef .tc main_arg11) :=
  after_of_forall_not_mem (b := Proc.devRef .tc main_arg11) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept12 (W : Valuation τ sig (Elt F)) :
    after ops W (Proc.devRef .tc main_arg12) = W (Proc.devRef .tc main_arg12) :=
  after_of_forall_not_mem (b := Proc.devRef .tc main_arg12) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept13 (W : Valuation τ sig (Elt F)) :
    after ops W (Proc.devRef .tc main_arg13) = W (Proc.devRef .tc main_arg13) :=
  after_of_forall_not_mem (b := Proc.devRef .tc main_arg13) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept14 (W : Valuation τ sig (Elt F)) :
    after ops W (Proc.devRef .tc main_arg14) = W (Proc.devRef .tc main_arg14) :=
  after_of_forall_not_mem (b := Proc.devRef .tc main_arg14) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept15 (W : Valuation τ sig (Elt F)) :
    after ops W (Proc.devRef .tc main_arg15) = W (Proc.devRef .tc main_arg15) :=
  after_of_forall_not_mem (b := Proc.devRef .tc main_arg15) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept16 (W : Valuation τ sig (Elt F)) :
    after ops W (Proc.devRef .tc main_arg16) = W (Proc.devRef .tc main_arg16) :=
  after_of_forall_not_mem (b := Proc.devRef .tc main_arg16) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept17 (W : Valuation τ sig (Elt F)) :
    after ops W (Proc.devRef .tc main_arg17) = W (Proc.devRef .tc main_arg17) :=
  after_of_forall_not_mem (b := Proc.devRef .tc main_arg17) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept18 (W : Valuation τ sig (Elt F)) :
    after ops W (Proc.devRef .tc main_arg18) = W (Proc.devRef .tc main_arg18) :=
  after_of_forall_not_mem (b := Proc.devRef .tc main_arg18) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept19 (W : Valuation τ sig (Elt F)) :
    after ops W (Proc.devRef .tc main_arg19) = W (Proc.devRef .tc main_arg19) :=
  after_of_forall_not_mem (b := Proc.devRef .tc main_arg19) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept20 (W : Valuation τ sig (Elt F)) :
    after ops W (Proc.devRef .tc main_arg20) = W (Proc.devRef .tc main_arg20) :=
  after_of_forall_not_mem (b := Proc.devRef .tc main_arg20) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept21 (W : Valuation τ sig (Elt F)) :
    after ops W (Proc.devRef .tc main_arg21) = W (Proc.devRef .tc main_arg21) :=
  after_of_forall_not_mem (b := Proc.devRef .tc main_arg21) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

set_option maxRecDepth 16384 in
set_option maxHeartbeats 40000000 in
theorem kept22 (W : Valuation τ sig (Elt F)) :
    after ops W (Proc.devRef .tc main_arg22) = W (Proc.devRef .tc main_arg22) :=
  after_of_forall_not_mem (b := Proc.devRef .tc main_arg22) _ _ (List.forall_iff_forall_mem.mp (by
    simp only [ops, List.Forall, nullary_writes, unary_writes, binary_writes, ternary_writes, quaternary_writes,
      reshape_writes, Finset.mem_singleton]
    repeat' apply And.intro
    all_goals exact devRef_ne_of_ne (by decide)))

end Cert.ReferenceIdeal.RKept

end
-- ==== Proof.RefOps.lean ====
/-
  The reference program's dense stretches as named functions of whole arrays, at any float instance.

  `refLayer2` / `refLayer128` are one layer's operations after the neighbour sum — add, two matrix products each
  followed by a bias and a clamp at zero, then the batch normalisation `(h - mean) · (gamma / sqrt(var + eps)) + beta`
  with the four parameter vectors broadcast down the rows —; `refHead` is the read-out head; `pick4` / `pick4m` take
  row `k` of a stacked parameter array.
-/
import proofs.«115757_j9131100472083_1_alg».proof.ReferenceIdeal
import proofs.«115757_j9131100472083_1_alg».proof.Proof.Gen.ReferenceIdeal

noncomputable section

namespace Cert.ReferenceIdeal.RefOps

open Cert.ReferenceIdeal Cert.ReferenceIdeal.Gen Idealize.ShloMosaic Idealize.ShloMosaic.TcCoe

variable {F : FTy → Type} [FloatOps F]

/-- A 128-vector broadcast down 50000 rows. -/
def rows (y : FVec F S128 .f32) : FVec F S50000x128 .f32 :=
  broadcastInDim S50000x128 ![0, 1] bcast_S1x128_S50000x128_0_1 (broadcastInDim S1x128 ![1] bcast_S128_S1x128_1 y)

/-- The zero array the clamps compare with. -/
def zeros : FVec F S50000x128 .f32 := broadcastInDim S50000x128 ![] bcast_S_S50000x128 (constant S_ .f32 0x00000000#32)

/-- The per-channel scale `gamma / sqrt(var + eps)`. -/
def scale (g v : FVec F S128 .f32) : FVec F S128 .f32 :=
  Host.divf g (Host.sqrt (addf v (broadcastInDim S128 ![] bcast_S_S128 (constant S_ .f32 0x3727C5AC#32))))

/-- The batch normalisation of the clamped second product. -/
def norm (h2 : FVec F S50000x128 .f32) (g β μ v : FVec F S128 .f32) : FVec F S50000x128 .f32 :=
  addf (mulf (subf h2 (rows μ)) (rows (scale g v))) (rows β)

/-- The second product, its bias and clamp. -/
def second (h1 : FVec F S50000x128 .f32) (W2 : FVec F S128x128 .f32) (b2 : FVec F S128 .f32) : FVec F S50000x128 .f32 :=
  maximumf (addf (Host.dotGeneral dot_S50000x128_S128x128_S50000x128_1_0_0_1_n_n none h1 W2) (rows b2)) zeros

/-- A layer on 128-channel features. -/
def refLayer128 (h a : FVec F S50000x128 .f32) (W1 : FVec F S128x128 .f32) (b1 : FVec F S128 .f32)
    (W2 : FVec F S128x128 .f32) (b2 g β μ v : FVec F S128 .f32) : FVec F S50000x128 .f32 :=
  norm (second (maximumf (addf (Host.dotGeneral dot_S50000x128_S128x128_S50000x128_1_0_0_1_n_n none (addf h a) W1) (rows b1)) zeros) W2 b2) g β μ v

/-- The first layer, on the 2-channel input features. -/
def refLayer2 (h a : FVec F S50000x2 .f32) (W1 : FVec F S2x128 .f32) (b1 : FVec F S128 .f32)
    (W2 : FVec F S128x128 .f32) (b2 g β μ v : FVec F S128 .f32) : FVec F S50000x128 .f32 :=
  norm (second (maximumf (addf (Host.dotGeneral dot_S50000x2_S2x128_S50000x128_1_0_0_1_n_n none (addf h a) W1) (rows b1)) zeros) W2 b2) g β μ v

/-- The read-out head on the pooled rows. -/
def refHead (p : FVec F S512x128 .f32) (W1 : FVec F S128x128 .f32) (b1 : FVec F S128 .f32) (W2 : FVec F S128x1 .f32)
    (b2 : FVec F S1 .f32) : FVec F S512x1 .f32 :=
  addf (Host.dotGeneral dot_S512x128_S128x1_S512x1_1_0_0_1_n_n none
      (maximumf (addf (Host.dotGeneral dot_S512x128_S128x128_S512x128_1_0_0_1_n_n none p W1)
          (broadcastInDim S512x128 ![0, 1] bcast_S1x128_S512x128_0_1 (broadcastInDim S1x128 ![1] bcast_S128_S1x128_1 b1)))
        (broadcastInDim S512x128 ![] bcast_S_S512x128 (constant S_ .f32 0x00000000#32))) W2)
    (broadcastInDim S512x1 ![0, 1] bcast_S1x1_S512x1_0_1 (broadcastInDim S1x1 ![1] bcast_S1_S1x1_1 b2))

end Cert.ReferenceIdeal.RefOps

end
-- ==== Proof.RefAgg.lean ====
/-
  The reference program's host stretches as named functions of whole arrays, at any float instance.

  `srcIdx` / `dstIdx` are the edge list's two rows as index columns (a negative source wrapped by the node count),
  `agg2` / `agg128` the neighbour sum (gather the source rows, scatter-add them at the destinations into zeros),
  `pool` the per-graph sum of node rows, and `pickM k` /
  `pickV k` row `k` of a stacked parameter array.
-/
import proofs.«115757_j9131100472083_1_alg».proof.ReferenceIdeal
import proofs.«115757_j9131100472083_1_alg».proof.Proof.Gen.ReferenceIdeal

noncomputable section

namespace Cert.ReferenceIdeal.RefAgg

open Cert.ReferenceIdeal Cert.ReferenceIdeal.Gen Idealize.ShloMosaic Idealize.ShloMosaic.TcCoe

variable {F : FTy → Type} [FloatOps F]

/-- The edges' source nodes (row 0 of the edge list). -/
def srcRow (e : IVec S2x800000 32) : IVec S800000 32 :=
  shapeCast S800000 (extractStridedSlice S1x800000 ![0, 0] e slices_S2x800000_S1x800000_0_0) shapeCasts_S1x800000_S800000

/-- The edges' destination nodes (row 1 of the edge list). -/
def dstRow (e : IVec S2x800000 32) : IVec S800000 32 :=
  shapeCast S800000 (extractStridedSlice S1x800000 ![1, 0] e slices_S2x800000_S1x800000_1_0) shapeCasts_S1x800000_S800000

/-- The source nodes as a column of gather indices, a negative one wrapped by the node count. -/
def srcIdx (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The destination nodes as a column of scatter indices. -/
def dstIdx (e : IVec S2x800000 32) : IVec S800000x1 32 :=
  broadcastInDim S800000x1 ![0] bcast_S800000_S800000x1_0 (dstRow e)

/-- The neighbour sum of 2-channel features. -/
def agg2 (e : IVec S2x800000 32) (x : FVec F S50000x2 .f32) : FVec F S50000x2 .f32 :=
  Host.scatterAdd scatter_S50000x2_S800000x1_S800000x2_1_0_0_1
    (broadcastInDim S50000x2 ![] bcast_S_S50000x2 (constant S_ .f32 0x00000000#32)) (dstIdx e)
    (Host.gather gather_S50000x2_S800000x1_S800000x2_1_0_n_n_0_1_12 x (srcIdx e))

/-- The neighbour sum of 128-channel features. -/
def agg128 (e : IVec S2x800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32)) (dstIdx e)
    (Host.gather gather_S50000x128_S800000x1_S800000x128_1_0_n_n_0_1_1128 h (srcIdx e))

/-- The per-graph sum of node rows. -/
def pool (bt : IVec S50000 32) (h : FVec F S50000x128 .f32) : FVec F S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 bt) h

/-- Matrix `k` of a stack of four `128 × 128` matrices. -/
def pickM0 (x : FVec F S4x128x128 .f32) : FVec F S128x128 .f32 :=
  shapeCast S128x128 (extractStridedSlice S1x128x128 ![0, 0, 0] x slices_S4x128x128_S1x128x128_0_0_0) shapeCasts_S1x128x128_S128x128
def pickM1 (x : FVec F S4x128x128 .f32) : FVec F S128x128 .f32 :=
  shapeCast S128x128 (extractStridedSlice S1x128x128 ![1, 0, 0] x slices_S4x128x128_S1x128x128_1_0_0) shapeCasts_S1x128x128_S128x128
def pickM2 (x : FVec F S4x128x128 .f32) : FVec F S128x128 .f32 :=
  shapeCast S128x128 (extractStridedSlice S1x128x128 ![2, 0, 0] x slices_S4x128x128_S1x128x128_2_0_0) shapeCasts_S1x128x128_S128x128
def pickM3 (x : FVec F S4x128x128 .f32) : FVec F S128x128 .f32 :=
  shapeCast S128x128 (extractStridedSlice S1x128x128 ![3, 0, 0] x slices_S4x128x128_S1x128x128_3_0_0) shapeCasts_S1x128x128_S128x128

/-- Row `k` of a stack of four 128-vectors. -/
def pickV0 (x : FVec F S4x128 .f32) : FVec F S128 .f32 :=
  shapeCast S128 (extractStridedSlice S1x128 ![0, 0] x slices_S4x128_S1x128_0_0) shapeCasts_S1x128_S128
def pickV1 (x : FVec F S4x128 .f32) : FVec F S128 .f32 :=
  shapeCast S128 (extractStridedSlice S1x128 ![1, 0] x slices_S4x128_S1x128_1_0) shapeCasts_S1x128_S128
def pickV2 (x : FVec F S4x128 .f32) : FVec F S128 .f32 :=
  shapeCast S128 (extractStridedSlice S1x128 ![2, 0] x slices_S4x128_S1x128_2_0) shapeCasts_S1x128_S128
def pickV3 (x : FVec F S4x128 .f32) : FVec F S128 .f32 :=
  shapeCast S128 (extractStridedSlice S1x128 ![3, 0] x slices_S4x128_S1x128_3_0) shapeCasts_S1x128_S128

end Cert.ReferenceIdeal.RefAgg

end
-- ==== Proof.RChain.lean ====
/-
  The reference program's result as one function of its argument arrays, at any float instance: the same five layers,
  pooling and head, spelt with the reference's own host operations.
-/
import proofs.«115757_j9131100472083_1_alg».proof.Proof.RefOps
import proofs.«115757_j9131100472083_1_alg».proof.Proof.RefAgg

noncomputable section

namespace Cert.ReferenceIdeal.RChain

open Cert.ReferenceIdeal Cert.ReferenceIdeal.Gen Cert.ReferenceIdeal.RefOps Cert.ReferenceIdeal.RefAgg Idealize.ShloMosaic Idealize.ShloMosaic.TcCoe

variable {F : FTy → Type} [FloatOps F]

/-- The program's 23 argument arrays. -/
structure Args (F : FTy → Type) where
  x0 : FVec F S50000x2 .f32
  x1 : IVec S2x800000 32
  x2 : IVec S50000 32
  x3 : FVec F S2x128 .f32
  x4 : FVec F S128 .f32
  x5 : FVec F S128x128 .f32
  x6 : FVec F S128 .f32
  x7 : FVec F S128 .f32
  x8 : FVec F S128 .f32
  x9 : FVec F S128 .f32
  x10 : FVec F S128 .f32
  x11 : FVec F S4x128x128 .f32
  x12 : FVec F S4x128 .f32
  x13 : FVec F S4x128x128 .f32
  x14 : FVec F S4x128 .f32
  x15 : FVec F S4x128 .f32
  x16 : FVec F S4x128 .f32
  x17 : FVec F S4x128 .f32
  x18 : FVec F S4x128 .f32
  x19 : FVec F S128x128 .f32
  x20 : FVec F S128 .f32
  x21 : FVec F S128x1 .f32
  x22 : FVec F S1 .f32

/-- The first layer's output. -/
def r1 (a : Args F) : FVec F S50000x128 .f32 :=
  refLayer2 a.x0 (agg2 a.x1 a.x0) a.x3 a.x4 a.x5 a.x6 a.x7 a.x8 a.x9 a.x10

/-- A later layer's output from the previous one's, with its parameters picked by `pm` / `pv` from the stacks. -/
def next (pm : FVec F S4x128x128 .f32 → FVec F S128x128 .f32) (pv : FVec F S4x128 .f32 → FVec F S128 .f32)
    (a : Args F) (h : FVec F S50000x128 .f32) : FVec F S50000x128 .f32 :=
  refLayer128 h (agg128 a.x1 h) (pm a.x11) (pv a.x12) (pm a.x13) (pv a.x14) (pv a.x15) (pv a.x16) (pv a.x17) (pv a.x18)

def r2 (a : Args F) : FVec F S50000x128 .f32 := next pickM0 pickV0 a (r1 a)
def r3 (a : Args F) : FVec F S50000x128 .f32 := next pickM1 pickV1 a (r2 a)
def r4 (a : Args F) : FVec F S50000x128 .f32 := next pickM2 pickV2 a (r3 a)
def r5 (a : Args F) : FVec F S50000x128 .f32 := next pickM3 pickV3 a (r4 a)

/-- The head on the pooled last layer, as a `512 × 1` matrix. -/
def head (a : Args F) : FVec F S512x1 .f32 := refHead (pool a.x2 (r5 a)) a.x19 a.x20 a.x21 a.x22

/-- The program's result. -/
def out (a : Args F) : FVec F S512 .f32 := shapeCast S512 (head a) shapeCasts_S512x1_S512

end Cert.ReferenceIdeal.RChain

end
-- ==== Proof.RFold.lean ====
/-
  The reference program's buffers read back through its 294 host operations: the result buffer is the five-layer chain
  of `RChain` on the launch contents of the argument buffers, and no operation writes an argument buffer.
-/
import proofs.«115757_j9131100472083_1_alg».proof.Proof.RefRunP
import proofs.«115757_j9131100472083_1_alg».proof.Proof.RChain

noncomputable section

namespace Cert.ReferenceIdeal.RFold

open Cert.ReferenceIdeal Cert.ReferenceIdeal.Gen Cert.ReferenceIdeal.ValueP Idealize.ShloMosaic Idealize.ShloMosaic.TcCoe
open Idealize.SL.Sem Idealize.ShloMosaic.StableHlo

variable {F : FTy → Type} [FloatOps F]

/-- The argument buffers' contents, bundled. -/
def argsOf (W : Valuation τ sig (Elt F)) : RChain.Args F where
  x0 := W (Proc.devRef .tc main_arg0)
  x1 := W (Proc.devRef .tc main_arg1)
  x2 := W (Proc.devRef .tc main_arg2)
  x3 := W (Proc.devRef .tc main_arg3)
  x4 := W (Proc.devRef .tc main_arg4)
  x5 := W (Proc.devRef .tc main_arg5)
  x6 := W (Proc.devRef .tc main_arg6)
  x7 := W (Proc.devRef .tc main_arg7)
  x8 := W (Proc.devRef .tc main_arg8)
  x9 := W (Proc.devRef .tc main_arg9)
  x10 := W (Proc.devRef .tc main_arg10)
  x11 := W (Proc.devRef .tc main_arg11)
  x12 := W (Proc.devRef .tc main_arg12)
  x13 := W (Proc.devRef .tc main_arg13)
  x14 := W (Proc.devRef .tc main_arg14)
  x15 := W (Proc.devRef .tc main_arg15)
  x16 := W (Proc.devRef .tc main_arg16)
  x17 := W (Proc.devRef .tc main_arg17)
  x18 := W (Proc.devRef .tc main_arg18)
  x19 := W (Proc.devRef .tc main_arg19)
  x20 := W (Proc.devRef .tc main_arg20)
  x21 := W (Proc.devRef .tc main_arg21)
  x22 := W (Proc.devRef .tc main_arg22)

set_option maxRecDepth 16384 in
set_option maxHeartbeats 400000000 in
/-- The result buffer after the whole line of operations is the chain on the argument buffers' contents. -/
theorem result_eq (W : Valuation τ sig (Elt F)) :
    after ops W (Proc.devRef .tc main_v250) = RChain.out (argsOf W) := by
  after_results_simp
  rfl

end Cert.ReferenceIdeal.RFold

end
-- ==== Proof.KRun.lean ====
/-
  The kernel program's run with its result buffer named: from any memory with zero counters every weakly fair
  execution of @main terminates, nothing faulting, with the argument arrays as launched and the result buffer at the
  last segment boundary's contents — the fold of the seven host stretches and six regions from the launch memory.
-/
import proofs.«115757_j9131100472083_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v159) = W13 m ρ c (Proc.devRef .tc main_v159)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v159 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c)⟩)

end Cert.KernelIdeal.KRun

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.Spec.lean ====
/-
  The mathematics both programs meet in, stated over plain arrays of extended reals.

  One graph-isomorphism layer sends a node's feature row `x` and the sum `a` of its neighbours' rows to
      out_j = (relu(relu((x + a)·W1 + b1)·W2 + b2)_j - mean_j) · scale_j + beta_j ,
  a function of that node's two rows only. The kernel takes the per-channel scale as `gamma · rsqrt(var + eps)`,
  the reference as `gamma / sqrt(var + eps)`; for a nonnegative variance the two are one number (`scale_eq`).
  The read-out head sends a pooled row `p` to `relu(p·W1 + b1)·w2 + b2`.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- A vector of `n` extended reals, and an `a × b` matrix of them, indexed as the programs' arrays are. -/
abbrev A1 (n : Nat) : Type := (⟨1, ![n]⟩ : Shape).Idx → EReal
abbrev A2 (a b : Nat) : Type := (⟨2, ![a, b]⟩ : Shape).Idx → EReal

/-- The float zero both programs clamp at, and the batch-norm epsilon both add to the variance, as the extended
    reals their words denote. -/
def zeroW : EReal := Ideal.ofBits .f32 0x00000000#32
def epsW : EReal := Ideal.ofBits .f32 0x3727C5AC#32

/-- The two dense maps with their clamps, for one node, at output channel `j`. -/
def dense {D : Nat} (xr ar : Fin D → EReal) (W1 : Fin D → Fin 128 → EReal) (b1 : Fin 128 → EReal)
    (W2 : Fin 128 → Fin 128 → EReal) (b2 : Fin 128 → EReal) (j : Fin 128) : EReal :=
  max ((∑ k : Fin 128, max ((∑ d : Fin D, (xr d + ar d) * W1 d k) + b1 k) zeroW * W2 k j) + b2 j) zeroW

/-- One node's layer output at channel `j`, with the per-channel scale `s` given. -/
def ginRow {D : Nat} (xr ar : Fin D → EReal) (W1 : Fin D → Fin 128 → EReal) (b1 : Fin 128 → EReal)
    (W2 : Fin 128 → Fin 128 → EReal) (b2 s β μ : Fin 128 → EReal) (j : Fin 128) : EReal :=
  (dense xr ar W1 b1 W2 b2 j - μ j) * s j + β j

/-- The layer over all nodes, the row parameters laid out as `1 × 128` matrices and the scale taken as
    `gamma · rsqrt(var + eps)`. -/
def layerK (D : Nat) (x a : A2 50000 D) (W1 : A2 D 128) (b1 : A2 1 128) (W2 : A2 128 128)
    (b2 g β μ v : A2 1 128) : A2 50000 128 := fun i =>
  ginRow (fun d => x (ix2 (n0 := 50000) (i 0) d)) (fun d => a (ix2 (n0 := 50000) (i 0) d)) (fun d k => W1 (ix2 d k))
    (fun k => b1 (ix2 0 k)) (fun k j => W2 (ix2 k j)) (fun j => b2 (ix2 0 j))
    (fun j => g (ix2 0 j) * Ideal.rsqrt (v (ix2 0 j) + epsW)) (fun j => β (ix2 0 j)) (fun j => μ (ix2 0 j)) (i 1)

/-- The layer over all nodes, the row parameters laid out as vectors and the scale taken as
    `gamma / sqrt(var + eps)`. -/
def layerR (D : Nat) (x a : A2 50000 D) (W1 : A2 D 128) (b1 : A1 128) (W2 : A2 128 128)
    (b2 g β μ v : A1 128) : A2 50000 128 := fun i =>
  ginRow (fun d => x (ix2 (n0 := 50000) (i 0) d)) (fun d => a (ix2 (n0 := 50000) (i 0) d)) (fun d k => W1 (ix2 d k))
    (fun k => b1 (ix1 k)) (fun k j => W2 (ix2 k j)) (fun j => b2 (ix1 j))
    (fun j => Ideal.div (g (ix1 j)) (Ideal.sqrt (v (ix1 j) + epsW))) (fun j => β (ix1 j)) (fun j => μ (ix1 j)) (i 1)

/-- The head for one pooled row. -/
def headRow (pr : Fin 128 → EReal) (W1 : Fin 128 → Fin 128 → EReal) (b1 w2 : Fin 128 → EReal) (b2 : EReal) : EReal :=
  (∑ k : Fin 128, max ((∑ d : Fin 128, pr d * W1 d k) + b1 k) zeroW * w2 k) + b2

/-- The head over all 512 pooled rows, biases laid out as `1 × 128` and `1 × 1` matrices. -/
def headK (p : A2 512 128) (W1 : A2 128 128) (b1 : A2 1 128) (W2 : A2 128 1) (b2 : A2 1 1) : A2 512 1 := fun i =>
  headRow (fun d => p (ix2 (n0 := 512) (i 0) d)) (fun d k => W1 (ix2 d k)) (fun k => b1 (ix2 0 k)) (fun k => W2 (ix2 k 0))
    (b2 (ix2 0 0))

/-- The head over all 512 pooled rows, biases laid out as vectors. -/
def headR (p : A2 512 128) (W1 : A2 128 128) (b1 : A1 128) (W2 : A2 128 1) (b2 : A1 1) : A2 512 1 := fun i =>
  headRow (fun d => p (ix2 (n0 := 512) (i 0) d)) (fun d k => W1 (ix2 d k)) (fun k => b1 (ix1 k)) (fun k => W2 (ix2 k 0))
    (b2 (ix1 0))

/-- The epsilon's word denotes a positive real. -/
theorem epsW_pos : ∃ e : ℝ, 0 < e ∧ epsW = (e : EReal) := by
  refine ⟨10995116 / 2 ^ 40, by norm_num, ?_⟩
  unfold epsW
  simp [Ideal.ofBits, Ideal.ieee, -EReal.coe_mul]
  norm_num

/-- For a nonnegative variance the kernel's scale `g · rsqrt(v + eps)` and the reference's `g / sqrt(v + eps)` are
    one extended real: `v + eps` is a positive real or `+∞`; on a positive real `t` both are `g · (√t)⁻¹`, and at
    `+∞` both are `g · 0`. -/
theorem scale_eq (g v : EReal) (hv : 0 ≤ v) :
    g * Ideal.rsqrt (v + epsW) = Ideal.div g (Ideal.sqrt (v + epsW)) := by
  obtain ⟨e, he, hE⟩ := epsW_pos
  rw [hE]
  induction v using EReal.rec with
  | bot => exact absurd hv (by simp)
  | top =>
    have h1 : (⊤ : EReal) + (e : EReal) = ⊤ := EReal.top_add_coe e
    rw [h1]
    show g * 0 = Ideal.div g ⊤
    unfold Ideal.div
    rw [if_neg (by simp), EReal.inv_top]
  | coe r =>
    have hr : 0 ≤ r := by exact_mod_cast hv
    have hpos : 0 < r + e := by linarith
    have h1 : ((r : ℝ) : EReal) + (e : EReal) = ((r + e : ℝ) : EReal) := (EReal.coe_add r e).symm
    rw [h1, Ideal.rsqrt_coe, if_neg (not_lt.mpr hpos.le), if_neg hpos.ne']
    have hs : Ideal.sqrt ((r + e : ℝ) : EReal) = ((Real.sqrt (r + e) : ℝ) : EReal) := by
      show (if r + e < 0 then (⊥ : EReal) else (Real.sqrt (r + e) : EReal)) = _
      rw [if_neg (not_lt.mpr hpos.le)]
    have hne : Real.sqrt (r + e) ≠ 0 := (Real.sqrt_pos.mpr hpos).ne'
    rw [hs]
    unfold Ideal.div
    rw [if_neg (by exact_mod_cast hne), ← EReal.coe_inv]

/-- With row parameters that agree entry by entry across the two layouts and a nonnegative variance, the two
    forms of the layer are one array. -/
theorem layer_join (D : Nat) (x a : A2 50000 D) (W1 : A2 D 128) (W2 : A2 128 128)
    (b1' b2' g' β' μ' v' : A2 1 128) (b1 b2 g β μ v : A1 128)
    (hb1 : ∀ j, b1' (ix2 0 j) = b1 (ix1 j)) (hb2 : ∀ j, b2' (ix2 0 j) = b2 (ix1 j))
    (hg : ∀ j, g' (ix2 0 j) = g (ix1 j)) (hβ : ∀ j, β' (ix2 0 j) = β (ix1 j))
    (hμ : ∀ j, μ' (ix2 0 j) = μ (ix1 j)) (hv : ∀ j, v' (ix2 0 j) = v (ix1 j))
    (hpos : ∀ j, 0 ≤ v (ix1 j)) :
    layerK D x a W1 b1' W2 b2' g' β' μ' v' = layerR D x a W1 b1 W2 b2 g β μ v := by
  funext i
  unfold layerK layerR
  simp only [hb1, hb2, hg, hβ, hμ, hv]
  have hs : (fun j => g (ix1 j) * Ideal.rsqrt (v (ix1 j) + epsW))
      = fun j => Ideal.div (g (ix1 j)) (Ideal.sqrt (v (ix1 j) + epsW)) :=
    funext fun j => scale_eq _ _ (hpos j)
  rw [hs]

/-- With biases that agree entry by entry across the two layouts, the two forms of the head are one array. -/
theorem head_join (p : A2 512 128) (W1 : A2 128 128) (W2 : A2 128 1) (b1' : A2 1 128) (b2' : A2 1 1)
    (b1 : A1 128) (b2 : A1 1) (hb1 : ∀ j, b1' (ix2 0 j) = b1 (ix1 j)) (hb2 : b2' (ix2 0 0) = b2 (ix1 0)) :
    headK p W1 b1' W2 b2' = headR p W1 b1 W2 b2 := by
  funext i
  unfold headK headR
  simp only [hb1, hb2]

end Cert.Gin

end
-- ==== Proof.KOps.lean ====
/-
  The kernel program's host stretches as named functions of whole arrays, at any float instance.

  `srcIdx` / `dstIdx` are the edge list's two rows as index columns (a negative source wrapped by the node count),
  `agg2` / `agg128` the neighbour sum (gather the source rows, scatter-add them at the destinations into zeros),
  `pool` the per-graph sum of node rows, `rowv` / `rowv1` a vector laid out as a one-row matrix, and `pickM k` /
  `pickV k` row `k` of a stacked parameter array.
-/
import proofs.«115757_j9131100472083_1_alg».proof.KernelIdeal
import proofs.«115757_j9131100472083_1_alg».proof.Proof.Gen.KernelIdeal

noncomputable section

namespace Cert.KernelIdeal.KOps

open Cert.KernelIdeal Cert.KernelIdeal.Gen Idealize.ShloMosaic Idealize.ShloMosaic.TcCoe

variable {F : FTy → Type} [FloatOps F]

/-- The edges' source nodes (row 0 of the edge list). -/
def srcRow (e : IVec S2x800000 32) : IVec S800000 32 :=
  shapeCast S800000 (extractStridedSlice S1x800000 ![0, 0] e slices_S2x800000_S1x800000_0_0) shapeCasts_S1x800000_S800000

/-- The edges' destination nodes (row 1 of the edge list). -/
def dstRow (e : IVec S2x800000 32) : IVec S800000 32 :=
  shapeCast S800000 (extractStridedSlice S1x800000 ![1, 0] e slices_S2x800000_S1x800000_1_0) shapeCasts_S1x800000_S800000

/-- The source nodes as a column of gather indices, a negative one wrapped by the node count. -/
def srcIdx (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The destination nodes as a column of scatter indices. -/
def dstIdx (e : IVec S2x800000 32) : IVec S800000x1 32 :=
  broadcastInDim S800000x1 ![0] bcast_S800000_S800000x1_0 (dstRow e)

/-- The neighbour sum of 2-channel features. -/
def agg2 (e : IVec S2x800000 32) (x : FVec F S50000x2 .f32) : FVec F S50000x2 .f32 :=
  Host.scatterAdd scatter_S50000x2_S800000x1_S800000x2_1_0_0_1
    (broadcastInDim S50000x2 ![] bcast_S_S50000x2 (constant S_ .f32 0x00000000#32)) (dstIdx e)
    (Host.gather gather_S50000x2_S800000x1_S800000x2_1_0_n_n_0_1_12 x (srcIdx e))

/-- The neighbour sum of 128-channel features. -/
def agg128 (e : IVec S2x800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32)) (dstIdx e)
    (Host.gather gather_S50000x128_S800000x1_S800000x128_1_0_n_n_0_1_1128 h (srcIdx e))

/-- The per-graph sum of node rows. -/
def pool (bt : IVec S50000 32) (h : FVec F S50000x128 .f32) : FVec F S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 bt) h

/-- A 128-vector as a `1 × 128` matrix, and a 1-vector as a `1 × 1` matrix. -/
def rowv (y : FVec F S128 .f32) : FVec F S1x128 .f32 := shapeCast S1x128 y shapeCasts_S128_S1x128
def rowv1 (y : FVec F S1 .f32) : FVec F S1x1 .f32 := shapeCast S1x1 y shapeCasts_S1_S1x1

/-- Matrix `k` of a stack of four `128 × 128` matrices. -/
def pickM0 (x : FVec F S4x128x128 .f32) : FVec F S128x128 .f32 :=
  shapeCast S128x128 (extractStridedSlice S1x128x128 ![0, 0, 0] x slices_S4x128x128_S1x128x128_0_0_0) shapeCasts_S1x128x128_S128x128
def pickM1 (x : FVec F S4x128x128 .f32) : FVec F S128x128 .f32 :=
  shapeCast S128x128 (extractStridedSlice S1x128x128 ![1, 0, 0] x slices_S4x128x128_S1x128x128_1_0_0) shapeCasts_S1x128x128_S128x128
def pickM2 (x : FVec F S4x128x128 .f32) : FVec F S128x128 .f32 :=
  shapeCast S128x128 (extractStridedSlice S1x128x128 ![2, 0, 0] x slices_S4x128x128_S1x128x128_2_0_0) shapeCasts_S1x128x128_S128x128
def pickM3 (x : FVec F S4x128x128 .f32) : FVec F S128x128 .f32 :=
  shapeCast S128x128 (extractStridedSlice S1x128x128 ![3, 0, 0] x slices_S4x128x128_S1x128x128_3_0_0) shapeCasts_S1x128x128_S128x128

/-- Row `k` of a stack of four 128-vectors. -/
def pickV0 (x : FVec F S4x128 .f32) : FVec F S128 .f32 :=
  shapeCast S128 (extractStridedSlice S1x128 ![0, 0] x slices_S4x128_S1x128_0_0) shapeCasts_S1x128_S128
def pickV1 (x : FVec F S4x128 .f32) : FVec F S128 .f32 :=
  shapeCast S128 (extractStridedSlice S1x128 ![1, 0] x slices_S4x128_S1x128_1_0) shapeCasts_S1x128_S128
def pickV2 (x : FVec F S4x128 .f32) : FVec F S128 .f32 :=
  shapeCast S128 (extractStridedSlice S1x128 ![2, 0] x slices_S4x128_S1x128_2_0) shapeCasts_S1x128_S128
def pickV3 (x : FVec F S4x128 .f32) : FVec F S128 .f32 :=
  shapeCast S128 (extractStridedSlice S1x128 ![3, 0] x slices_S4x128_S1x128_3_0) shapeCasts_S1x128_S128

end Cert.KernelIdeal.KOps

end
-- ==== Proof.KChain.lean ====
/-
  The kernel program's result as one function of its argument arrays, on the extended reals: five layers, each on the
  previous layer's output and its neighbour sum, the per-graph pooling, and the read-out head.
-/
import proofs.«115757_j9131100472083_1_alg».proof.Proof.Spec
import proofs.«115757_j9131100472083_1_alg».proof.Proof.KOps

noncomputable section

namespace Cert.KernelIdeal.KChain

open Cert.KernelIdeal Cert.KernelIdeal.Gen Cert.KernelIdeal.KOps Idealize.ShloMosaic Idealize.ShloMosaic.TcCoe

/-- The program's 23 argument arrays. -/
structure Args where
  x0 : FVec Ideal S50000x2 .f32
  x1 : IVec S2x800000 32
  x2 : IVec S50000 32
  x3 : FVec Ideal S2x128 .f32
  x4 : FVec Ideal S128 .f32
  x5 : FVec Ideal S128x128 .f32
  x6 : FVec Ideal S128 .f32
  x7 : FVec Ideal S128 .f32
  x8 : FVec Ideal S128 .f32
  x9 : FVec Ideal S128 .f32
  x10 : FVec Ideal S128 .f32
  x11 : FVec Ideal S4x128x128 .f32
  x12 : FVec Ideal S4x128 .f32
  x13 : FVec Ideal S4x128x128 .f32
  x14 : FVec Ideal S4x128 .f32
  x15 : FVec Ideal S4x128 .f32
  x16 : FVec Ideal S4x128 .f32
  x17 : FVec Ideal S4x128 .f32
  x18 : FVec Ideal S4x128 .f32
  x19 : FVec Ideal S128x128 .f32
  x20 : FVec Ideal S128 .f32
  x21 : FVec Ideal S128x1 .f32
  x22 : FVec Ideal S1 .f32

/-- The first layer's output. -/
def h1 (a : Args) : FVec Ideal S50000x128 .f32 :=
  Cert.Gin.layerK 2 a.x0 (agg2 a.x1 a.x0) a.x3 (rowv a.x4) a.x5 (rowv a.x6) (rowv a.x7) (rowv a.x8) (rowv a.x9) (rowv a.x10)

/-- A later layer's output from the previous one's, with its parameters picked by `pm` / `pv` from the stacks. -/
def next (pm : FVec Ideal S4x128x128 .f32 → FVec Ideal S128x128 .f32) (pv : FVec Ideal S4x128 .f32 → FVec Ideal S128 .f32)
    (a : Args) (h : FVec Ideal S50000x128 .f32) : FVec Ideal S50000x128 .f32 :=
  Cert.Gin.layerK 128 h (agg128 a.x1 h) (pm a.x11) (rowv (pv a.x12)) (pm a.x13) (rowv (pv a.x14)) (rowv (pv a.x15))
    (rowv (pv a.x16)) (rowv (pv a.x17)) (rowv (pv a.x18))

def h2 (a : Args) : FVec Ideal S50000x128 .f32 := next pickM0 pickV0 a (h1 a)
def h3 (a : Args) : FVec Ideal S50000x128 .f32 := next pickM1 pickV1 a (h2 a)
def h4 (a : Args) : FVec Ideal S50000x128 .f32 := next pickM2 pickV2 a (h3 a)
def h5 (a : Args) : FVec Ideal S50000x128 .f32 := next pickM3 pickV3 a (h4 a)

/-- The head on the pooled last layer, as a `512 × 1` matrix. -/
def head (a : Args) : FVec Ideal S512x1 .f32 :=
  Cert.Gin.headK (pool a.x2 (h5 a)) a.x19 (rowv a.x20) a.x21 (rowv1 a.x22)

/-- The program's result. -/
def out (a : Args) : FVec Ideal S512 .f32 := shapeCast S512 (head a) shapeCasts_S512x1_S512

end Cert.KernelIdeal.KChain

end
-- ==== Proof.KFold.lean ====
/-
  The kernel program's result buffer read back through its thirteen segments to the launch memory.

  Each pallas region leaves every array but its output as it found it, and in the output the layer's (or the head's)
  function of the input arrays; so a region acts on the buffer contents as ONE more host operation writing that array,
  and the whole run reads as a straight line of operations: seven host stretches and six such operations. Reading the
  result buffer back along that line gives the five-layer chain of `KChain`.
  The six regions' values are hypotheses here (`Finals`); they are proved region by region elsewhere.
-/
import proofs.«115757_j9131100472083_1_alg».proof.Proof.Gen.KernelIdeal.Frame
import proofs.«115757_j9131100472083_1_alg».proof.Proof.LibRegionOp
import proofs.«115757_j9131100472083_1_alg».proof.Proof.Spec
import proofs.«115757_j9131100472083_1_alg».proof.Proof.KOps
import proofs.«115757_j9131100472083_1_alg».proof.Proof.KChain

set_option maxRecDepth 16384

noncomputable section

namespace Cert.KernelIdeal.KFold

open Cert.KernelIdeal Cert.KernelIdeal.Gen Idealize.ShloMosaic Idealize.ShloMosaic.TcCoe Idealize.SL.Sem
open Idealize.ShloMosaic.StableHlo

/-- Buffer contents of every core, as a region's entry parameter. -/
abbrev VT : Type := (c : Dev nD) → (b : Ref sig .tc) → Buf (Elt Ideal) ((c : Thread nD τ).loc b)

/-- What region 0 leaves in its output array, from any entry contents. -/
def Fin0 : Prop := ∀ (V : VT) (c : Dev nD),
  (dat0 (F := Ideal) V c).arrAt 10 cfg0.N
    = (Cert.Gin.layerK 2 (V c main_arg0) (V c main_v13) (V c main_arg3) (V c main_v14) (V c main_arg5) (V c main_v15) (V c main_v16) (V c main_v17) (V c main_v18) (V c main_v19) : Cert.Gin.A2 50000 128)

/-- What region 1 leaves in its output array, from any entry contents. -/
def Fin1 : Prop := ∀ (V : VT) (c : Dev nD),
  (dat1 (F := Ideal) V c).arrAt 10 cfg1.N
    = (Cert.Gin.layerK 128 (V c main_v20) (V c main_v30) (V c main_v32) (V c main_v47) (V c main_v36) (V c main_v48) (V c main_v49) (V c main_v50) (V c main_v51) (V c main_v52) : Cert.Gin.A2 50000 128)

/-- What region 2 leaves in its output array, from any entry contents. -/
def Fin2 : Prop := ∀ (V : VT) (c : Dev nD),
  (dat2 (F := Ideal) V c).arrAt 10 cfg2.N
    = (Cert.Gin.layerK 128 (V c main_v53) (V c main_v63) (V c main_v65) (V c main_v80) (V c main_v69) (V c main_v81) (V c main_v82) (V c main_v83) (V c main_v84) (V c main_v85) : Cert.Gin.A2 50000 128)

/-- What region 3 leaves in its output array, from any entry contents. -/
def Fin3 : Prop := ∀ (V : VT) (c : Dev nD),
  (dat3 (F := Ideal) V c).arrAt 10 cfg3.N
    = (Cert.Gin.layerK 128 (V c main_v86) (V c main_v96) (V c main_v98) (V c main_v113) (V c main_v102) (V c main_v114) (V c main_v115) (V c main_v116) (V c main_v117) (V c main_v118) : Cert.Gin.A2 50000 128)

/-- What region 4 leaves in its output array, from any entry contents. -/
def Fin4 : Prop := ∀ (V : VT) (c : Dev nD),
  (dat4 (F := Ideal) V c).arrAt 10 cfg4.N
    = (Cert.Gin.layerK 128 (V c main_v119) (V c main_v129) (V c main_v131) (V c main_v146) (V c main_v135) (V c main_v147) (V c main_v148) (V c main_v149) (V c main_v150) (V c main_v151) : Cert.Gin.A2 50000 128)

/-- What region 5 leaves in its output array, from any entry contents. -/
def Fin5 : Prop := ∀ (V : VT) (c : Dev nD),
  (dat5 (F := Ideal) V c).arrAt 5 cfg5.N
    = (Cert.Gin.headK (V c main_v155) (V c main_arg19) (V c main_v156) (V c main_arg21) (V c main_v157) : Cert.Gin.A2 512 1)

/-- The six regions' values. -/
structure Finals : Prop where
  f0 : Fin0
  f1 : Fin1
  f2 : Fin2
  f3 : Fin3
  f4 : Fin4
  f5 : Fin5

/-- Region 0 as one operation writing its output array. -/
def rop0 : HloOp τ sig (Elt Ideal) :=
  StableHlo.nary ![main_arg0, main_v13, main_arg3, main_v14, main_arg5, main_v15, main_v16, main_v17, main_v18, main_v19] main_v20
    (fun u => (Cert.Gin.layerK 2 (u 0) (u 1) (u 2) (u 3) (u 4) (u 5) (u 6) (u 7) (u 8) (u 9) : Cert.Gin.A2 50000 128))

theorem rop0_at (W : Valuation τ sig (Elt Ideal)) :
    rop0.result W (no_index (Proc.devRef .tc main_v20))
      = (Cert.Gin.layerK 2 (W (Proc.devRef .tc main_arg0)) (W (Proc.devRef .tc main_v13)) (W (Proc.devRef .tc main_arg3)) (W (Proc.devRef .tc main_v14)) (W (Proc.devRef .tc main_arg5)) (W (Proc.devRef .tc main_v15)) (W (Proc.devRef .tc main_v16)) (W (Proc.devRef .tc main_v17)) (W (Proc.devRef .tc main_v18)) (W (Proc.devRef .tc main_v19)) : Cert.Gin.A2 50000 128) := by
  unfold rop0; rw [StableHlo.nary_result]; rfl

theorem rop0_ne (W : Valuation τ sig (Elt Ideal)) {r : Ref sig .tc} (h : r ≠ main_v20) :
    rop0.result W (no_index (Proc.devRef .tc r)) = W (Proc.devRef .tc r) := by
  unfold rop0; rw [StableHlo.nary_result_ne]; exact h

/-- Region 1 as one operation writing its output array. -/
def rop1 : HloOp τ sig (Elt Ideal) :=
  StableHlo.nary ![main_v20, main_v30, main_v32, main_v47, main_v36, main_v48, main_v49, main_v50, main_v51, main_v52] main_v53
    (fun u => (Cert.Gin.layerK 128 (u 0) (u 1) (u 2) (u 3) (u 4) (u 5) (u 6) (u 7) (u 8) (u 9) : Cert.Gin.A2 50000 128))

theorem rop1_at (W : Valuation τ sig (Elt Ideal)) :
    rop1.result W (no_index (Proc.devRef .tc main_v53))
      = (Cert.Gin.layerK 128 (W (Proc.devRef .tc main_v20)) (W (Proc.devRef .tc main_v30)) (W (Proc.devRef .tc main_v32)) (W (Proc.devRef .tc main_v47)) (W (Proc.devRef .tc main_v36)) (W (Proc.devRef .tc main_v48)) (W (Proc.devRef .tc main_v49)) (W (Proc.devRef .tc main_v50)) (W (Proc.devRef .tc main_v51)) (W (Proc.devRef .tc main_v52)) : Cert.Gin.A2 50000 128) := by
  unfold rop1; rw [StableHlo.nary_result]; rfl

theorem rop1_ne (W : Valuation τ sig (Elt Ideal)) {r : Ref sig .tc} (h : r ≠ main_v53) :
    rop1.result W (no_index (Proc.devRef .tc r)) = W (Proc.devRef .tc r) := by
  unfold rop1; rw [StableHlo.nary_result_ne]; exact h

/-- Region 2 as one operation writing its output array. -/
def rop2 : HloOp τ sig (Elt Ideal) :=
  StableHlo.nary ![main_v53, main_v63, main_v65, main_v80, main_v69, main_v81, main_v82, main_v83, main_v84, main_v85] main_v86
    (fun u => (Cert.Gin.layerK 128 (u 0) (u 1) (u 2) (u 3) (u 4) (u 5) (u 6) (u 7) (u 8) (u 9) : Cert.Gin.A2 50000 128))

theorem rop2_at (W : Valuation τ sig (Elt Ideal)) :
    rop2.result W (no_index (Proc.devRef .tc main_v86))
      = (Cert.Gin.layerK 128 (W (Proc.devRef .tc main_v53)) (W (Proc.devRef .tc main_v63)) (W (Proc.devRef .tc main_v65)) (W (Proc.devRef .tc main_v80)) (W (Proc.devRef .tc main_v69)) (W (Proc.devRef .tc main_v81)) (W (Proc.devRef .tc main_v82)) (W (Proc.devRef .tc main_v83)) (W (Proc.devRef .tc main_v84)) (W (Proc.devRef .tc main_v85)) : Cert.Gin.A2 50000 128) := by
  unfold rop2; rw [StableHlo.nary_result]; rfl

theorem rop2_ne (W : Valuation τ sig (Elt Ideal)) {r : Ref sig .tc} (h : r ≠ main_v86) :
    rop2.result W (no_index (Proc.devRef .tc r)) = W (Proc.devRef .tc r) := by
  unfold rop2; rw [StableHlo.nary_result_ne]; exact h

/-- Region 3 as one operation writing its output array. -/
def rop3 : HloOp τ sig (Elt Ideal) :=
  StableHlo.nary ![main_v86, main_v96, main_v98, main_v113, main_v102, main_v114, main_v115, main_v116, main_v117, main_v118] main_v119
    (fun u => (Cert.Gin.layerK 128 (u 0) (u 1) (u 2) (u 3) (u 4) (u 5) (u 6) (u 7) (u 8) (u 9) : Cert.Gin.A2 50000 128))

theorem rop3_at (W : Valuation τ sig (Elt Ideal)) :
    rop3.result W (no_index (Proc.devRef .tc main_v119))
      = (Cert.Gin.layerK 128 (W (Proc.devRef .tc main_v86)) (W (Proc.devRef .tc main_v96)) (W (Proc.devRef .tc main_v98)) (W (Proc.devRef .tc main_v113)) (W (Proc.devRef .tc main_v102)) (W (Proc.devRef .tc main_v114)) (W (Proc.devRef .tc main_v115)) (W (Proc.devRef .tc main_v116)) (W (Proc.devRef .tc main_v117)) (W (Proc.devRef .tc main_v118)) : Cert.Gin.A2 50000 128) := by
  unfold rop3; rw [StableHlo.nary_result]; rfl

theorem rop3_ne (W : Valuation τ sig (Elt Ideal)) {r : Ref sig .tc} (h : r ≠ main_v119) :
    rop3.result W (no_index (Proc.devRef .tc r)) = W (Proc.devRef .tc r) := by
  unfold rop3; rw [StableHlo.nary_result_ne]; exact h

/-- Region 4 as one operation writing its output array. -/
def rop4 : HloOp τ sig (Elt Ideal) :=
  StableHlo.nary ![main_v119, main_v129, main_v131, main_v146, main_v135, main_v147, main_v148, main_v149, main_v150, main_v151] main_v152
    (fun u => (Cert.Gin.layerK 128 (u 0) (u 1) (u 2) (u 3) (u 4) (u 5) (u 6) (u 7) (u 8) (u 9) : Cert.Gin.A2 50000 128))

theorem rop4_at (W : Valuation τ sig (Elt Ideal)) :
    rop4.result W (no_index (Proc.devRef .tc main_v152))
      = (Cert.Gin.layerK 128 (W (Proc.devRef .tc main_v119)) (W (Proc.devRef .tc main_v129)) (W (Proc.devRef .tc main_v131)) (W (Proc.devRef .tc main_v146)) (W (Proc.devRef .tc main_v135)) (W (Proc.devRef .tc main_v147)) (W (Proc.devRef .tc main_v148)) (W (Proc.devRef .tc main_v149)) (W (Proc.devRef .tc main_v150)) (W (Proc.devRef .tc main_v151)) : Cert.Gin.A2 50000 128) := by
  unfold rop4; rw [StableHlo.nary_result]; rfl

theorem rop4_ne (W : Valuation τ sig (Elt Ideal)) {r : Ref sig .tc} (h : r ≠ main_v152) :
    rop4.result W (no_index (Proc.devRef .tc r)) = W (Proc.devRef .tc r) := by
  unfold rop4; rw [StableHlo.nary_result_ne]; exact h

/-- Region 5 as one operation writing its output array. -/
def rop5 : HloOp τ sig (Elt Ideal) :=
  StableHlo.nary ![main_v155, main_arg19, main_v156, main_arg21, main_v157] main_v158
    (fun u => (Cert.Gin.headK (u 0) (u 1) (u 2) (u 3) (u 4) : Cert.Gin.A2 512 1))

theorem rop5_at (W : Valuation τ sig (Elt Ideal)) :
    rop5.result W (no_index (Proc.devRef .tc main_v158))
      = (Cert.Gin.headK (W (Proc.devRef .tc main_v155)) (W (Proc.devRef .tc main_arg19)) (W (Proc.devRef .tc main_v156)) (W (Proc.devRef .tc main_arg21)) (W (Proc.devRef .tc main_v157)) : Cert.Gin.A2 512 1) := by
  unfold rop5; rw [StableHlo.nary_result]; rfl

theorem rop5_ne (W : Valuation τ sig (Elt Ideal)) {r : Ref sig .tc} (h : r ≠ main_v158) :
    rop5.result W (no_index (Proc.devRef .tc r)) = W (Proc.devRef .tc r) := by
  unfold rop5; rw [StableHlo.nary_result_ne]; exact h

variable (m : (ℓ : Loc nD τ sig) → Buf (Elt Ideal) ℓ) (ρ : Dev nD → PrngReg)

set_option maxHeartbeats 8000000 in
/-- At region 0's exit the buffers are the region's operation applied to the entry contents. -/
theorem W2_eq (hf : Fin0) (c : Dev nD) : W2 m ρ c = rop0.result (W1 m ρ c) := by
  unfold W2
  refine Cert.RegionOp.withArrays_eq_result spec0 launch0.win.arr_inj c (W1 m ρ c) _ 10 rop0 rfl ?_ ?_
  · intro w hw
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact ((dat0 (V1 m ρ) c).arrAt_in 2 rfl _).trans (A_eq0 (V1 m ρ) c 2)
    · exact ((dat0 (V1 m ρ) c).arrAt_in 3 rfl _).trans (A_eq0 (V1 m ρ) c 3)
    · exact ((dat0 (V1 m ρ) c).arrAt_in 4 rfl _).trans (A_eq0 (V1 m ρ) c 4)
    · exact ((dat0 (V1 m ρ) c).arrAt_in 5 rfl _).trans (A_eq0 (V1 m ρ) c 5)
    · exact ((dat0 (V1 m ρ) c).arrAt_in 6 rfl _).trans (A_eq0 (V1 m ρ) c 6)
    · exact ((dat0 (V1 m ρ) c).arrAt_in 7 rfl _).trans (A_eq0 (V1 m ρ) c 7)
    · exact ((dat0 (V1 m ρ) c).arrAt_in 8 rfl _).trans (A_eq0 (V1 m ρ) c 8)
    · exact ((dat0 (V1 m ρ) c).arrAt_in 9 rfl _).trans (A_eq0 (V1 m ρ) c 9)
    · exact absurd rfl hw
  · exact (hf (V1 m ρ) c).trans (rop0_at (W1 m ρ c)).symm

set_option maxHeartbeats 8000000 in
/-- At region 1's exit the buffers are the region's operation applied to the entry contents. -/
theorem W4_eq (hf : Fin1) (c : Dev nD) : W4 m ρ c = rop1.result (W3 m ρ c) := by
  unfold W4
  refine Cert.RegionOp.withArrays_eq_result spec1 launch1.win.arr_inj c (W3 m ρ c) _ 10 rop1 rfl ?_ ?_
  · intro w hw
    fin_cases w
    · exact ((dat1 (V3 m ρ) c).arrAt_in 0 rfl _).trans (A_eq1 (V3 m ρ) c 0)
    · exact ((dat1 (V3 m ρ) c).arrAt_in 1 rfl _).trans (A_eq1 (V3 m ρ) c 1)
    · exact ((dat1 (V3 m ρ) c).arrAt_in 2 rfl _).trans (A_eq1 (V3 m ρ) c 2)
    · exact ((dat1 (V3 m ρ) c).arrAt_in 3 rfl _).trans (A_eq1 (V3 m ρ) c 3)
    · exact ((dat1 (V3 m ρ) c).arrAt_in 4 rfl _).trans (A_eq1 (V3 m ρ) c 4)
    · exact ((dat1 (V3 m ρ) c).arrAt_in 5 rfl _).trans (A_eq1 (V3 m ρ) c 5)
    · exact ((dat1 (V3 m ρ) c).arrAt_in 6 rfl _).trans (A_eq1 (V3 m ρ) c 6)
    · exact ((dat1 (V3 m ρ) c).arrAt_in 7 rfl _).trans (A_eq1 (V3 m ρ) c 7)
    · exact ((dat1 (V3 m ρ) c).arrAt_in 8 rfl _).trans (A_eq1 (V3 m ρ) c 8)
    · exact ((dat1 (V3 m ρ) c).arrAt_in 9 rfl _).trans (A_eq1 (V3 m ρ) c 9)
    · exact absurd rfl hw
  · exact (hf (V3 m ρ) c).trans (rop1_at (W3 m ρ c)).symm

set_option maxHeartbeats 8000000 in
/-- At region 2's exit the buffers are the region's operation applied to the entry contents. -/
theorem W6_eq (hf : Fin2) (c : Dev nD) : W6 m ρ c = rop2.result (W5 m ρ c) := by
  unfold W6
  refine Cert.RegionOp.withArrays_eq_result spec2 launch2.win.arr_inj c (W5 m ρ c) _ 10 rop2 rfl ?_ ?_
  · intro w hw
    fin_cases w
    · exact ((dat2 (V5 m ρ) c).arrAt_in 0 rfl _).trans (A_eq2 (V5 m ρ) c 0)
    · exact ((dat2 (V5 m ρ) c).arrAt_in 1 rfl _).trans (A_eq2 (V5 m ρ) c 1)
    · exact ((dat2 (V5 m ρ) c).arrAt_in 2 rfl _).trans (A_eq2 (V5 m ρ) c 2)
    · exact ((dat2 (V5 m ρ) c).arrAt_in 3 rfl _).trans (A_eq2 (V5 m ρ) c 3)
    · exact ((dat2 (V5 m ρ) c).arrAt_in 4 rfl _).trans (A_eq2 (V5 m ρ) c 4)
    · exact ((dat2 (V5 m ρ) c).arrAt_in 5 rfl _).trans (A_eq2 (V5 m ρ) c 5)
    · exact ((dat2 (V5 m ρ) c).arrAt_in 6 rfl _).trans (A_eq2 (V5 m ρ) c 6)
    · exact ((dat2 (V5 m ρ) c).arrAt_in 7 rfl _).trans (A_eq2 (V5 m ρ) c 7)
    · exact ((dat2 (V5 m ρ) c).arrAt_in 8 rfl _).trans (A_eq2 (V5 m ρ) c 8)
    · exact ((dat2 (V5 m ρ) c).arrAt_in 9 rfl _).trans (A_eq2 (V5 m ρ) c 9)
    · exact absurd rfl hw
  · exact (hf (V5 m ρ) c).trans (rop2_at (W5 m ρ c)).symm

set_option maxHeartbeats 8000000 in
/-- At region 3's exit the buffers are the region's operation applied to the entry contents. -/
theorem W8_eq (hf : Fin3) (c : Dev nD) : W8 m ρ c = rop3.result (W7 m ρ c) := by
  unfold W8
  refine Cert.RegionOp.withArrays_eq_result spec3 launch3.win.arr_inj c (W7 m ρ c) _ 10 rop3 rfl ?_ ?_
  · intro w hw
    fin_cases w
    · exact ((dat3 (V7 m ρ) c).arrAt_in 0 rfl _).trans (A_eq3 (V7 m ρ) c 0)
    · exact ((dat3 (V7 m ρ) c).arrAt_in 1 rfl _).trans (A_eq3 (V7 m ρ) c 1)
    · exact ((dat3 (V7 m ρ) c).arrAt_in 2 rfl _).trans (A_eq3 (V7 m ρ) c 2)
    · exact ((dat3 (V7 m ρ) c).arrAt_in 3 rfl _).trans (A_eq3 (V7 m ρ) c 3)
    · exact ((dat3 (V7 m ρ) c).arrAt_in 4 rfl _).trans (A_eq3 (V7 m ρ) c 4)
    · exact ((dat3 (V7 m ρ) c).arrAt_in 5 rfl _).trans (A_eq3 (V7 m ρ) c 5)
    · exact ((dat3 (V7 m ρ) c).arrAt_in 6 rfl _).trans (A_eq3 (V7 m ρ) c 6)
    · exact ((dat3 (V7 m ρ) c).arrAt_in 7 rfl _).trans (A_eq3 (V7 m ρ) c 7)
    · exact ((dat3 (V7 m ρ) c).arrAt_in 8 rfl _).trans (A_eq3 (V7 m ρ) c 8)
    · exact ((dat3 (V7 m ρ) c).arrAt_in 9 rfl _).trans (A_eq3 (V7 m ρ) c 9)
    · exact absurd rfl hw
  · exact (hf (V7 m ρ) c).trans (rop3_at (W7 m ρ c)).symm

set_option maxHeartbeats 8000000 in
/-- At region 4's exit the buffers are the region's operation applied to the entry contents. -/
theorem W10_eq (hf : Fin4) (c : Dev nD) : W10 m ρ c = rop4.result (W9 m ρ c) := by
  unfold W10
  refine Cert.RegionOp.withArrays_eq_result spec4 launch4.win.arr_inj c (W9 m ρ c) _ 10 rop4 rfl ?_ ?_
  · intro w hw
    fin_cases w
    · exact ((dat4 (V9 m ρ) c).arrAt_in 0 rfl _).trans (A_eq4 (V9 m ρ) c 0)
    · exact ((dat4 (V9 m ρ) c).arrAt_in 1 rfl _).trans (A_eq4 (V9 m ρ) c 1)
    · exact ((dat4 (V9 m ρ) c).arrAt_in 2 rfl _).trans (A_eq4 (V9 m ρ) c 2)
    · exact ((dat4 (V9 m ρ) c).arrAt_in 3 rfl _).trans (A_eq4 (V9 m ρ) c 3)
    · exact ((dat4 (V9 m ρ) c).arrAt_in 4 rfl _).trans (A_eq4 (V9 m ρ) c 4)
    · exact ((dat4 (V9 m ρ) c).arrAt_in 5 rfl _).trans (A_eq4 (V9 m ρ) c 5)
    · exact ((dat4 (V9 m ρ) c).arrAt_in 6 rfl _).trans (A_eq4 (V9 m ρ) c 6)
    · exact ((dat4 (V9 m ρ) c).arrAt_in 7 rfl _).trans (A_eq4 (V9 m ρ) c 7)
    · exact ((dat4 (V9 m ρ) c).arrAt_in 8 rfl _).trans (A_eq4 (V9 m ρ) c 8)
    · exact ((dat4 (V9 m ρ) c).arrAt_in 9 rfl _).trans (A_eq4 (V9 m ρ) c 9)
    · exact absurd rfl hw
  · exact (hf (V9 m ρ) c).trans (rop4_at (W9 m ρ c)).symm

set_option maxHeartbeats 8000000 in
/-- At region 5's exit the buffers are the region's operation applied to the entry contents. -/
theorem W12_eq (hf : Fin5) (c : Dev nD) : W12 m ρ c = rop5.result (W11 m ρ c) := by
  unfold W12
  refine Cert.RegionOp.withArrays_eq_result spec5 launch5.win.arr_inj c (W11 m ρ c) _ 5 rop5 rfl ?_ ?_
  · intro w hw
    fin_cases w
    · exact ((dat5 (V11 m ρ) c).arrAt_in 0 rfl _).trans (A_eq5 (V11 m ρ) c 0)
    · exact ((dat5 (V11 m ρ) c).arrAt_in 1 rfl _).trans (A_eq5 (V11 m ρ) c 1)
    · exact ((dat5 (V11 m ρ) c).arrAt_in 2 rfl _).trans (A_eq5 (V11 m ρ) c 2)
    · exact ((dat5 (V11 m ρ) c).arrAt_in 3 rfl _).trans (A_eq5 (V11 m ρ) c 3)
    · exact ((dat5 (V11 m ρ) c).arrAt_in 4 rfl _).trans (A_eq5 (V11 m ρ) c 4)
    · exact absurd rfl hw
  · exact (hf (V11 m ρ) c).trans (rop5_at (W11 m ρ c)).symm

/-- The launch memory's argument arrays, bundled. -/
def argsOf (c : Dev nD) : KChain.Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)

set_option maxHeartbeats 400000000 in
/-- The result buffer at the last boundary is the five-layer chain, the pooling and the head on the launch memory's
    argument arrays. -/
theorem result_eq (hf : Finals) (c : Dev nD) :
    W13 m ρ c (Proc.devRef .tc main_v159) = KChain.out (argsOf m c) := by
  dsimp only [W13]
  rw [W12_eq m ρ hf.f5 c]
  dsimp only [W11]
  rw [W10_eq m ρ hf.f4 c]
  dsimp only [W9]
  rw [W8_eq m ρ hf.f3 c]
  dsimp only [W7]
  rw [W6_eq m ρ hf.f2 c]
  dsimp only [W5]
  rw [W4_eq m ρ hf.f1 c]
  dsimp only [W3]
  rw [W2_eq m ρ hf.f0 c]
  dsimp only [W1]
  simp (disch := decide) only [hostOps0, hostOps1, hostOps2, hostOps3, hostOps4, hostOps5, hostOps6, after_cons, after_nil,
    nullary_result', unary_result', binary_result', ternary_result', reshape_result',
    nullary_result_ne', unary_result_ne', binary_result_ne', ternary_result_ne', reshape_result_ne',
    rop0_at, rop0_ne, rop1_at, rop1_ne, rop2_at, rop2_ne, rop3_at, rop3_ne, rop4_at, rop4_ne, rop5_at, rop5_ne]
  rfl

end Cert.KernelIdeal.KFold

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KPay0.lean ====
/-
  The first layer's arithmetic at one node and one output channel.

  The kernel body takes a block `x` of node feature rows and the block `a` of their neighbour sums, the first
  dense map `W1` with bias row `b1`, the second `W2` with bias row `b2`, and the batch-norm rows gamma, beta,
  running mean and running variance. At node `p`, channel `q` it stores
      (max ((∑ k, max ((∑ d, (x (p,d) + a (p,d)) · W1 (d,k)) + b1 (0,k)) 0 · W2 (k,q)) + b2 (0,q)) 0 - mean (0,q))
          · (gamma (0,q) · rsqrt (var (0,q) + eps)) + beta (0,q) :
  each matrix-unit product into a zero accumulator is the contraction's plain sum, the narrowing format changes
  are the identity on extended reals, each parameter row is broadcast down the rows, and each clamp is a maximum
  with the float zero.
-/
import proofs.«115757_j9131100472083_1_alg».proof.Proof.Spec
import proofs.«115757_j9131100472083_1_alg».proof.Proof.LibPlainDot
import proofs.«115757_j9131100472083_1_alg».proof.Proof.Gen.KernelIdeal.Skeleton
import Idealize.ShloMosaic.Lib.ValueLayout
import Idealize.ShloMosaic.Lib.Pipeline.Value

noncomputable section

namespace Cert.KernelIdeal.KPay0

open Idealize.ShloMosaic Idealize.ShloMosaic.ValueIdx Cert.KernelIdeal

/-- The per-channel scale: `gamma · rsqrt(var + eps)`. -/
theorem pay_scale (g v : Vec Ideal S1x128 .f32) (q : Fin 128) :
    Gen.k0_pay2 (F := Ideal) g v (ix2 0 q) = g (ix2 0 q) * Ideal.rsqrt (v (ix2 0 q) + Cert.Gin.epsW) := by
  unfold Gen.k0_pay2
  simp only [shapeCast_self]
  rfl

/-- The two dense maps with their clamps, less the running mean, at node `p` and channel `q`. -/
theorem pay_dense (x a : Vec Ideal S2000x2 .f32) (W1 : Vec Ideal S2x128 .f32) (b1 : Vec Ideal S1x128 .f32)
    (W2 : Vec Ideal S128x128 .f32) (b2 μ : Vec Ideal S1x128 .f32) (p : Fin 2000) (q : Fin 128) :
    Gen.k0_pay3 (F := Ideal) x a W1 b1 W2 b2 μ (ix2 p q)
      = Cert.Gin.dense (D := 2) (fun d => x (ix2 p d)) (fun d => a (ix2 p d)) (fun d k => W1 (ix2 d k)) (fun k => b1 (ix2 0 k))
          (fun k j => W2 (ix2 k j)) (fun j => b2 (ix2 0 j)) q - μ (ix2 0 q) := by
  unfold Gen.k0_pay3 Cert.Gin.dense
  simp only [shapeCast_self]
  rw [subf_apply, broadcastTo_1b_ab_apply]
  refine congrArg₂ (· - ·) ?_ rfl
  rw [maximumf_apply, addf_apply, broadcast_apply, broadcastTo_1b_ab_apply]
  refine congrArg₂ max (congrArg₂ (· + ·) ?_ rfl) rfl
  refine (Cert.PlainDot.matmul_zero_apply 2000 128 128 none _ _ (ix2 p q)).trans ?_
  refine Finset.sum_congr rfl fun k _ => ?_
  refine congrArg₂ (· * ·) ?_ rfl
  rw [truncf_apply, maximumf_apply, addf_apply, broadcast_apply]
  refine congrArg₂ max (congrArg₂ (· + ·) ?_ ?_) rfl
  · exact Cert.PlainDot.matmul_zero_apply 2000 2 128 none _ _ _
  · exact broadcastTo_1b_ab_apply b1 _ p k

/-- The closing affine map: times the channel's scale, plus the channel's shift. -/
theorem pay_affine (s : FVec Ideal S1x128 .f32) (v : FVec Ideal S2000x128 .f32) (β : Vec Ideal S1x128 .f32)
    (p : Fin 2000) (q : Fin 128) :
    Gen.k0_pay1 (F := Ideal) s v β (ix2 p q) = v (ix2 p q) * s (ix2 0 q) + β (ix2 0 q) := by
  unfold Gen.k0_pay1
  simp only [shapeCast_self]
  rw [addf_apply, mulf_apply, broadcastTo_1b_ab_apply, broadcastTo_1b_ab_apply]

/-- The layer's stored value at node `p`, channel `q`, is the layer function of that node's two rows. -/
theorem pay_layer (x0 x1 : Vec Ideal S2000x2 .f32) (x2 : Vec Ideal S2x128 .f32) (x3 : Vec Ideal S1x128 .f32)
    (x4 : Vec Ideal S128x128 .f32) (x5 x6 x7 x8 x9 : Vec Ideal S1x128 .f32) (p : Fin 2000) (q : Fin 128) :
    Gen.k0_pay1 (F := Ideal) (Gen.k0_pay2 x6 x9) (Gen.k0_pay3 x0 x1 x2 x3 x4 x5 x8) x7 (ix2 p q)
      = Cert.Gin.ginRow (D := 2) (fun d => x0 (ix2 p d)) (fun d => x1 (ix2 p d)) (fun d k => x2 (ix2 d k)) (fun k => x3 (ix2 0 k))
          (fun k j => x4 (ix2 k j)) (fun j => x5 (ix2 0 j))
          (fun j => x6 (ix2 0 j) * Ideal.rsqrt (x9 (ix2 0 j) + Cert.Gin.epsW)) (fun j => x7 (ix2 0 j)) (fun j => x8 (ix2 0 j)) q := by
  rw [pay_affine, pay_scale, pay_dense]
  rfl

/-- The same, against arrays that the blocks are restrictions of: when the row blocks are rows `i 0` of two arrays
    and the parameter blocks are the parameter arrays, the stored value at node `p`, channel `q = i 1` is the
    layer over all nodes read at `i`. -/
theorem layer_at (X A : Cert.Gin.A2 50000 2) (W1 : Cert.Gin.A2 2 128) (B1 : Cert.Gin.A2 1 128) (W2 : Cert.Gin.A2 128 128)
    (B2 Gm Bt Mu Vr : Cert.Gin.A2 1 128)
    (x0 x1 : Vec Ideal S2000x2 .f32) (x2 : Vec Ideal S2x128 .f32) (x3 : Vec Ideal S1x128 .f32) (x4 : Vec Ideal S128x128 .f32)
    (x5 x6 x7 x8 x9 : Vec Ideal S1x128 .f32) (p : Fin 2000) (q : Fin 128) (i : (⟨2, ![50000, 128]⟩ : Shape).Idx)
    (hq : i 1 = q)
    (h0 : ∀ d, x0 (ix2 p d) = X (ix2 (i 0) d)) (h1 : ∀ d, x1 (ix2 p d) = A (ix2 (i 0) d))
    (h2 : ∀ d k, x2 (ix2 d k) = W1 (ix2 d k)) (h3 : ∀ k, x3 (ix2 0 k) = B1 (ix2 0 k))
    (h4 : ∀ k j, x4 (ix2 k j) = W2 (ix2 k j)) (h5 : ∀ j, x5 (ix2 0 j) = B2 (ix2 0 j))
    (h6 : ∀ j, x6 (ix2 0 j) = Gm (ix2 0 j)) (h7 : ∀ j, x7 (ix2 0 j) = Bt (ix2 0 j))
    (h8 : ∀ j, x8 (ix2 0 j) = Mu (ix2 0 j)) (h9 : ∀ j, x9 (ix2 0 j) = Vr (ix2 0 j)) :
    Gen.k0_pay1 (F := Ideal) (Gen.k0_pay2 x6 x9) (Gen.k0_pay3 x0 x1 x2 x3 x4 x5 x8) x7 (ix2 p q)
      = Cert.Gin.layerK 2 X A W1 B1 W2 B2 Gm Bt Mu Vr i := by
  rw [pay_layer]
  unfold Cert.Gin.layerK
  simp only [h0, h1, h2, h3, h4, h5, h6, h7, h8, h9, hq]

end Cert.KernelIdeal.KPay0

end
-- ==== Proof.Region0.lean ====
/-
  The first layer's region, from blocks to the array.

  The grid has 25 points; at point `t` the feature, neighbour-sum and output windows hold rows `2000 t … 2000 t + 1999`
  of their arrays and every parameter window holds its whole array. So what point `t` writes back at row `p`, channel
  `q` of its block is the layer function of row `2000 t + p` of the two row arrays, which is the layer over all nodes
  read at `(2000 t + p, q)`: each write-back is its block of one whole-array function. The 25 blocks tile the 50000
  rows (row `r` lies in the block of point `r / 2000`), so the output array ends as that function.
-/
import proofs.«115757_j9131100472083_1_alg».proof.Proof.KPay0
import proofs.«115757_j9131100472083_1_alg».proof.Proof.Gen.KernelIdeal.Frame
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer over all nodes, of the region's entry arrays. -/
abbrev G (c : Dev nD) : Cert.Gin.A2 50000 128 :=
  Cert.Gin.layerK 2 (V c main_arg0) (V c main_v13) (V c main_arg3) (V c main_v14) (V c main_arg5) (V c main_v15)
    (V c main_v16) (V c main_v17) (V c main_v18) (V c main_v19)

/-- The row windows (features, neighbour sums, output) sit at block row `t` at grid point `t`, block column zero. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- The parameter windows sit at block index zero on both axes at every grid point. -/
theorem idx_params : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `p` of the feature block at point `t` is row `2000 t + p` of the feature array. -/
theorem blk0 (c : Dev nD) (t : Fin cfg0.N) (p : Fin 2000) (r : Fin 50000) (hr : r.val = t.val * 2000 + p.val) (d : Fin 2) :
    iblk0 V c 0 t (ix2 p d) = V c main_arg0 (ix2 r d) := by
  obtain ⟨e0, e1, -⟩ := idx_rows t
  show V c main_arg0 (((cfg0.win 0).blk t).view.emb (ix2 p d)) = V c main_arg0 (ix2 r d)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 2 + 1 * d.val = d.val; omega

/-- Row `p` of the neighbour-sum block at point `t` is row `2000 t + p` of the neighbour-sum array. -/
theorem blk1 (c : Dev nD) (t : Fin cfg0.N) (p : Fin 2000) (r : Fin 50000) (hr : r.val = t.val * 2000 + p.val) (d : Fin 2) :
    iblk0 V c 1 t (ix2 p d) = V c main_v13 (ix2 r d) := by
  obtain ⟨-, -, e0, e1, -⟩ := idx_rows t
  show V c main_v13 (((cfg0.win 1).blk t).view.emb (ix2 p d)) = V c main_v13 (ix2 r d)
  refine congrArg (V c main_v13) (funext fun a => Fin.ext ?_)
  match a with
  | ⟨0, _⟩ => show win0_1.index t (0 : Fin 2) * 2000 + 1 * p.val = r.val; omega
  | ⟨1, _⟩ => show win0_1.index t (1 : Fin 2) * 2 + 1 * d.val = d.val; omega

/-- The block of the first dense map is its array. -/
theorem blk2 (c : Dev nD) (t : Fin cfg0.N) (d : Fin 2) (k : Fin 128) :
    iblk0 V c 2 t (ix2 d k) = V c main_arg3 (ix2 d k) := by
  obtain ⟨e0, e1, -⟩ := idx_params t
  show V c main_arg3 (((cfg0.win 2).blk t).view.emb (ix2 d k)) = V c main_arg3 (ix2 d k)
  refine congrArg (V c main_arg3) (funext fun a => Fin.ext ?_)
  match a with
  | ⟨0, _⟩ => show win0_2.index t (0 : Fin 2) * 2 + 1 * d.val = d.val; omega
  | ⟨1, _⟩ => show win0_2.index t (1 : Fin 2) * 128 + 1 * k.val = k.val; omega

/-- The block of the second dense map is its array. -/
theorem blk4 (c : Dev nD) (t : Fin cfg0.N) (k j : Fin 128) :
    iblk0 V c 4 t (ix2 k j) = V c main_arg5 (ix2 k j) := by
  obtain ⟨-, -, -, -, e0, e1, -⟩ := idx_params t
  show V c main_arg5 (((cfg0.win 4).blk t).view.emb (ix2 k j)) = V c main_arg5 (ix2 k j)
  refine congrArg (V c main_arg5) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- The block of the first bias row is its array. -/
theorem blk3 (c : Dev nD) (t : Fin cfg0.N) (k : Fin 128) :
    iblk0 V c 3 t (ix2 0 k) = V c main_v14 (ix2 0 k) := by
  obtain ⟨-, -, e0, e1, -⟩ := idx_params t
  show V c main_v14 (((cfg0.win 3).blk t).view.emb (ix2 0 k)) = V c main_v14 (ix2 0 k)
  refine congrArg (V c main_v14) (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- The block of the second bias row is its array. -/
theorem blk5 (c : Dev nD) (t : Fin cfg0.N) (k : Fin 128) :
    iblk0 V c 5 t (ix2 0 k) = V c main_v15 (ix2 0 k) := by
  obtain ⟨-, -, -, -, -, -, e0, e1, -⟩ := idx_params t
  show V c main_v15 (((cfg0.win 5).blk t).view.emb (ix2 0 k)) = V c main_v15 (ix2 0 k)
  refine congrArg (V c main_v15) (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

/-- The block of the gamma row is its array. -/
theorem blk6 (c : Dev nD) (t : Fin cfg0.N) (k : Fin 128) :
    iblk0 V c 6 t (ix2 0 k) = V c main_v16 (ix2 0 k) := by
  obtain ⟨-, -, -, -, -, -, -, -, e0, e1, -⟩ := idx_params t
  show V c main_v16 (((cfg0.win 6).blk t).view.emb (ix2 0 k)) = V c main_v16 (ix2 0 k)
  refine congrArg (V c main_v16) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

/-- The block of the beta row is its array. -/
theorem blk7 (c : Dev nD) (t : Fin cfg0.N) (k : Fin 128) :
    iblk0 V c 7 t (ix2 0 k) = V c main_v17 (ix2 0 k) := by
  obtain ⟨-, -, -, -, -, -, -, -, -, -, e0, e1, -⟩ := idx_params t
  show V c main_v17 (((cfg0.win 7).blk t).view.emb (ix2 0 k)) = V c main_v17 (ix2 0 k)
  refine congrArg (V c main_v17) (funext fun a => Fin.ext ?_)
  match a with
  | ⟨0, _⟩ => show win0_7.index t (0 : Fin 2) * 1 + 1 * 0 = 0; omega
  | ⟨1, _⟩ => show win0_7.index t (1 : Fin 2) * 128 + 1 * k.val = k.val; omega

/-- The block of the running-mean row is its array. -/
theorem blk8 (c : Dev nD) (t : Fin cfg0.N) (k : Fin 128) :
    iblk0 V c 8 t (ix2 0 k) = V c main_v18 (ix2 0 k) := by
  obtain ⟨-, -, -, -, -, -, -, -, -, -, -, -, e0, e1, -⟩ := idx_params t
  show V c main_v18 (((cfg0.win 8).blk t).view.emb (ix2 0 k)) = V c main_v18 (ix2 0 k)
  refine congrArg (V c main_v18) (funext fun a => Fin.ext ?_)
  match a with
  | ⟨0, _⟩ => show win0_8.index t (0 : Fin 2) * 1 + 1 * 0 = 0; omega
  | ⟨1, _⟩ => show win0_8.index t (1 : Fin 2) * 128 + 1 * k.val = k.val; omega

/-- The block of the running-variance row is its array. -/
theorem blk9 (c : Dev nD) (t : Fin cfg0.N) (k : Fin 128) :
    iblk0 V c 9 t (ix2 0 k) = V c main_v19 (ix2 0 k) := by
  obtain ⟨-, -, -, -, -, -, -, -, -, -, -, -, -, -, e0, e1⟩ := idx_params t
  show V c main_v19 (((cfg0.win 9).blk t).view.emb (ix2 0 k)) = V c main_v19 (ix2 0 k)
  refine congrArg (V c main_v19) (funext fun a => Fin.ext ?_)
  match a with
  | ⟨0, _⟩ => show win0_9.index t (0 : Fin 2) * 1 + 1 * 0 = 0; omega
  | ⟨1, _⟩ => show win0_9.index t (1 : Fin 2) * 128 + 1 * k.val = k.val; omega

/-- What point `t` writes back is block `t` of the layer over all nodes of the entry arrays. -/
theorem flushed_eq (c : Dev nD) (t : Fin cfg0.N) :
    (dat0 (F := Ideal) V c).flushed 10 t = ((cfg0.win 10).blk t).view.read (Elt Ideal) (G V c) := by
  show (cfg0.win 10).cut (grid0.coords t) ((dat0 V c).after 10 t) = _
  rw [after0_10]
  unfold out0_10
  rw [View.canon_unit_zero hz]
  simp only [View.ld_unit_zero (S := S2000x2) hz, View.ld_unit_zero (S := S2x128) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  obtain ⟨-, -, -, -, e0, e1⟩ := idx_rows t
  show k0_pay1 (k0_pay2 (iblk0 V c 6 t) (iblk0 V c 9 t))
      (k0_pay3 (iblk0 V c 0 t) (iblk0 V c 1 t) (iblk0 V c 2 t) (iblk0 V c 3 t) (iblk0 V c 4 t) (iblk0 V c 5 t) (iblk0 V c 8 t))
      (iblk0 V c 7 t) (ix2 p q)
    = G V c (((cfg0.win 10).blk t).view.emb (ix2 p q))
  have hr : ((((cfg0.win 10).blk t).view.emb (ix2 p q)) 0).val = t.val * 2000 + p.val := by
    show win0_10.index t (0 : Fin 2) * 2000 + 1 * p.val = t.val * 2000 + p.val; omega
  have hq : (((cfg0.win 10).blk t).view.emb (ix2 p q)) 1 = q :=
    Fin.ext (by show win0_10.index t (1 : Fin 2) * 128 + 1 * q.val = q.val; omega)
  exact Cert.KernelIdeal.KPay0.layer_at _ _ _ _ _ _ _ _ _ _ _ _ _ _ _ _ _ _ _ _ p q _ hq
    (blk0 V c t p _ hr) (blk1 V c t p _ hr) (blk2 V c t) (blk3 V c t) (blk4 V c t) (blk5 V c t)
    (blk6 V c t) (blk7 V c t) (blk8 V c t) (blk9 V c t)

/-- An index of the output array is in point `t`'s block iff each coordinate is in the block's range. -/
theorem mem_blk (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v20).slice (win0_10.rect t)).set ↔ _
  rw [View.set_slice_whole, Rect.mem_set_unit]
  exact Iff.rfl

/-- The blocks tile the output array: node `r` is in the block of point `r / 2000`. -/
theorem cover (i : S50000x128.Idx) : ∃ t : Fin cfg0.N, (cfg0.win 10).flush t = true ∧ i ∈ ((cfg0.win 10).blk t).view.set := by
  have h0 : (i 0).val < 50000 := (i 0).isLt
  have h1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  refine ⟨t, flush0_10 t, ?_⟩
  rw [mem_blk]
  obtain ⟨-, -, -, -, e0, e1⟩ := idx_rows t
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-- After the region the output array is the layer over all nodes of the region's entry arrays. -/
theorem final (c : Dev nD) :
    (Gen.dat0 (F := Ideal) V c).arrAt 10 cfg0.N
      = (Cert.Gin.layerK 2 (V c main_arg0) (V c main_v13) (V c main_arg3) (V c main_v14) (V c main_arg5) (V c main_v15)
          (V c main_v16) (V c main_v17) (V c main_v18) (V c main_v19) : Cert.Gin.A2 50000 128) :=
  (dat0 (F := Ideal) V c).arrAt_eq_of_cover 10 (G V c) (fun t _ => flushed_eq V c t) cover

end Cert.KernelIdeal.Region0

end
-- ==== Proof.KPay.lean ====
/-
  One graph-isomorphism layer's block computation, read at an element.

  For a block of 2000 node rows the layer's arithmetic is: add each node's row to its neighbour-sum row; two
  matrix products with 128 × 128 weights into a zero accumulator, each followed by a bias row added to every node
  and a clamp at zero; subtract the mean row; multiply by the scale row gamma · rsqrt(var + eps); add the shift row.
  Every step other than the two products acts entry by entry (a row parameter is one 1 × 128 row repeated down the
  block), and a product's entry (p, q) is the sum over k of left (p, k) · right (k, q). So entry (p, q) of the result
  depends on node p's two rows only, and is the layer function of the specification at that node and channel q.
  The narrowing of the products' operands to a 16-bit format is the identity on extended reals.
-/
import proofs.«115757_j9131100472083_1_alg».proof.Proof.Gen.KernelIdeal.Skeleton
import proofs.«115757_j9131100472083_1_alg».proof.Proof.Spec
import proofs.«115757_j9131100472083_1_alg».proof.Proof.LibPlainDot
import Idealize.ShloMosaic.Lib.Pipeline.Value
import Idealize.ShloMosaic.Lib.ValueLayout
import Idealize.ShloMosaic.Lib.ValueIdx

noncomputable section

namespace Cert.KernelIdeal.KPay

open Idealize.ShloMosaic Idealize.ShloMosaic.ValueIdx Cert.KernelIdeal

/-- The scale row at channel `j`: `gamma_j · rsqrt(var_j + eps)`. -/
theorem pay_scale (x6 x9 : Vec Ideal S1x128 .f32) (j : Fin 128) :
    Gen.k1_pay3 (F := Ideal) x6 x9 (ix2 0 j) = x6 (ix2 0 j) * Ideal.rsqrt (x9 (ix2 0 j) + Cert.Gin.epsW) := by
  unfold Gen.k1_pay3
  simp only [shapeCast_self]
  rfl

/-- A 2000 × 128 by 128 × 128 product into the zero accumulator, plus a bias row repeated down the block, clamped
    at zero, at entry `(p, q)`: `max (∑ k, l (p, k) · w (k, q) + b q) 0`. -/
theorem affine_relu (l : FVec Ideal S2000x128 .bf16) (w : FVec Ideal S128x128 .bf16) (b : FVec Ideal S1x128 .f32)
    (hb : S1x128.Broadcasts S2000x128) (p : Fin 2000) (q : Fin 128) :
    maximumf (addf (matmul dot_S2000x128_S128x128_S2000x128_1_0_0_1_n_n none l w (constant (F := Ideal) S2000x128 .f32 0x00000000#32))
        (broadcastTo S2000x128 b hb))
      (broadcast S2000x128 (Scalar.ofBits (F := Ideal) .f32 0x00000000#32)) (ix2 p q)
      = max ((∑ k : Fin 128, l (ix2 p k) * w (ix2 k q)) + b (ix2 0 q)) Cert.Gin.zeroW := by
  rw [maximumf_apply, addf_apply, broadcast_apply, broadcastTo_1b_ab_apply]
  refine congrArg₂ max (congrArg (· + b (ix2 0 q)) ?_) rfl
  exact Cert.PlainDot.matmul_zero_apply 2000 128 128 none l w (ix2 p q)

/-- The two dense maps with their clamps at entry `(p, q)`: the outer product's left operand at `(p, k)` is the
    inner map's clamped value at `(p, k)`, whose own left operand at `(p, d)` is `x (p, d) + a (p, d)`. -/
theorem pay_dense (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    Gen.k1_pay2 (F := Ideal) x0 x1 x2 x3 x4 x5 (ix2 p q)
      = Cert.Gin.dense (fun d => x0 (ix2 p d)) (fun d => x1 (ix2 p d)) (fun d k => x2 (ix2 d k)) (fun k => x3 (ix2 0 k))
          (fun k j => x4 (ix2 k j)) (fun j => x5 (ix2 0 j)) q := by
  unfold Gen.k1_pay2
  simp only [shapeCast_self]
  refine (affine_relu _ _ _ _ p q).trans ?_
  unfold Cert.Gin.dense
  refine congrArg₂ max (congrArg (· + x5 (ix2 0 q)) (Finset.sum_congr rfl fun k _ => ?_)) rfl
  refine congrArg₂ (· * ·) ?_ rfl
  refine (affine_relu _ _ _ _ p k).trans ?_
  rfl

/-- The whole layer at entry `(p, q)` of a block: the specification's layer function of node `p`'s feature row and
    neighbour-sum row, with the scale `gamma · rsqrt(var + eps)`, at channel `q`. -/
theorem pay_layer (x0 x1 : Vec Ideal S2000x128 .f32) (x2 : Vec Ideal S128x128 .f32) (x3 : Vec Ideal S1x128 .f32)
    (x4 : Vec Ideal S128x128 .f32) (x5 x6 x7 x8 x9 : Vec Ideal S1x128 .f32) (p : Fin 2000) (q : Fin 128) :
    Gen.k1_pay1 (F := Ideal) (Gen.k1_pay2 x0 x1 x2 x3 x4 x5) (Gen.k1_pay3 x6 x9) x8 x7 (ix2 p q)
      = Cert.Gin.ginRow (fun d => x0 (ix2 p d)) (fun d => x1 (ix2 p d)) (fun d k => x2 (ix2 d k)) (fun k => x3 (ix2 0 k))
          (fun k j => x4 (ix2 k j)) (fun j => x5 (ix2 0 j))
          (fun j => x6 (ix2 0 j) * Ideal.rsqrt (x9 (ix2 0 j) + Cert.Gin.epsW)) (fun j => x7 (ix2 0 j)) (fun j => x8 (ix2 0 j)) q := by
  unfold Gen.k1_pay1
  simp only [shapeCast_self]
  rw [addf_apply, mulf_apply, subf_apply, broadcastTo_1b_ab_apply, broadcastTo_1b_ab_apply, broadcastTo_1b_ab_apply,
    pay_dense, pay_scale]
  rfl

/-! The second, third and fourth layers run the same arithmetic as the first. -/

theorem k2_pay1_eq {F : FTy → Type} [FloatOps F] : @Gen.k2_pay1 F _ = @Gen.k1_pay1 F _ := rfl
theorem k2_pay2_eq {F : FTy → Type} [FloatOps F] : @Gen.k2_pay2 F _ = @Gen.k1_pay2 F _ := rfl
theorem k2_pay3_eq {F : FTy → Type} [FloatOps F] : @Gen.k2_pay3 F _ = @Gen.k1_pay3 F _ := rfl
theorem k3_pay1_eq {F : FTy → Type} [FloatOps F] : @Gen.k3_pay1 F _ = @Gen.k1_pay1 F _ := rfl
theorem k3_pay2_eq {F : FTy → Type} [FloatOps F] : @Gen.k3_pay2 F _ = @Gen.k1_pay2 F _ := rfl
theorem k3_pay3_eq {F : FTy → Type} [FloatOps F] : @Gen.k3_pay3 F _ = @Gen.k1_pay3 F _ := rfl
theorem k4_pay1_eq {F : FTy → Type} [FloatOps F] : @Gen.k4_pay1 F _ = @Gen.k1_pay1 F _ := rfl
theorem k4_pay2_eq {F : FTy → Type} [FloatOps F] : @Gen.k4_pay2 F _ = @Gen.k1_pay2 F _ := rfl
theorem k4_pay3_eq {F : FTy → Type} [FloatOps F] : @Gen.k4_pay3 F _ = @Gen.k1_pay3 F _ := rfl

end Cert.KernelIdeal.KPay

end
-- ==== Proof.Region1.lean ====
/-
  The network's second graph-isomorphism layer (pallas region 1) over all 50000 nodes, from its 25 row blocks.

  The layer runs at 25 grid points. Point `t` reads rows `2000·t … 2000·t + 1999` of the feature array and of the
  neighbour-sum array, reads the two weight matrices and the six parameter rows whole, and writes rows
  `2000·t … 2000·t + 1999` of the output. Entry `(r, q)` of what point `t` writes is the layer function of node
  `2000·t + r`'s two rows at channel `q` (the block computation read at an element), which is entry
  `(2000·t + r, q)` of the layer over all nodes: every point writes its block of ONE whole-array function. Row `r`
  of the output lies in the block of point `r / 2000`, so the 25 blocks cover the array, and the array ends holding
  that function.
-/
import proofs.«115757_j9131100472083_1_alg».proof.Proof.Gen.KernelIdeal.Frame
import proofs.«115757_j9131100472083_1_alg».proof.Proof.KPay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_off : (![0, 0] : Fin 2 → Nat) = fun _ => 0 := funext fun a => by fin_cases a <;> rfl

/-- The block index of every window at every grid point: `(t, 0)` for the two row-blocked inputs and the output,
    `(0, 0)` for the eight whole-array inputs (decided over the 25 points). -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0) :=
  (by decide +kernel : ∀ t : Fin grid1.N, _)

/-- Row `r` of the feature block at grid point `t` is row `2000 · t + r` of the array: the block index is `(t, 0)`,
    and a block's element sits, on each axis, at block index × block size + its own coordinate. -/
theorem row_block0 (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v20 : S50000x128.Idx → EReal) k := by
  obtain ⟨⟨e0, e1⟩, -⟩ := block_indices t
  show V c main_v20 (((cfg1.win 0).blk t).view.emb x) = _
  refine congrArg _ (funext fun a => Fin.ext ?_)
  match a with
  | ⟨0, _⟩ => show win1_0.index t (0 : Fin 2) * 2000 + 1 * (x 0).val = (k 0).val; omega
  | ⟨1, _⟩ => show win1_0.index t (1 : Fin 2) * 128 + 1 * (x 1).val = (k 1).val; omega

/-- Row `r` of the neighbour-sum block at grid point `t` is row `2000 · t + r` of the array: the block index is `(t, 0)`,
    and a block's element sits, on each axis, at block index × block size + its own coordinate. -/
theorem row_block1 (c : Dev nD) (t : Fin cfg1.N) (x : S2000x128.Idx) (k : S50000x128.Idx)
    (hk0 : (k 0).val = 2000 * t.val + (x 0).val) (hk1 : (k 1).val = (x 1).val) :
    (iblk1 V c 1 t : Vec Ideal S2000x128 .f32) x = (V c main_v30 : S50000x128.Idx → EReal) k := by
  obtain ⟨-, ⟨e0, e1⟩, -⟩ := block_indices t
  show V c main_v30 (((cfg1.win 1).blk t).view.emb x) = _
  refine congrArg _ (funext fun a => Fin.ext ?_)
  match a with
  | ⟨0, _⟩ => show win1_1.index t (0 : Fin 2) * 2000 + 1 * (x 0).val = (k 0).val; omega
  | ⟨1, _⟩ => show win1_1.index t (1 : Fin 2) * 128 + 1 * (x 1).val = (k 1).val; omega

/-- The block of the first weight matrix at every grid point is the whole array: its block index is `(0, 0)`. -/
theorem whole_block2 (c : Dev nD) (t : Fin cfg1.N) :
    (iblk1 V c 2 t : Vec Ideal S128x128 .f32) = (V c main_v32 : S128x128.Idx → EReal) := by
  obtain ⟨-, -, ⟨e0, e1⟩, -⟩ := block_indices t
  funext x
  show V c main_v32 (((cfg1.win 2).blk t).view.emb x) = _
  refine congrArg _ (funext fun a => Fin.ext ?_)
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- The block of the first bias row at every grid point is the whole array: its block index is `(0, 0)`. -/
theorem whole_block3 (c : Dev nD) (t : Fin cfg1.N) :
    (iblk1 V c 3 t : Vec Ideal S1x128 .f32) = (V c main_v47 : S1x128.Idx → EReal) := by
  obtain ⟨-, -, -, ⟨e0, e1⟩, -⟩ := block_indices t
  funext x
  show V c main_v47 (((cfg1.win 3).blk t).view.emb x) = _
  refine congrArg _ (funext fun a => Fin.ext ?_)
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- The block of the second weight matrix at every grid point is the whole array: its block index is `(0, 0)`. -/
theorem whole_block4 (c : Dev nD) (t : Fin cfg1.N) :
    (iblk1 V c 4 t : Vec Ideal S128x128 .f32) = (V c main_v36 : S128x128.Idx → EReal) := by
  obtain ⟨-, -, -, -, ⟨e0, e1⟩, -⟩ := block_indices t
  funext x
  show V c main_v36 (((cfg1.win 4).blk t).view.emb x) = _
  refine congrArg _ (funext fun a => Fin.ext ?_)
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- The block of the second bias row at every grid point is the whole array: its block index is `(0, 0)`. -/
theorem whole_block5 (c : Dev nD) (t : Fin cfg1.N) :
    (iblk1 V c 5 t : Vec Ideal S1x128 .f32) = (V c main_v48 : S1x128.Idx → EReal) := by
  obtain ⟨-, -, -, -, -, ⟨e0, e1⟩, -⟩ := block_indices t
  funext x
  show V c main_v48 (((cfg1.win 5).blk t).view.emb x) = _
  refine congrArg _ (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- The block of the gamma row at every grid point is the whole array: its block index is `(0, 0)`. -/
theorem whole_block6 (c : Dev nD) (t : Fin cfg1.N) :
    (iblk1 V c 6 t : Vec Ideal S1x128 .f32) = (V c main_v49 : S1x128.Idx → EReal) := by
  obtain ⟨-, -, -, -, -, -, ⟨e0, e1⟩, -⟩ := block_indices t
  funext x
  show V c main_v49 (((cfg1.win 6).blk t).view.emb x) = _
  refine congrArg _ (funext fun a => Fin.ext ?_)
  match a with
  | ⟨0, _⟩ => show win1_6.index t (0 : Fin 2) * 1 + 1 * (x 0).val = (x 0).val; omega
  | ⟨1, _⟩ => show win1_6.index t (1 : Fin 2) * 128 + 1 * (x 1).val = (x 1).val; omega

/-- The block of the shift row at every grid point is the whole array: its block index is `(0, 0)`. -/
theorem whole_block7 (c : Dev nD) (t : Fin cfg1.N) :
    (iblk1 V c 7 t : Vec Ideal S1x128 .f32) = (V c main_v50 : S1x128.Idx → EReal) := by
  obtain ⟨-, -, -, -, -, -, -, ⟨e0, e1⟩, -⟩ := block_indices t
  funext x
  show V c main_v50 (((cfg1.win 7).blk t).view.emb x) = _
  refine congrArg _ (funext fun a => Fin.ext ?_)
  match a with
  | ⟨0, _⟩ => show win1_7.index t (0 : Fin 2) * 1 + 1 * (x 0).val = (x 0).val; omega
  | ⟨1, _⟩ => show win1_7.index t (1 : Fin 2) * 128 + 1 * (x 1).val = (x 1).val; omega

/-- The block of the mean row at every grid point is the whole array: its block index is `(0, 0)`. -/
theorem whole_block8 (c : Dev nD) (t : Fin cfg1.N) :
    (iblk1 V c 8 t : Vec Ideal S1x128 .f32) = (V c main_v51 : S1x128.Idx → EReal) := by
  obtain ⟨-, -, -, -, -, -, -, -, ⟨e0, e1⟩, -⟩ := block_indices t
  funext x
  show V c main_v51 (((cfg1.win 8).blk t).view.emb x) = _
  refine congrArg _ (funext fun a => Fin.ext ?_)
  match a with
  | ⟨0, _⟩ => show win1_8.index t (0 : Fin 2) * 1 + 1 * (x 0).val = (x 0).val; omega
  | ⟨1, _⟩ => show win1_8.index t (1 : Fin 2) * 128 + 1 * (x 1).val = (x 1).val; omega

/-- The block of the variance row at every grid point is the whole array: its block index is `(0, 0)`. -/
theorem whole_block9 (c : Dev nD) (t : Fin cfg1.N) :
    (iblk1 V c 9 t : Vec Ideal S1x128 .f32) = (V c main_v52 : S1x128.Idx → EReal) := by
  obtain ⟨-, -, -, -, -, -, -, -, -, ⟨e0, e1⟩, -⟩ := block_indices t
  funext x
  show V c main_v52 (((cfg1.win 9).blk t).view.emb x) = _
  refine congrArg _ (funext fun a => Fin.ext ?_)
  match a with
  | ⟨0, _⟩ => show win1_9.index t (0 : Fin 2) * 1 + 1 * (x 0).val = (x 0).val; omega
  | ⟨1, _⟩ => show win1_9.index t (1 : Fin 2) * 128 + 1 * (x 1).val = (x 1).val; omega

/-- The layer function of one node depends on its arguments only through their values. -/
theorem ginRow_congr {xr xr' ar ar' : Fin 128 → EReal} {W1 W1' W2 W2' : Fin 128 → Fin 128 → EReal}
    {b1 b1' b2 b2' s s' β β' μ μ' : Fin 128 → EReal} {q q' : Fin 128}
    (hx : xr = xr') (ha : ar = ar') (hW1 : W1 = W1') (hb1 : b1 = b1') (hW2 : W2 = W2') (hb2 : b2 = b2') (hs : s = s')
    (hβ : β = β') (hμ : μ = μ') (hq : q = q') :
    Cert.Gin.ginRow xr ar W1 b1 W2 b2 s β μ q = Cert.Gin.ginRow xr' ar' W1' b1' W2' b2' s' β' μ' q' := by
  subst hx ha hW1 hb1 hW2 hb2 hs hβ hμ hq; rfl

/-- The layer over all nodes, of the ten input arrays as the region finds them. -/
abbrev layerOut (c : Dev nD) : Cert.Gin.A2 50000 128 :=
  Cert.Gin.layerK 128 (V c main_v20) (V c main_v30) (V c main_v32) (V c main_v47) (V c main_v36) (V c main_v48) (V c main_v49) (V c main_v50) (V c main_v51) (V c main_v52)

/-- What grid point `t` writes back is block `t` of the layer over all nodes: at `(r, q)` both sides are the layer
    function of node `2000·t + r` at channel `q`. -/
theorem flushed_eq (c : Dev nD) (t : Fin cfg1.N) :
    (dat1 (F := Ideal) V c).flushed 10 t = ((cfg1.win 10).blk t).view.read (Elt Ideal) (layerOut V c) := by
  show (cfg1.win 10).cut (grid1.coords t) ((dat1 V c).after 10 t) = _
  rw [after1_10]
  unfold out1_10
  rw [View.canon_unit_zero zero_off]
  simp only [View.ld_unit_zero (S := S2000x128) zero_off, View.ld_unit_zero (S := S128x128) zero_off,
    View.ld_unit_zero (S := S1x128) zero_off]
  funext j
  obtain ⟨p, q, rfl⟩ : ∃ (p : Fin 2000) (q : Fin 128), j = ix2 p q := ⟨j 0, j 1, eq_ix2 j⟩
  obtain ⟨-, -, -, -, -, -, -, -, -, -, ⟨e0, e1⟩⟩ := block_indices t
  show k1_pay1 (F := Ideal) (k1_pay2 (iblk1 V c 0 t) (iblk1 V c 1 t) (iblk1 V c 2 t) (iblk1 V c 3 t) (iblk1 V c 4 t) (iblk1 V c 5 t))
      (k1_pay3 (iblk1 V c 6 t) (iblk1 V c 9 t)) (iblk1 V c 8 t) (iblk1 V c 7 t) (ix2 p q)
    = layerOut V c (((cfg1.win 10).blk t).view.emb (ix2 p q))
  refine (KPay.pay_layer _ _ _ _ _ _ _ _ _ _ p q).trans ?_
  have hr : ((((cfg1.win 10).blk t).view.emb (ix2 p q)) 0).val = 2000 * t.val + p.val := by
    show win1_10.index t (0 : Fin 2) * 2000 + 1 * p.val = _; omega
  have hc : ((((cfg1.win 10).blk t).view.emb (ix2 p q)) 1).val = q.val := by
    show win1_10.index t (1 : Fin 2) * 128 + 1 * q.val = _; omega
  exact ginRow_congr
    (funext fun d => row_block0 V c t (ix2 p d) _ hr rfl)
    (funext fun d => row_block1 V c t (ix2 p d) _ hr rfl)
    (funext fun d => funext fun k => congrFun (whole_block2 V c t) (ix2 d k))
    (funext fun k => congrFun (whole_block3 V c t) (ix2 0 k))
    (funext fun k => funext fun j => congrFun (whole_block4 V c t) (ix2 k j))
    (funext fun j => congrFun (whole_block5 V c t) (ix2 0 j))
    (funext fun j => congrArg₂ (fun a b => a * Ideal.rsqrt (b + Cert.Gin.epsW))
      (congrFun (whole_block6 V c t) (ix2 0 j)) (congrFun (whole_block9 V c t) (ix2 0 j)))
    (funext fun j => congrFun (whole_block7 V c t) (ix2 0 j))
    (funext fun j => congrFun (whole_block8 V c t) (ix2 0 j))
    (Fin.ext hc.symm)

/-- An index of the output array is in point `t`'s block iff each coordinate is in the block's range on its axis. -/
theorem mem_block (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v53).slice (win1_10.rect t)).set ↔ _
  rw [View.set_slice_whole, Rect.mem_set_unit]
  exact Iff.rfl

/-- Every index of the output array is in some point's block: row `r` is in the block of point `r / 2000`. -/
theorem blocks_cover (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, ⟨e0, e1⟩⟩ := block_indices t
  refine ⟨t, flush1_10 t, ?_⟩
  rw [mem_block]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 128 ≤ (i 1).val ∧ (i 1).val < win1_10.index t (1 : Fin 2) * 128 + 128
    omega

/-- The output array after the region: the layer over all nodes, of the input arrays as the region finds them. -/
theorem final (c : Dev nD) :
    (Gen.dat1 (F := Ideal) V c).arrAt 10 cfg1.N
      = (Cert.Gin.layerK 128 (V c main_v20) (V c main_v30) (V c main_v32) (V c main_v47) (V c main_v36) (V c main_v48) (V c main_v49) (V c main_v50) (V c main_v51) (V c main_v52) : Cert.Gin.A2 50000 128) :=
  (dat1 V c).arrAt_eq_of_cover 10 (layerOut V c) (fun t _ => flushed_eq V c t) blocks_cover

end Cert.KernelIdeal.Region1

end
-- ==== Proof.Region2.lean ====
/-
  The network's third graph-isomorphism layer (pallas region 2) over all 50000 nodes, from its 25 row blocks.

  The layer runs at 25 grid points. Point `t` reads rows `2000·t … 2000·t + 1999` of the feature array and of the
  neighbour-sum array, reads the two weight matrices and the six parameter rows whole, and writes rows
  `2000·t … 2000·t + 1999` of the output. Entry `(r, q)` of what point `t` writes is the layer function of node
  `2000·t + r`'s two rows at channel `q` (the block computation read at an element), which is entry
  `(2000·t + r, q)` of the layer over all nodes: every point writes its block of ONE whole-array function. Row `r`
  of the output lies in the block of point `r / 2000`, so the 25 blocks cover the array, and the array ends holding
  that function.
-/
import proofs.«115757_j9131100472083_1_alg».proof.Proof.Gen.KernelIdeal.Frame
import proofs.«115757_j9131100472083_1_alg».proof.Proof.KPay
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_off : (![0, 0] : Fin 2 → Nat) = fun _ => 0 := funext fun a => by fin_cases a <;> rfl

/-- The block index of every window at every grid point: `(t, 0)` for the two row-blocked inputs and the output,
    `(0, 0)` for the eight whole-array inputs (decided over the 25 points). -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = t.val ∧ win2_10.index t (1 : Fin 2) = 0) :=
  (by decide +kernel : ∀ t : Fin grid2.N, _)

/-- Row `r` of the feature block at grid point `t` is row `2000 · t + r` of the array: the block index is `(t, 0)`,
    and a block's element sits, on each axis, at block index × block size + its own coordinate. -/
theorem row_block0 (c : Dev nD) (t : Fin cfg2.N) (x : S2000x128.Idx) (k : S50000x128.Idx)
    (hk0 : (k 0).val = 2000 * t.val + (x 0).val) (hk1 : (k 1).val = (x 1).val) :
    (iblk2 V c 0 t : Vec Ideal S2000x128 .f32) x = (V c main_v53 : S50000x128.Idx → EReal) k := by
  obtain ⟨⟨e0, e1⟩, -⟩ := block_indices t
  show V c main_v53 (((cfg2.win 0).blk t).view.emb x) = _
  refine congrArg _ (funext fun a => Fin.ext ?_)
  match a with
  | ⟨0, _⟩ => show win2_0.index t (0 : Fin 2) * 2000 + 1 * (x 0).val = (k 0).val; omega
  | ⟨1, _⟩ => show win2_0.index t (1 : Fin 2) * 128 + 1 * (x 1).val = (k 1).val; omega

/-- Row `r` of the neighbour-sum block at grid point `t` is row `2000 · t + r` of the array: the block index is `(t, 0)`,
    and a block's element sits, on each axis, at block index × block size + its own coordinate. -/
theorem row_block1 (c : Dev nD) (t : Fin cfg2.N) (x : S2000x128.Idx) (k : S50000x128.Idx)
    (hk0 : (k 0).val = 2000 * t.val + (x 0).val) (hk1 : (k 1).val = (x 1).val) :
    (iblk2 V c 1 t : Vec Ideal S2000x128 .f32) x = (V c main_v63 : S50000x128.Idx → EReal) k := by
  obtain ⟨-, ⟨e0, e1⟩, -⟩ := block_indices t
  show V c main_v63 (((cfg2.win 1).blk t).view.emb x) = _
  refine congrArg _ (funext fun a => Fin.ext ?_)
  match a with
  | ⟨0, _⟩ => show win2_1.index t (0 : Fin 2) * 2000 + 1 * (x 0).val = (k 0).val; omega
  | ⟨1, _⟩ => show win2_1.index t (1 : Fin 2) * 128 + 1 * (x 1).val = (k 1).val; omega

/-- The block of the first weight matrix at every grid point is the whole array: its block index is `(0, 0)`. -/
theorem whole_block2 (c : Dev nD) (t : Fin cfg2.N) :
    (iblk2 V c 2 t : Vec Ideal S128x128 .f32) = (V c main_v65 : S128x128.Idx → EReal) := by
  obtain ⟨-, -, ⟨e0, e1⟩, -⟩ := block_indices t
  funext x
  show V c main_v65 (((cfg2.win 2).blk t).view.emb x) = _
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The block of the first bias row at every grid point is the whole array: its block index is `(0, 0)`. -/
theorem whole_block3 (c : Dev nD) (t : Fin cfg2.N) :
    (iblk2 V c 3 t : Vec Ideal S1x128 .f32) = (V c main_v80 : S1x128.Idx → EReal) := by
  obtain ⟨-, -, -, ⟨e0, e1⟩, -⟩ := block_indices t
  funext x
  show V c main_v80 (((cfg2.win 3).blk t).view.emb x) = _
  refine congrArg _ (funext fun a => Fin.ext ?_)
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- The block of the second weight matrix at every grid point is the whole array: its block index is `(0, 0)`. -/
theorem whole_block4 (c : Dev nD) (t : Fin cfg2.N) :
    (iblk2 V c 4 t : Vec Ideal S128x128 .f32) = (V c main_v69 : S128x128.Idx → EReal) := by
  obtain ⟨-, -, -, -, ⟨e0, e1⟩, -⟩ := block_indices t
  funext x
  show V c main_v69 (((cfg2.win 4).blk t).view.emb x) = _
  refine congrArg _ (funext fun a => Fin.ext ?_)
  match a with
  | ⟨0, _⟩ => show win2_4.index t (0 : Fin 2) * 128 + 1 * (x 0).val = (x 0).val; omega
  | ⟨1, _⟩ => show win2_4.index t (1 : Fin 2) * 128 + 1 * (x 1).val = (x 1).val; omega

/-- The block of the second bias row at every grid point is the whole array: its block index is `(0, 0)`. -/
theorem whole_block5 (c : Dev nD) (t : Fin cfg2.N) :
    (iblk2 V c 5 t : Vec Ideal S1x128 .f32) = (V c main_v81 : S1x128.Idx → EReal) := by
  obtain ⟨-, -, -, -, -, ⟨e0, e1⟩, -⟩ := block_indices t
  funext x
  show V c main_v81 (((cfg2.win 5).blk t).view.emb x) = _
  refine congrArg _ (funext fun a => Fin.ext ?_)
  match a with
  | ⟨0, _⟩ => show win2_5.index t (0 : Fin 2) * 1 + 1 * (x 0).val = (x 0).val; omega
  | ⟨1, _⟩ => show win2_5.index t (1 : Fin 2) * 128 + 1 * (x 1).val = (x 1).val; omega

/-- The block of the gamma row at every grid point is the whole array: its block index is `(0, 0)`. -/
theorem whole_block6 (c : Dev nD) (t : Fin cfg2.N) :
    (iblk2 V c 6 t : Vec Ideal S1x128 .f32) = (V c main_v82 : S1x128.Idx → EReal) := by
  obtain ⟨-, -, -, -, -, -, ⟨e0, e1⟩, -⟩ := block_indices t
  funext x
  show V c main_v82 (((cfg2.win 6).blk t).view.emb x) = _
  refine congrArg _ (funext fun a => Fin.ext ?_)
  match a with
  | ⟨0, _⟩ => show win2_6.index t (0 : Fin 2) * 1 + 1 * (x 0).val = (x 0).val; omega
  | ⟨1, _⟩ => show win2_6.index t (1 : Fin 2) * 128 + 1 * (x 1).val = (x 1).val; omega

/-- The block of the shift row at every grid point is the whole array: its block index is `(0, 0)`. -/
theorem whole_block7 (c : Dev nD) (t : Fin cfg2.N) :
    (iblk2 V c 7 t : Vec Ideal S1x128 .f32) = (V c main_v83 : S1x128.Idx → EReal) := by
  obtain ⟨-, -, -, -, -, -, -, ⟨e0, e1⟩, -⟩ := block_indices t
  funext x
  show V c main_v83 (((cfg2.win 7).blk t).view.emb x) = _
  refine congrArg _ (funext fun a => Fin.ext ?_)
  match a with
  | ⟨0, _⟩ => show win2_7.index t (0 : Fin 2) * 1 + 1 * (x 0).val = (x 0).val; omega
  | ⟨1, _⟩ => show win2_7.index t (1 : Fin 2) * 128 + 1 * (x 1).val = (x 1).val; omega

/-- The block of the mean row at every grid point is the whole array: its block index is `(0, 0)`. -/
theorem whole_block8 (c : Dev nD) (t : Fin cfg2.N) :
    (iblk2 V c 8 t : Vec Ideal S1x128 .f32) = (V c main_v84 : S1x128.Idx → EReal) := by
  obtain ⟨-, -, -, -, -, -, -, -, ⟨e0, e1⟩, -⟩ := block_indices t
  funext x
  show V c main_v84 (((cfg2.win 8).blk t).view.emb x) = _
  refine congrArg _ (funext fun a => Fin.ext ?_)
  match a with
  | ⟨0, _⟩ => show win2_8.index t (0 : Fin 2) * 1 + 1 * (x 0).val = (x 0).val; omega
  | ⟨1, _⟩ => show win2_8.index t (1 : Fin 2) * 128 + 1 * (x 1).val = (x 1).val; omega

/-- The block of the variance row at every grid point is the whole array: its block index is `(0, 0)`. -/
theorem whole_block9 (c : Dev nD) (t : Fin cfg2.N) :
    (iblk2 V c 9 t : Vec Ideal S1x128 .f32) = (V c main_v85 : S1x128.Idx → EReal) := by
  obtain ⟨-, -, -, -, -, -, -, -, -, ⟨e0, e1⟩, -⟩ := block_indices t
  funext x
  show V c main_v85 (((cfg2.win 9).blk t).view.emb x) = _
  refine congrArg _ (funext fun a => Fin.ext ?_)
  match a with
  | ⟨0, _⟩ => show win2_9.index t (0 : Fin 2) * 1 + 1 * (x 0).val = (x 0).val; omega
  | ⟨1, _⟩ => show win2_9.index t (1 : Fin 2) * 128 + 1 * (x 1).val = (x 1).val; omega

/-- The layer function of one node depends on its arguments only through their values. -/
theorem ginRow_congr {xr xr' ar ar' : Fin 128 → EReal} {W1 W1' W2 W2' : Fin 128 → Fin 128 → EReal}
    {b1 b1' b2 b2' s s' β β' μ μ' : Fin 128 → EReal} {q q' : Fin 128}
    (hx : xr = xr') (ha : ar = ar') (hW1 : W1 = W1') (hb1 : b1 = b1') (hW2 : W2 = W2') (hb2 : b2 = b2') (hs : s = s')
    (hβ : β = β') (hμ : μ = μ') (hq : q = q') :
    Cert.Gin.ginRow xr ar W1 b1 W2 b2 s β μ q = Cert.Gin.ginRow xr' ar' W1' b1' W2' b2' s' β' μ' q' := by
  subst hx ha hW1 hb1 hW2 hb2 hs hβ hμ hq; rfl

/-- The layer over all nodes, of the ten input arrays as the region finds them. -/
abbrev layerOut (c : Dev nD) : Cert.Gin.A2 50000 128 :=
  Cert.Gin.layerK 128 (V c main_v53) (V c main_v63) (V c main_v65) (V c main_v80) (V c main_v69) (V c main_v81) (V c main_v82) (V c main_v83) (V c main_v84) (V c main_v85)

/-- What grid point `t` writes back is block `t` of the layer over all nodes: at `(r, q)` both sides are the layer
    function of node `2000·t + r` at channel `q`. -/
theorem flushed_eq (c : Dev nD) (t : Fin cfg2.N) :
    (dat2 (F := Ideal) V c).flushed 10 t = ((cfg2.win 10).blk t).view.read (Elt Ideal) (layerOut V c) := by
  show (cfg2.win 10).cut (grid2.coords t) ((dat2 V c).after 10 t) = _
  rw [after2_10]
  unfold out2_10
  rw [View.canon_unit_zero zero_off]
  simp only [View.ld_unit_zero (S := S2000x128) zero_off, View.ld_unit_zero (S := S128x128) zero_off,
    View.ld_unit_zero (S := S1x128) zero_off]
  rw [KPay.k2_pay1_eq, KPay.k2_pay2_eq, KPay.k2_pay3_eq]
  funext j
  obtain ⟨p, q, rfl⟩ : ∃ (p : Fin 2000) (q : Fin 128), j = ix2 p q := ⟨j 0, j 1, eq_ix2 j⟩
  obtain ⟨-, -, -, -, -, -, -, -, -, -, ⟨e0, e1⟩⟩ := block_indices t
  show k1_pay1 (F := Ideal) (k1_pay2 (iblk2 V c 0 t) (iblk2 V c 1 t) (iblk2 V c 2 t) (iblk2 V c 3 t) (iblk2 V c 4 t) (iblk2 V c 5 t))
      (k1_pay3 (iblk2 V c 6 t) (iblk2 V c 9 t)) (iblk2 V c 8 t) (iblk2 V c 7 t) (ix2 p q)
    = layerOut V c (((cfg2.win 10).blk t).view.emb (ix2 p q))
  refine (KPay.pay_layer _ _ _ _ _ _ _ _ _ _ p q).trans ?_
  have hr : ((((cfg2.win 10).blk t).view.emb (ix2 p q)) 0).val = 2000 * t.val + p.val := by
    show win2_10.index t (0 : Fin 2) * 2000 + 1 * p.val = _; omega
  have hc : ((((cfg2.win 10).blk t).view.emb (ix2 p q)) 1).val = q.val := by
    show win2_10.index t (1 : Fin 2) * 128 + 1 * q.val = _; omega
  exact ginRow_congr
    (funext fun d => row_block0 V c t (ix2 p d) _ hr rfl)
    (funext fun d => row_block1 V c t (ix2 p d) _ hr rfl)
    (funext fun d => funext fun k => congrFun (whole_block2 V c t) (ix2 d k))
    (funext fun k => congrFun (whole_block3 V c t) (ix2 0 k))
    (funext fun k => funext fun j => congrFun (whole_block4 V c t) (ix2 k j))
    (funext fun j => congrFun (whole_block5 V c t) (ix2 0 j))
    (funext fun j => congrArg₂ (fun a b => a * Ideal.rsqrt (b + Cert.Gin.epsW))
      (congrFun (whole_block6 V c t) (ix2 0 j)) (congrFun (whole_block9 V c t) (ix2 0 j)))
    (funext fun j => congrFun (whole_block7 V c t) (ix2 0 j))
    (funext fun j => congrFun (whole_block8 V c t) (ix2 0 j))
    (Fin.ext hc.symm)

/-- An index of the output array is in point `t`'s block iff each coordinate is in the block's range on its axis. -/
theorem mem_block (t : Fin cfg2.N) (i : S50000x128.Idx) :
    i ∈ ((cfg2.win 10).blk t).view.set ↔ ∀ a : Fin 2, win2_10.index t a * S2000x128.size a ≤ (i a).val
      ∧ (i a).val < win2_10.index t a * S2000x128.size a + S2000x128.size a := by
  show i ∈ ((View.whole main_v86).slice (win2_10.rect t)).set ↔ _
  rw [View.set_slice_whole, Rect.mem_set_unit]
  exact Iff.rfl

/-- Every index of the output array is in some point's block: row `r` is in the block of point `r / 2000`. -/
theorem blocks_cover (i : S50000x128.Idx) :
    ∃ t : Fin cfg2.N, (cfg2.win 10).flush t = true ∧ i ∈ ((cfg2.win 10).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, ⟨e0, e1⟩⟩ := block_indices t
  refine ⟨t, flush2_10 t, ?_⟩
  rw [mem_block]
  intro a
  match a with
  | ⟨0, _⟩ =>
    show win2_10.index t (0 : Fin 2) * 2000 ≤ (i 0).val ∧ (i 0).val < win2_10.index t (0 : Fin 2) * 2000 + 2000
    omega
  | ⟨1, _⟩ =>
    show win2_10.index t (1 : Fin 2) * 128 ≤ (i 1).val ∧ (i 1).val < win2_10.index t (1 : Fin 2) * 128 + 128
    omega

/-- The output array after the region: the layer over all nodes, of the input arrays as the region finds them. -/
theorem final (c : Dev nD) :
    (Gen.dat2 (F := Ideal) V c).arrAt 10 cfg2.N
      = (Cert.Gin.layerK 128 (V c main_v53) (V c main_v63) (V c main_v65) (V c main_v80) (V c main_v69) (V c main_v81) (V c main_v82) (V c main_v83) (V c main_v84) (V c main_v85) : Cert.Gin.A2 50000 128) :=
  (dat2 V c).arrAt_eq_of_cover 10 (layerOut V c) (fun t _ => flushed_eq V c t) blocks_cover

end Cert.KernelIdeal.Region2

end
-- ==== Proof.Region3.lean ====
/-
  The network's fourth graph-isomorphism layer (pallas region 3) over all 50000 nodes, from its 25 row blocks.

  The layer runs at 25 grid points. Point `t` reads rows `2000·t … 2000·t + 1999` of the feature array and of the
  neighbour-sum array, reads the two weight matrices and the six parameter rows whole, and writes rows
  `2000·t … 2000·t + 1999` of the output. Entry `(r, q)` of what point `t` writes is the layer function of node
  `2000·t + r`'s two rows at channel `q` (the block computation read at an element), which is entry
  `(2000·t + r, q)` of the layer over all nodes: every point writes its block of ONE whole-array function. Row `r`
  of the output lies in the block of point `r / 2000`, so the 25 blocks cover the array, and the array ends holding
  that function.
-/
import proofs.«115757_j9131100472083_1_alg».proof.Proof.Gen.KernelIdeal.Frame
import proofs.«115757_j9131100472083_1_alg».proof.Proof.KPay
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_off : (![0, 0] : Fin 2 → Nat) = fun _ => 0 := funext fun a => by fin_cases a <;> rfl

/-- The block index of every window at every grid point: `(t, 0)` for the two row-blocked inputs and the output,
    `(0, 0)` for the eight whole-array inputs (decided over the 25 points). -/
theorem block_indices : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = t.val ∧ win3_10.index t (1 : Fin 2) = 0) :=
  (by decide +kernel : ∀ t : Fin grid3.N, _)

/-- Row `r` of the feature block at grid point `t` is row `2000 · t + r` of the array: the block index is `(t, 0)`,
    and a block's element sits, on each axis, at block index × block size + its own coordinate. -/
theorem row_block0 (c : Dev nD) (t : Fin cfg3.N) (x : S2000x128.Idx) (k : S50000x128.Idx)
    (hk0 : (k 0).val = 2000 * t.val + (x 0).val) (hk1 : (k 1).val = (x 1).val) :
    (iblk3 V c 0 t : Vec Ideal S2000x128 .f32) x = (V c main_v86 : S50000x128.Idx → EReal) k := by
  obtain ⟨⟨e0, e1⟩, -⟩ := block_indices t
  show V c main_v86 (((cfg3.win 0).blk t).view.emb x) = _
  refine congrArg _ (funext fun a => Fin.ext ?_)
  match a with
  | ⟨0, _⟩ => show win3_0.index t (0 : Fin 2) * 2000 + 1 * (x 0).val = (k 0).val; omega
  | ⟨1, _⟩ => show win3_0.index t (1 : Fin 2) * 128 + 1 * (x 1).val = (k 1).val; omega

/-- Row `r` of the neighbour-sum block at grid point `t` is row `2000 · t + r` of the array: the block index is `(t, 0)`,
    and a block's element sits, on each axis, at block index × block size + its own coordinate. -/
theorem row_block1 (c : Dev nD) (t : Fin cfg3.N) (x : S2000x128.Idx) (k : S50000x128.Idx)
    (hk0 : (k 0).val = 2000 * t.val + (x 0).val) (hk1 : (k 1).val = (x 1).val) :
    (iblk3 V c 1 t : Vec Ideal S2000x128 .f32) x = (V c main_v96 : S50000x128.Idx → EReal) k := by
  obtain ⟨-, ⟨e0, e1⟩, -⟩ := block_indices t
  show V c main_v96 (((cfg3.win 1).blk t).view.emb x) = _
  refine congrArg _ (funext fun a => Fin.ext ?_)
  match a with
  | ⟨0, _⟩ => show win3_1.index t (0 : Fin 2) * 2000 + 1 * (x 0).val = (k 0).val; omega
  | ⟨1, _⟩ => show win3_1.index t (1 : Fin 2) * 128 + 1 * (x 1).val = (k 1).val; omega

/-- The block of the first weight matrix at every grid point is the whole array: its block index is `(0, 0)`. -/
theorem whole_block2 (c : Dev nD) (t : Fin cfg3.N) :
    (iblk3 V c 2 t : Vec Ideal S128x128 .f32) = (V c main_v98 : S128x128.Idx → EReal) := by
  obtain ⟨-, -, ⟨e0, e1⟩, -⟩ := block_indices t
  funext x
  show V c main_v98 (((cfg3.win 2).blk t).view.emb x) = _
  refine congrArg _ (funext fun a => Fin.ext ?_)
  match a with
  | ⟨0, _⟩ => show win3_2.index t (0 : Fin 2) * 128 + 1 * (x 0).val = (x 0).val; omega
  | ⟨1, _⟩ => show win3_2.index t (1 : Fin 2) * 128 + 1 * (x 1).val = (x 1).val; omega

/-- The block of the first bias row at every grid point is the whole array: its block index is `(0, 0)`. -/
theorem whole_block3 (c : Dev nD) (t : Fin cfg3.N) :
    (iblk3 V c 3 t : Vec Ideal S1x128 .f32) = (V c main_v113 : S1x128.Idx → EReal) := by
  obtain ⟨-, -, -, ⟨e0, e1⟩, -⟩ := block_indices t
  funext x
  show V c main_v113 (((cfg3.win 3).blk t).view.emb x) = _
  refine congrArg _ (funext fun a => Fin.ext ?_)
  match a with
  | ⟨0, _⟩ => show win3_3.index t (0 : Fin 2) * 1 + 1 * (x 0).val = (x 0).val; omega
  | ⟨1, _⟩ => show win3_3.index t (1 : Fin 2) * 128 + 1 * (x 1).val = (x 1).val; omega

/-- The block of the second weight matrix at every grid point is the whole array: its block index is `(0, 0)`. -/
theorem whole_block4 (c : Dev nD) (t : Fin cfg3.N) :
    (iblk3 V c 4 t : Vec Ideal S128x128 .f32) = (V c main_v102 : S128x128.Idx → EReal) := by
  obtain ⟨-, -, -, -, ⟨e0, e1⟩, -⟩ := block_indices t
  funext x
  show V c main_v102 (((cfg3.win 4).blk t).view.emb x) = _
  refine congrArg _ (funext fun a => Fin.ext ?_)
  match a with
  | ⟨0, _⟩ => show win3_4.index t (0 : Fin 2) * 128 + 1 * (x 0).val = (x 0).val; omega
  | ⟨1, _⟩ => show win3_4.index t (1 : Fin 2) * 128 + 1 * (x 1).val = (x 1).val; omega

/-- The block of the second bias row at every grid point is the whole array: its block index is `(0, 0)`. -/
theorem whole_block5 (c : Dev nD) (t : Fin cfg3.N) :
    (iblk3 V c 5 t : Vec Ideal S1x128 .f32) = (V c main_v114 : S1x128.Idx → EReal) := by
  obtain ⟨-, -, -, -, -, ⟨e0, e1⟩, -⟩ := block_indices t
  funext x
  show V c main_v114 (((cfg3.win 5).blk t).view.emb x) = _
  refine congrArg _ (funext fun a => Fin.ext ?_)
  match a with
  | ⟨0, _⟩ => show win3_5.index t (0 : Fin 2) * 1 + 1 * (x 0).val = (x 0).val; omega
  | ⟨1, _⟩ => show win3_5.index t (1 : Fin 2) * 128 + 1 * (x 1).val = (x 1).val; omega

/-- The block of the gamma row at every grid point is the whole array: its block index is `(0, 0)`. -/
theorem whole_block6 (c : Dev nD) (t : Fin cfg3.N) :
    (iblk3 V c 6 t : Vec Ideal S1x128 .f32) = (V c main_v115 : S1x128.Idx → EReal) := by
  obtain ⟨-, -, -, -, -, -, ⟨e0, e1⟩, -⟩ := block_indices t
  funext x
  show V c main_v115 (((cfg3.win 6).blk t).view.emb x) = _
  refine congrArg _ (funext fun a => Fin.ext ?_)
  match a with
  | ⟨0, _⟩ => show win3_6.index t (0 : Fin 2) * 1 + 1 * (x 0).val = (x 0).val; omega
  | ⟨1, _⟩ => show win3_6.index t (1 : Fin 2) * 128 + 1 * (x 1).val = (x 1).val; omega

/-- The block of the shift row at every grid point is the whole array: its block index is `(0, 0)`. -/
theorem whole_block7 (c : Dev nD) (t : Fin cfg3.N) :
    (iblk3 V c 7 t : Vec Ideal S1x128 .f32) = (V c main_v116 : S1x128.Idx → EReal) := by
  obtain ⟨-, -, -, -, -, -, -, ⟨e0, e1⟩, -⟩ := block_indices t
  funext x
  show V c main_v116 (((cfg3.win 7).blk t).view.emb x) = _
  refine congrArg _ (funext fun a => Fin.ext ?_)
  match a with
  | ⟨0, _⟩ => show win3_7.index t (0 : Fin 2) * 1 + 1 * (x 0).val = (x 0).val; omega
  | ⟨1, _⟩ => show win3_7.index t (1 : Fin 2) * 128 + 1 * (x 1).val = (x 1).val; omega

/-- The block of the mean row at every grid point is the whole array: its block index is `(0, 0)`. -/
theorem whole_block8 (c : Dev nD) (t : Fin cfg3.N) :
    (iblk3 V c 8 t : Vec Ideal S1x128 .f32) = (V c main_v117 : S1x128.Idx → EReal) := by
  obtain ⟨-, -, -, -, -, -, -, -, ⟨e0, e1⟩, -⟩ := block_indices t
  funext x
  show V c main_v117 (((cfg3.win 8).blk t).view.emb x) = _
  refine congrArg _ (funext fun a => Fin.ext ?_)
  match a with
  | ⟨0, _⟩ => show win3_8.index t (0 : Fin 2) * 1 + 1 * (x 0).val = (x 0).val; omega
  | ⟨1, _⟩ => show win3_8.index t (1 : Fin 2) * 128 + 1 * (x 1).val = (x 1).val; omega

/-- The block of the variance row at every grid point is the whole array: its block index is `(0, 0)`. -/
theorem whole_block9 (c : Dev nD) (t : Fin cfg3.N) :
    (iblk3 V c 9 t : Vec Ideal S1x128 .f32) = (V c main_v118 : S1x128.Idx → EReal) := by
  obtain ⟨-, -, -, -, -, -, -, -, -, ⟨e0, e1⟩, -⟩ := block_indices t
  funext x
  show V c main_v118 (((cfg3.win 9).blk t).view.emb x) = _
  refine congrArg _ (funext fun a => Fin.ext ?_)
  match a with
  | ⟨0, _⟩ => show win3_9.index t (0 : Fin 2) * 1 + 1 * (x 0).val = (x 0).val; omega
  | ⟨1, _⟩ => show win3_9.index t (1 : Fin 2) * 128 + 1 * (x 1).val = (x 1).val; omega

/-- The layer function of one node depends on its arguments only through their values. -/
theorem ginRow_congr {xr xr' ar ar' : Fin 128 → EReal} {W1 W1' W2 W2' : Fin 128 → Fin 128 → EReal}
    {b1 b1' b2 b2' s s' β β' μ μ' : Fin 128 → EReal} {q q' : Fin 128}
    (hx : xr = xr') (ha : ar = ar') (hW1 : W1 = W1') (hb1 : b1 = b1') (hW2 : W2 = W2') (hb2 : b2 = b2') (hs : s = s')
    (hβ : β = β') (hμ : μ = μ') (hq : q = q') :
    Cert.Gin.ginRow xr ar W1 b1 W2 b2 s β μ q = Cert.Gin.ginRow xr' ar' W1' b1' W2' b2' s' β' μ' q' := by
  subst hx ha hW1 hb1 hW2 hb2 hs hβ hμ hq; rfl

/-- The layer over all nodes, of the ten input arrays as the region finds them. -/
abbrev layerOut (c : Dev nD) : Cert.Gin.A2 50000 128 :=
  Cert.Gin.layerK 128 (V c main_v86) (V c main_v96) (V c main_v98) (V c main_v113) (V c main_v102) (V c main_v114) (V c main_v115) (V c main_v116) (V c main_v117) (V c main_v118)

/-- What grid point `t` writes back is block `t` of the layer over all nodes: at `(r, q)` both sides are the layer
    function of node `2000·t + r` at channel `q`. -/
theorem flushed_eq (c : Dev nD) (t : Fin cfg3.N) :
    (dat3 (F := Ideal) V c).flushed 10 t = ((cfg3.win 10).blk t).view.read (Elt Ideal) (layerOut V c) := by
  show (cfg3.win 10).cut (grid3.coords t) ((dat3 V c).after 10 t) = _
  rw [after3_10]
  unfold out3_10
  rw [View.canon_unit_zero zero_off]
  simp only [View.ld_unit_zero (S := S2000x128) zero_off, View.ld_unit_zero (S := S128x128) zero_off,
    View.ld_unit_zero (S := S1x128) zero_off]
  rw [KPay.k3_pay1_eq, KPay.k3_pay2_eq, KPay.k3_pay3_eq]
  funext j
  obtain ⟨p, q, rfl⟩ : ∃ (p : Fin 2000) (q : Fin 128), j = ix2 p q := ⟨j 0, j 1, eq_ix2 j⟩
  obtain ⟨-, -, -, -, -, -, -, -, -, -, ⟨e0, e1⟩⟩ := block_indices t
  show k1_pay1 (F := Ideal) (k1_pay2 (iblk3 V c 0 t) (iblk3 V c 1 t) (iblk3 V c 2 t) (iblk3 V c 3 t) (iblk3 V c 4 t) (iblk3 V c 5 t))
      (k1_pay3 (iblk3 V c 6 t) (iblk3 V c 9 t)) (iblk3 V c 8 t) (iblk3 V c 7 t) (ix2 p q)
    = layerOut V c (((cfg3.win 10).blk t).view.emb (ix2 p q))
  refine (KPay.pay_layer _ _ _ _ _ _ _ _ _ _ p q).trans ?_
  have hr : ((((cfg3.win 10).blk t).view.emb (ix2 p q)) 0).val = 2000 * t.val + p.val := by
    show win3_10.index t (0 : Fin 2) * 2000 + 1 * p.val = _; omega
  have hc : ((((cfg3.win 10).blk t).view.emb (ix2 p q)) 1).val = q.val := by
    show win3_10.index t (1 : Fin 2) * 128 + 1 * q.val = _; omega
  exact ginRow_congr
    (funext fun d => row_block0 V c t (ix2 p d) _ hr rfl)
    (funext fun d => row_block1 V c t (ix2 p d) _ hr rfl)
    (funext fun d => funext fun k => congrFun (whole_block2 V c t) (ix2 d k))
    (funext fun k => congrFun (whole_block3 V c t) (ix2 0 k))
    (funext fun k => funext fun j => congrFun (whole_block4 V c t) (ix2 k j))
    (funext fun j => congrFun (whole_block5 V c t) (ix2 0 j))
    (funext fun j => congrArg₂ (fun a b => a * Ideal.rsqrt (b + Cert.Gin.epsW))
      (congrFun (whole_block6 V c t) (ix2 0 j)) (congrFun (whole_block9 V c t) (ix2 0 j)))
    (funext fun j => congrFun (whole_block7 V c t) (ix2 0 j))
    (funext fun j => congrFun (whole_block8 V c t) (ix2 0 j))
    (Fin.ext hc.symm)

/-- An index of the output array is in point `t`'s block iff each coordinate is in the block's range on its axis. -/
theorem mem_block (t : Fin cfg3.N) (i : S50000x128.Idx) :
    i ∈ ((cfg3.win 10).blk t).view.set ↔ ∀ a : Fin 2, win3_10.index t a * S2000x128.size a ≤ (i a).val
      ∧ (i a).val < win3_10.index t a * S2000x128.size a + S2000x128.size a := by
  show i ∈ ((View.whole main_v119).slice (win3_10.rect t)).set ↔ _
  rw [View.set_slice_whole, Rect.mem_set_unit]
  exact Iff.rfl

/-- Every index of the output array is in some point's block: row `r` is in the block of point `r / 2000`. -/
theorem blocks_cover (i : S50000x128.Idx) :
    ∃ t : Fin cfg3.N, (cfg3.win 10).flush t = true ∧ i ∈ ((cfg3.win 10).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, ⟨e0, e1⟩⟩ := block_indices t
  refine ⟨t, flush3_10 t, ?_⟩
  rw [mem_block]
  intro a
  match a with
  | ⟨0, _⟩ =>
    show win3_10.index t (0 : Fin 2) * 2000 ≤ (i 0).val ∧ (i 0).val < win3_10.index t (0 : Fin 2) * 2000 + 2000
    omega
  | ⟨1, _⟩ =>
    show win3_10.index t (1 : Fin 2) * 128 ≤ (i 1).val ∧ (i 1).val < win3_10.index t (1 : Fin 2) * 128 + 128
    omega

/-- The output array after the region: the layer over all nodes, of the input arrays as the region finds them. -/
theorem final (c : Dev nD) :
    (Gen.dat3 (F := Ideal) V c).arrAt 10 cfg3.N
      = (Cert.Gin.layerK 128 (V c main_v86) (V c main_v96) (V c main_v98) (V c main_v113) (V c main_v102) (V c main_v114) (V c main_v115) (V c main_v116) (V c main_v117) (V c main_v118) : Cert.Gin.A2 50000 128) :=
  (dat3 V c).arrAt_eq_of_cover 10 (layerOut V c) (fun t _ => flushed_eq V c t) blocks_cover

end Cert.KernelIdeal.Region3

end
-- ==== Proof.Region4.lean ====
/-
  The network's fifth graph-isomorphism layer (pallas region 4) over all 50000 nodes, from its 25 row blocks.

  The layer runs at 25 grid points. Point `t` reads rows `2000·t … 2000·t + 1999` of the feature array and of the
  neighbour-sum array, reads the two weight matrices and the six parameter rows whole, and writes rows
  `2000·t … 2000·t + 1999` of the output. Entry `(r, q)` of what point `t` writes is the layer function of node
  `2000·t + r`'s two rows at channel `q` (the block computation read at an element), which is entry
  `(2000·t + r, q)` of the layer over all nodes: every point writes its block of ONE whole-array function. Row `r`
  of the output lies in the block of point `r / 2000`, so the 25 blocks cover the array, and the array ends holding
  that function.
-/
import proofs.«115757_j9131100472083_1_alg».proof.Proof.Gen.KernelIdeal.Frame
import proofs.«115757_j9131100472083_1_alg».proof.Proof.KPay
import Idealize.ShloMosaic.Lib.Pipeline.Value

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_off : (![0, 0] : Fin 2 → Nat) = fun _ => 0 := funext fun a => by fin_cases a <;> rfl

/-- The block index of every window at every grid point: `(t, 0)` for the two row-blocked inputs and the output,
    `(0, 0)` for the eight whole-array inputs (decided over the 25 points). -/
theorem block_indices : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = t.val ∧ win4_10.index t (1 : Fin 2) = 0) :=
  (by decide +kernel : ∀ t : Fin grid4.N, _)

/-- Row `r` of the feature block at grid point `t` is row `2000 · t + r` of the array: the block index is `(t, 0)`,
    and a block's element sits, on each axis, at block index × block size + its own coordinate. -/
theorem row_block0 (c : Dev nD) (t : Fin cfg4.N) (x : S2000x128.Idx) (k : S50000x128.Idx)
    (hk0 : (k 0).val = 2000 * t.val + (x 0).val) (hk1 : (k 1).val = (x 1).val) :
    (iblk4 V c 0 t : Vec Ideal S2000x128 .f32) x = (V c main_v119 : S50000x128.Idx → EReal) k := by
  obtain ⟨⟨e0, e1⟩, -⟩ := block_indices t
  show V c main_v119 (((cfg4.win 0).blk t).view.emb x) = _
  refine congrArg _ (funext fun a => Fin.ext ?_)
  match a with
  | ⟨0, _⟩ => show win4_0.index t (0 : Fin 2) * 2000 + 1 * (x 0).val = (k 0).val; omega
  | ⟨1, _⟩ => show win4_0.index t (1 : Fin 2) * 128 + 1 * (x 1).val = (k 1).val; omega

/-- Row `r` of the neighbour-sum block at grid point `t` is row `2000 · t + r` of the array: the block index is `(t, 0)`,
    and a block's element sits, on each axis, at block index × block size + its own coordinate. -/
theorem row_block1 (c : Dev nD) (t : Fin cfg4.N) (x : S2000x128.Idx) (k : S50000x128.Idx)
    (hk0 : (k 0).val = 2000 * t.val + (x 0).val) (hk1 : (k 1).val = (x 1).val) :
    (iblk4 V c 1 t : Vec Ideal S2000x128 .f32) x = (V c main_v129 : S50000x128.Idx → EReal) k := by
  obtain ⟨-, ⟨e0, e1⟩, -⟩ := block_indices t
  show V c main_v129 (((cfg4.win 1).blk t).view.emb x) = _
  refine congrArg _ (funext fun a => Fin.ext ?_)
  match a with
  | ⟨0, _⟩ => show win4_1.index t (0 : Fin 2) * 2000 + 1 * (x 0).val = (k 0).val; omega
  | ⟨1, _⟩ => show win4_1.index t (1 : Fin 2) * 128 + 1 * (x 1).val = (k 1).val; omega

/-- The block of the first weight matrix at every grid point is the whole array: its block index is `(0, 0)`. -/
theorem whole_block2 (c : Dev nD) (t : Fin cfg4.N) :
    (iblk4 V c 2 t : Vec Ideal S128x128 .f32) = (V c main_v131 : S128x128.Idx → EReal) := by
  obtain ⟨-, -, ⟨e0, e1⟩, -⟩ := block_indices t
  funext x
  show V c main_v131 (((cfg4.win 2).blk t).view.emb x) = _
  refine congrArg _ (funext fun a => Fin.ext ?_)
  match a with
  | ⟨0, _⟩ => show win4_2.index t (0 : Fin 2) * 128 + 1 * (x 0).val = (x 0).val; omega
  | ⟨1, _⟩ => show win4_2.index t (1 : Fin 2) * 128 + 1 * (x 1).val = (x 1).val; omega

/-- The block of the first bias row at every grid point is the whole array: its block index is `(0, 0)`. -/
theorem whole_block3 (c : Dev nD) (t : Fin cfg4.N) :
    (iblk4 V c 3 t : Vec Ideal S1x128 .f32) = (V c main_v146 : S1x128.Idx → EReal) := by
  obtain ⟨-, -, -, ⟨e0, e1⟩, -⟩ := block_indices t
  funext x
  show V c main_v146 (((cfg4.win 3).blk t).view.emb x) = _
  refine congrArg _ (funext fun a => Fin.ext ?_)
  match a with
  | ⟨0, _⟩ => show win4_3.index t (0 : Fin 2) * 1 + 1 * (x 0).val = (x 0).val; omega
  | ⟨1, _⟩ => show win4_3.index t (1 : Fin 2) * 128 + 1 * (x 1).val = (x 1).val; omega

/-- The block of the second weight matrix at every grid point is the whole array: its block index is `(0, 0)`. -/
theorem whole_block4 (c : Dev nD) (t : Fin cfg4.N) :
    (iblk4 V c 4 t : Vec Ideal S128x128 .f32) = (V c main_v135 : S128x128.Idx → EReal) := by
  obtain ⟨-, -, -, -, ⟨e0, e1⟩, -⟩ := block_indices t
  funext x
  show V c main_v135 (((cfg4.win 4).blk t).view.emb x) = _
  refine congrArg _ (funext fun a => Fin.ext ?_)
  match a with
  | ⟨0, _⟩ => show win4_4.index t (0 : Fin 2) * 128 + 1 * (x 0).val = (x 0).val; omega
  | ⟨1, _⟩ => show win4_4.index t (1 : Fin 2) * 128 + 1 * (x 1).val = (x 1).val; omega

/-- The block of the second bias row at every grid point is the whole array: its block index is `(0, 0)`. -/
theorem whole_block5 (c : Dev nD) (t : Fin cfg4.N) :
    (iblk4 V c 5 t : Vec Ideal S1x128 .f32) = (V c main_v147 : S1x128.Idx → EReal) := by
  obtain ⟨-, -, -, -, -, ⟨e0, e1⟩, -⟩ := block_indices t
  funext x
  show V c main_v147 (((cfg4.win 5).blk t).view.emb x) = _
  refine congrArg _ (funext fun a => Fin.ext ?_)
  match a with
  | ⟨0, _⟩ => show win4_5.index t (0 : Fin 2) * 1 + 1 * (x 0).val = (x 0).val; omega
  | ⟨1, _⟩ => show win4_5.index t (1 : Fin 2) * 128 + 1 * (x 1).val = (x 1).val; omega

/-- The block of the gamma row at every grid point is the whole array: its block index is `(0, 0)`. -/
theorem whole_block6 (c : Dev nD) (t : Fin cfg4.N) :
    (iblk4 V c 6 t : Vec Ideal S1x128 .f32) = (V c main_v148 : S1x128.Idx → EReal) := by
  obtain ⟨-, -, -, -, -, -, ⟨e0, e1⟩, -⟩ := block_indices t
  funext x
  show V c main_v148 (((cfg4.win 6).blk t).view.emb x) = _
  refine congrArg _ (funext fun a => Fin.ext ?_)
  match a with
  | ⟨0, _⟩ => show win4_6.index t (0 : Fin 2) * 1 + 1 * (x 0).val = (x 0).val; omega
  | ⟨1, _⟩ => show win4_6.index t (1 : Fin 2) * 128 + 1 * (x 1).val = (x 1).val; omega

/-- The block of the shift row at every grid point is the whole array: its block index is `(0, 0)`. -/
theorem whole_block7 (c : Dev nD) (t : Fin cfg4.N) :
    (iblk4 V c 7 t : Vec Ideal S1x128 .f32) = (V c main_v149 : S1x128.Idx → EReal) := by
  obtain ⟨-, -, -, -, -, -, -, ⟨e0, e1⟩, -⟩ := block_indices t
  funext x
  show V c main_v149 (((cfg4.win 7).blk t).view.emb x) = _
  refine congrArg _ (funext fun a => Fin.ext ?_)
  match a with
  | ⟨0, _⟩ => show win4_7.index t (0 : Fin 2) * 1 + 1 * (x 0).val = (x 0).val; omega
  | ⟨1, _⟩ => show win4_7.index t (1 : Fin 2) * 128 + 1 * (x 1).val = (x 1).val; omega

/-- The block of the mean row at every grid point is the whole array: its block index is `(0, 0)`. -/
theorem whole_block8 (c : Dev nD) (t : Fin cfg4.N) :
    (iblk4 V c 8 t : Vec Ideal S1x128 .f32) = (V c main_v150 : S1x128.Idx → EReal) := by
  obtain ⟨-, -, -, -, -, -, -, -, ⟨e0, e1⟩, -⟩ := block_indices t
  funext x
  show V c main_v150 (((cfg4.win 8).blk t).view.emb x) = _
  refine congrArg _ (funext fun a => Fin.ext ?_)
  match a with
  | ⟨0, _⟩ => show win4_8.index t (0 : Fin 2) * 1 + 1 * (x 0).val = (x 0).val; omega
  | ⟨1, _⟩ => show win4_8.index t (1 : Fin 2) * 128 + 1 * (x 1).val = (x 1).val; omega

/-- The block of the variance row at every grid point is the whole array: its block index is `(0, 0)`. -/
theorem whole_block9 (c : Dev nD) (t : Fin cfg4.N) :
    (iblk4 V c 9 t : Vec Ideal S1x128 .f32) = (V c main_v151 : S1x128.Idx → EReal) := by
  obtain ⟨-, -, -, -, -, -, -, -, -, ⟨e0, e1⟩, -⟩ := block_indices t
  funext x
  show V c main_v151 (((cfg4.win 9).blk t).view.emb x) = _
  refine congrArg _ (funext fun a => Fin.ext ?_)
  match a with
  | ⟨0, _⟩ => show win4_9.index t (0 : Fin 2) * 1 + 1 * (x 0).val = (x 0).val; omega
  | ⟨1, _⟩ => show win4_9.index t (1 : Fin 2) * 128 + 1 * (x 1).val = (x 1).val; omega

/-- The layer function of one node depends on its arguments only through their values. -/
theorem ginRow_congr {xr xr' ar ar' : Fin 128 → EReal} {W1 W1' W2 W2' : Fin 128 → Fin 128 → EReal}
    {b1 b1' b2 b2' s s' β β' μ μ' : Fin 128 → EReal} {q q' : Fin 128}
    (hx : xr = xr') (ha : ar = ar') (hW1 : W1 = W1') (hb1 : b1 = b1') (hW2 : W2 = W2') (hb2 : b2 = b2') (hs : s = s')
    (hβ : β = β') (hμ : μ = μ') (hq : q = q') :
    Cert.Gin.ginRow xr ar W1 b1 W2 b2 s β μ q = Cert.Gin.ginRow xr' ar' W1' b1' W2' b2' s' β' μ' q' := by
  subst hx ha hW1 hb1 hW2 hb2 hs hβ hμ hq; rfl

/-- The layer over all nodes, of the ten input arrays as the region finds them. -/
abbrev layerOut (c : Dev nD) : Cert.Gin.A2 50000 128 :=
  Cert.Gin.layerK 128 (V c main_v119) (V c main_v129) (V c main_v131) (V c main_v146) (V c main_v135) (V c main_v147) (V c main_v148) (V c main_v149) (V c main_v150) (V c main_v151)

/-- What grid point `t` writes back is block `t` of the layer over all nodes: at `(r, q)` both sides are the layer
    function of node `2000·t + r` at channel `q`. -/
theorem flushed_eq (c : Dev nD) (t : Fin cfg4.N) :
    (dat4 (F := Ideal) V c).flushed 10 t = ((cfg4.win 10).blk t).view.read (Elt Ideal) (layerOut V c) := by
  show (cfg4.win 10).cut (grid4.coords t) ((dat4 V c).after 10 t) = _
  rw [after4_10]
  unfold out4_10
  rw [View.canon_unit_zero zero_off]
  simp only [View.ld_unit_zero (S := S2000x128) zero_off, View.ld_unit_zero (S := S128x128) zero_off,
    View.ld_unit_zero (S := S1x128) zero_off]
  rw [KPay.k4_pay1_eq, KPay.k4_pay2_eq, KPay.k4_pay3_eq]
  funext j
  obtain ⟨p, q, rfl⟩ : ∃ (p : Fin 2000) (q : Fin 128), j = ix2 p q := ⟨j 0, j 1, eq_ix2 j⟩
  obtain ⟨-, -, -, -, -, -, -, -, -, -, ⟨e0, e1⟩⟩ := block_indices t
  show k1_pay1 (F := Ideal) (k1_pay2 (iblk4 V c 0 t) (iblk4 V c 1 t) (iblk4 V c 2 t) (iblk4 V c 3 t) (iblk4 V c 4 t) (iblk4 V c 5 t))
      (k1_pay3 (iblk4 V c 6 t) (iblk4 V c 9 t)) (iblk4 V c 8 t) (iblk4 V c 7 t) (ix2 p q)
    = layerOut V c (((cfg4.win 10).blk t).view.emb (ix2 p q))
  refine (KPay.pay_layer _ _ _ _ _ _ _ _ _ _ p q).trans ?_
  have hr : ((((cfg4.win 10).blk t).view.emb (ix2 p q)) 0).val = 2000 * t.val + p.val := by
    show win4_10.index t (0 : Fin 2) * 2000 + 1 * p.val = _; omega
  have hc : ((((cfg4.win 10).blk t).view.emb (ix2 p q)) 1).val = q.val := by
    show win4_10.index t (1 : Fin 2) * 128 + 1 * q.val = _; omega
  exact ginRow_congr
    (funext fun d => row_block0 V c t (ix2 p d) _ hr rfl)
    (funext fun d => row_block1 V c t (ix2 p d) _ hr rfl)
    (funext fun d => funext fun k => congrFun (whole_block2 V c t) (ix2 d k))
    (funext fun k => congrFun (whole_block3 V c t) (ix2 0 k))
    (funext fun k => funext fun j => congrFun (whole_block4 V c t) (ix2 k j))
    (funext fun j => congrFun (whole_block5 V c t) (ix2 0 j))
    (funext fun j => congrArg₂ (fun a b => a * Ideal.rsqrt (b + Cert.Gin.epsW))
      (congrFun (whole_block6 V c t) (ix2 0 j)) (congrFun (whole_block9 V c t) (ix2 0 j)))
    (funext fun j => congrFun (whole_block7 V c t) (ix2 0 j))
    (funext fun j => congrFun (whole_block8 V c t) (ix2 0 j))
    (Fin.ext hc.symm)

/-- An index of the output array is in point `t`'s block iff each coordinate is in the block's range on its axis. -/
theorem mem_block (t : Fin cfg4.N) (i : S50000x128.Idx) :
    i ∈ ((cfg4.win 10).blk t).view.set ↔ ∀ a : Fin 2, win4_10.index t a * S2000x128.size a ≤ (i a).val
      ∧ (i a).val < win4_10.index t a * S2000x128.size a + S2000x128.size a := by
  show i ∈ ((View.whole main_v152).slice (win4_10.rect t)).set ↔ _
  rw [View.set_slice_whole, Rect.mem_set_unit]
  exact Iff.rfl

/-- Every index of the output array is in some point's block: row `r` is in the block of point `r / 2000`. -/
theorem blocks_cover (i : S50000x128.Idx) :
    ∃ t : Fin cfg4.N, (cfg4.win 10).flush t = true ∧ i ∈ ((cfg4.win 10).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, -, -, -, -, ⟨e0, e1⟩⟩ := block_indices t
  refine ⟨t, flush4_10 t, ?_⟩
  rw [mem_block]
  intro a
  match a with
  | ⟨0, _⟩ =>
    show win4_10.index t (0 : Fin 2) * 2000 ≤ (i 0).val ∧ (i 0).val < win4_10.index t (0 : Fin 2) * 2000 + 2000
    omega
  | ⟨1, _⟩ =>
    show win4_10.index t (1 : Fin 2) * 128 ≤ (i 1).val ∧ (i 1).val < win4_10.index t (1 : Fin 2) * 128 + 128
    omega

/-- The output array after the region: the layer over all nodes, of the input arrays as the region finds them. -/
theorem final (c : Dev nD) :
    (Gen.dat4 (F := Ideal) V c).arrAt 10 cfg4.N
      = (Cert.Gin.layerK 128 (V c main_v119) (V c main_v129) (V c main_v131) (V c main_v146) (V c main_v135) (V c main_v147) (V c main_v148) (V c main_v149) (V c main_v150) (V c main_v151) : Cert.Gin.A2 50000 128) :=
  (dat4 V c).arrAt_eq_of_cover 10 (layerOut V c) (fun t _ => flushed_eq V c t) blocks_cover

end Cert.KernelIdeal.Region4

end
-- ==== Proof.KPay5.lean ====
/-
  The read-out head's arithmetic at one pooled row.

  The kernel body of the head takes a block `x0` of pooled rows, the first dense map `x1` with its bias row `x2`,
  the second dense map `x3` (one output column) and its bias `x4`. At row `p` its one output is
      (∑ k, max ((∑ d, x0 (p, d) · x1 (d, k)) + x2 (0, k)) 0 · x3 (k, 0)) + x4 (0, 0) :
  each matrix-unit product into a zero accumulator is the contraction's plain sum, the narrowing format changes
  are the identity on extended reals, the bias rows are broadcast down the rows, and the clamp is a maximum with
  the float zero.
-/
import proofs.«115757_j9131100472083_1_alg».proof.Proof.Spec
import proofs.«115757_j9131100472083_1_alg».proof.Proof.LibPlainDot
import proofs.«115757_j9131100472083_1_alg».proof.Proof.Gen.KernelIdeal.Skeleton
import Idealize.ShloMosaic.Lib.ValueLayout
import Idealize.ShloMosaic.Lib.Pipeline.Value

noncomputable section

namespace Cert.KernelIdeal.KPay5

open Idealize.ShloMosaic Idealize.ShloMosaic.ValueIdx Cert.KernelIdeal

/-- The head's stored value at row `p` is the head function of that row of the pooled block. -/
theorem pay_head (x0 : Vec Ideal S512x128 .f32) (x1 : Vec Ideal S128x128 .f32) (x2 : Vec Ideal S1x128 .f32)
    (x3 : Vec Ideal S128x1 .f32) (x4 : Vec Ideal S1x1 .f32) (p : Fin 512) :
    Gen.k5_pay1 (F := Ideal) x0 x1 x2 x3 x4 (ix2 p 0)
      = Cert.Gin.headRow (fun d => x0 (ix2 p d)) (fun d k => x1 (ix2 d k)) (fun k => x2 (ix2 0 k)) (fun k => x3 (ix2 k 0))
          (x4 (ix2 0 0)) := by
  unfold Gen.k5_pay1 Cert.Gin.headRow
  simp only [shapeCast_self]
  -- the outer sum: second product plus the broadcast scalar bias
  rw [addf_apply, broadcastTo_1b_ab_apply]
  refine congrArg₂ (· + ·) ?_ rfl
  -- the second product, as a sum over the hidden channel
  refine (Cert.PlainDot.matmul_zero_apply 512 128 1 none _ _ (ix2 p 0)).trans ?_
  refine Finset.sum_congr rfl fun k _ => ?_
  refine congrArg₂ (· * ·) ?_ rfl
  -- the hidden activation at (p, k): clamp of first product plus bias row
  rw [truncf_apply, maximumf_apply, addf_apply, broadcast_apply]
  refine congrArg₂ max (congrArg₂ (· + ·) ?_ ?_) rfl
  · exact Cert.PlainDot.matmul_zero_apply 512 128 128 none _ _ _
  · exact broadcastTo_1b_ab_apply x2 _ p k

end Cert.KernelIdeal.KPay5

end
-- ==== Proof.Region5.lean ====
/-
  The read-out head's region, from blocks to the array.

  The region's grid has one point and every window's block is its whole array, so each input block is the entry
  array itself (block index zero on both axes), the one write-back covers the whole output, and what it writes at
  row `p` is the head function of row `p` of the pooled array: the output array ends as the head of the entry
  arrays.
-/
import proofs.«115757_j9131100472083_1_alg».proof.Proof.KPay5
import proofs.«115757_j9131100472083_1_alg».proof.Proof.Gen.KernelIdeal.Frame
import Idealize.ShloMosaic.Lib.Pipeline.Value

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The head of the region's entry arrays. -/
abbrev G (c : Dev nD) : Cert.Gin.A2 512 1 :=
  Cert.Gin.headK (V c main_v155) (V c main_arg19) (V c main_v156) (V c main_arg21) (V c main_v157)

/-- Every window of the one-point grid sits at block index zero on both axes. -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The pooled rows' block is the pooled array. -/
theorem blk0 (c : Dev nD) (t : Fin cfg5.N) (p : Fin 512) (d : Fin 128) :
    iblk5 V c 0 t (ix2 p d) = V c main_v155 (ix2 p d) := by
  obtain ⟨e0, e1, -⟩ := idx_facts t
  show V c main_v155 (((cfg5.win 0).blk t).view.emb (ix2 p d)) = V c main_v155 (ix2 p d)
  refine congrArg (V c main_v155) (funext fun a => Fin.ext ?_)
  match a with
  | ⟨0, _⟩ => show win5_0.index t (0 : Fin 2) * 512 + 1 * p.val = p.val; omega
  | ⟨1, _⟩ => show win5_0.index t (1 : Fin 2) * 128 + 1 * d.val = d.val; omega

/-- The first dense map's block is its array. -/
theorem blk1 (c : Dev nD) (t : Fin cfg5.N) (d k : Fin 128) :
    iblk5 V c 1 t (ix2 d k) = V c main_arg19 (ix2 d k) := by
  obtain ⟨-, -, e0, e1, -⟩ := idx_facts t
  show V c main_arg19 (((cfg5.win 1).blk t).view.emb (ix2 d k)) = V c main_arg19 (ix2 d k)
  refine congrArg (V c main_arg19) (funext fun a => Fin.ext ?_)
  match a with
  | ⟨0, _⟩ => show win5_1.index t (0 : Fin 2) * 128 + 1 * d.val = d.val; omega
  | ⟨1, _⟩ => show win5_1.index t (1 : Fin 2) * 128 + 1 * k.val = k.val; omega

/-- The first bias row's block is its array. -/
theorem blk2 (c : Dev nD) (t : Fin cfg5.N) (k : Fin 128) :
    iblk5 V c 2 t (ix2 0 k) = V c main_v156 (ix2 0 k) := by
  obtain ⟨-, -, -, -, e0, e1, -⟩ := idx_facts t
  show V c main_v156 (((cfg5.win 2).blk t).view.emb (ix2 0 k)) = V c main_v156 (ix2 0 k)
  refine congrArg (V c main_v156) (funext fun a => Fin.ext ?_)
  match a with
  | ⟨0, _⟩ => show win5_2.index t (0 : Fin 2) * 1 + 1 * 0 = 0; omega
  | ⟨1, _⟩ => show win5_2.index t (1 : Fin 2) * 128 + 1 * k.val = k.val; omega

/-- The second dense map's block is its array. -/
theorem blk3 (c : Dev nD) (t : Fin cfg5.N) (k : Fin 128) :
    iblk5 V c 3 t (ix2 k 0) = V c main_arg21 (ix2 k 0) := by
  obtain ⟨-, -, -, -, -, -, e0, e1, -⟩ := idx_facts t
  show V c main_arg21 (((cfg5.win 3).blk t).view.emb (ix2 k 0)) = V c main_arg21 (ix2 k 0)
  refine congrArg (V c main_arg21) (funext fun a => Fin.ext ?_)
  match a with
  | ⟨0, _⟩ => show win5_3.index t (0 : Fin 2) * 128 + 1 * k.val = k.val; omega
  | ⟨1, _⟩ => show win5_3.index t (1 : Fin 2) * 1 + 1 * 0 = 0; omega

/-- The second bias's block is its array. -/
theorem blk4 (c : Dev nD) (t : Fin cfg5.N) :
    iblk5 V c 4 t (ix2 0 0) = V c main_v157 (ix2 0 0) := by
  obtain ⟨-, -, -, -, -, -, -, -, e0, e1, -⟩ := idx_facts t
  show V c main_v157 (((cfg5.win 4).blk t).view.emb (ix2 0 0)) = V c main_v157 (ix2 0 0)
  refine congrArg (V c main_v157) (funext fun a => Fin.ext ?_)
  match a with
  | ⟨0, _⟩ => show win5_4.index t (0 : Fin 2) * 1 + 1 * 0 = 0; omega
  | ⟨1, _⟩ => show win5_4.index t (1 : Fin 2) * 1 + 1 * 0 = 0; omega

/-- What the one point writes back is the head of the entry arrays, read through the output's block. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S512x128) hz, View.ld_unit_zero (S := S128x128) hz, View.ld_unit_zero (S := S1x128) hz,
    View.ld_unit_zero (S := S128x1) hz, View.ld_unit_zero (S := S1x1) hz]
  funext j
  obtain ⟨p, q, rfl⟩ : ∃ (p : Fin 512) (q : Fin 1), j = ix2 p q := ⟨j 0, j 1, eq_ix2 j⟩
  obtain rfl : q = 0 := Subsingleton.elim _ _
  obtain ⟨-, -, -, -, -, -, -, -, -, -, e0, e1⟩ := idx_facts t
  have hemb : ((cfg5.win 5).blk t).view.emb (ix2 p 0) = (ix2 p 0 : S512x1.Idx) := by
    refine funext fun a => Fin.ext ?_
    match a with
    | ⟨0, _⟩ => show win5_5.index t (0 : Fin 2) * 512 + 1 * p.val = p.val; omega
    | ⟨1, _⟩ => show win5_5.index t (1 : Fin 2) * 1 + 1 * 0 = 0; omega
  show k5_pay1 (iblk5 V c 0 t) (iblk5 V c 1 t) (iblk5 V c 2 t) (iblk5 V c 3 t) (iblk5 V c 4 t) (ix2 p 0)
    = G V c (((cfg5.win 5).blk t).view.emb (ix2 p 0))
  rw [hemb]
  refine (Cert.KernelIdeal.KPay5.pay_head _ _ _ _ _ p).trans ?_
  simp only [blk0 V c t, blk1 V c t, blk2 V c t, blk3 V c t, blk4 V c t]
  rfl

/-- An index of the output array is in the point's block iff each coordinate is in the block's range. -/
theorem mem_blk (t : Fin cfg5.N) (i : S512x1.Idx) :
    i ∈ ((cfg5.win 5).blk t).view.set ↔ ∀ a : Fin 2, win5_5.index t a * S512x1.size a ≤ (i a).val
      ∧ (i a).val < win5_5.index t a * S512x1.size a + S512x1.size a := by
  show i ∈ ((View.whole main_v158).slice (win5_5.rect t)).set ↔ _
  rw [View.set_slice_whole, Rect.mem_set_unit]
  exact Iff.rfl

/-- The one point's block is the whole output array. -/
theorem cover (i : S512x1.Idx) : ∃ t : Fin cfg5.N, (cfg5.win 5).flush t = true ∧ i ∈ ((cfg5.win 5).blk t).view.set := by
  refine ⟨t5_0, flush5_5 t5_0, ?_⟩
  rw [mem_blk]
  obtain ⟨-, -, -, -, -, -, -, -, -, -, e0, e1⟩ := idx_facts t5_0
  have h0 : (i 0).val < 512 := (i 0).isLt
  have h1 : (i 1).val < 1 := (i 1).isLt
  intro a
  match a with
  | ⟨0, _⟩ => show win5_5.index t5_0 (0 : Fin 2) * 512 ≤ (i 0).val ∧ (i 0).val < win5_5.index t5_0 (0 : Fin 2) * 512 + 512; omega
  | ⟨1, _⟩ => show win5_5.index t5_0 (1 : Fin 2) * 1 ≤ (i 1).val ∧ (i 1).val < win5_5.index t5_0 (1 : Fin 2) * 1 + 1; omega

/-- After the region the output array is the head of the region's entry arrays. -/
theorem final (c : Dev nD) :
    (Gen.dat5 (F := Ideal) V c).arrAt 5 cfg5.N
      = (Cert.Gin.headK (V c main_v155) (V c main_arg19) (V c main_v156) (V c main_arg21) (V c main_v157) : Cert.Gin.A2 512 1) :=
  (dat5 (F := Ideal) V c).arrAt_eq_of_cover 5 (G V c) (fun t _ => flushed_eq V c t) cover

end Cert.KernelIdeal.Region5

end
-- ==== Proof.RefLayer.lean ====
/-
  The reference's dense stretches read index by index.

  Each named composition of whole-array operations is, on the extended reals, the function of the specification:
  a vector broadcast down the rows reads its own entry at the column; a broadcast scalar reads the constant;
  a matrix product at `(p, q)` is the sum over the shared axis of `l (p, k) * w (k, q)`; the sums, products,
  differences, maxima, the quotient and the square root act entry by entry. Reading one layer's output at row `p`
  and channel `q` this way gives
      (relu(relu((x + a)·W1 + b1)·W2 + b2)_q - mean_q) · (gamma_q / sqrt(var_q + eps)) + beta_q
  on row `p` of `x` and `a`, and reading the head at pooled row `r` gives `relu(p_r·W1 + b1)·w2 + b2`.
-/
import proofs.«115757_j9131100472083_1_alg».proof.Proof.RefOps
import proofs.«115757_j9131100472083_1_alg».proof.Proof.Spec
import proofs.«115757_j9131100472083_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLayer

open Cert.ReferenceIdeal Cert.ReferenceIdeal.Gen Idealize.ShloMosaic Idealize.ShloMosaic.ValueIdx

/-- A vector broadcast down the rows reads, at row `p` and channel `q`, the vector's entry `q`. -/
theorem rows_apply (y : FVec Ideal S128 .f32) (p : Fin 50000) (q : Fin 128) :
    RefOps.rows (F := Ideal) y (ix2 p q) = y (ix1 q) := by
  unfold RefOps.rows
  refine (broadcastInDim_apply _ bcast_S1x128_S50000x128_0_1 _ (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · exact broadcastInDim_apply _ bcast_S128_S1x128_1 y (ix2 (0 : Fin 1) q) (ix1 q) (fun a => match a with
      | ⟨0, _⟩ => by show q.val = if (128 : Nat) = 1 then 0 else q.val; rw [if_neg (by decide)])

/-- The zero array reads the float zero's value everywhere. -/
theorem zeros_apply (p : Fin 50000) (q : Fin 128) :
    RefOps.zeros (F := Ideal) (ix2 p q) = Cert.Gin.zeroW := by
  unfold RefOps.zeros
  exact broadcastInDim_apply _ bcast_S_S50000x128 _ (ix2 p q) ix0 (fun a => a.elim0)

/-- The per-channel scale at channel `q`. -/
theorem scale_apply (g v : FVec Ideal S128 .f32) (q : Fin 128) :
    RefOps.scale (F := Ideal) g v (ix1 q) = Ideal.div (g (ix1 q)) (Ideal.sqrt (v (ix1 q) + Cert.Gin.epsW)) := by
  unfold RefOps.scale
  show Ideal.div (g (ix1 q)) (Ideal.sqrt (v (ix1 q)
    + broadcastInDim S128 ![] bcast_S_S128 (constant (F := Ideal) S_ .f32 0x3727C5AC#32) (ix1 q))) = _
  rw [broadcastInDim_apply _ bcast_S_S128 _ (ix1 q) ix0 (fun a => a.elim0)]
  rfl

/-- The 128-channel product at an index. -/
theorem dot128_apply (l : FVec Ideal S50000x128 .f32) (w : FVec Ideal S128x128 .f32) (p : Fin 50000) (q : Fin 128) :
    Host.dotGeneral (F := Ideal) dot_S50000x128_S128x128_S50000x128_1_0_0_1_n_n none l w (ix2 p q)
      = ∑ k : Fin 128, l (ix2 p k) * w (ix2 k q) :=
  Cert.PlainDot.dotGeneral_apply 50000 128 128 none .single l w (ix2 p q)

/-- The 2-channel product at an index. -/
theorem dot2_apply (l : FVec Ideal S50000x2 .f32) (w : FVec Ideal S2x128 .f32) (p : Fin 50000) (q : Fin 128) :
    Host.dotGeneral (F := Ideal) dot_S50000x2_S2x128_S50000x128_1_0_0_1_n_n none l w (ix2 p q)
      = ∑ k : Fin 2, l (ix2 p k) * w (ix2 k q) :=
  Cert.PlainDot.dotGeneral_apply 50000 2 128 none .single l w (ix2 p q)

/-- A product, its bias and clamp, at an index. -/
theorem second_apply (h1 : FVec Ideal S50000x128 .f32) (W2 : FVec Ideal S128x128 .f32) (b2 : FVec Ideal S128 .f32)
    (p : Fin 50000) (q : Fin 128) :
    RefOps.second (F := Ideal) h1 W2 b2 (ix2 p q)
      = max ((∑ k : Fin 128, h1 (ix2 p k) * W2 (ix2 k q)) + b2 (ix1 q)) Cert.Gin.zeroW := by
  unfold RefOps.second
  show max (Host.dotGeneral (F := Ideal) dot_S50000x128_S128x128_S50000x128_1_0_0_1_n_n none h1 W2 (ix2 p q)
    + RefOps.rows (F := Ideal) b2 (ix2 p q)) (RefOps.zeros (F := Ideal) (ix2 p q)) = _
  rw [dot128_apply, rows_apply, zeros_apply]

/-- The batch normalisation at an index. -/
theorem norm_apply (h2 : FVec Ideal S50000x128 .f32) (g β μ v : FVec Ideal S128 .f32) (p : Fin 50000) (q : Fin 128) :
    RefOps.norm (F := Ideal) h2 g β μ v (ix2 p q)
      = (h2 (ix2 p q) - μ (ix1 q)) * Ideal.div (g (ix1 q)) (Ideal.sqrt (v (ix1 q) + Cert.Gin.epsW)) + β (ix1 q) := by
  unfold RefOps.norm
  show (h2 (ix2 p q) - RefOps.rows (F := Ideal) μ (ix2 p q)) * RefOps.rows (F := Ideal) (RefOps.scale (F := Ideal) g v) (ix2 p q)
    + RefOps.rows (F := Ideal) β (ix2 p q) = _
  rw [rows_apply, rows_apply, rows_apply, scale_apply]

/-- The first product of the 2-channel layer, its bias and clamp, at an index. -/
theorem first2_apply (x : FVec Ideal S50000x2 .f32) (W1 : FVec Ideal S2x128 .f32) (b1 : FVec Ideal S128 .f32)
    (p : Fin 50000) (q : Fin 128) :
    maximumf (addf (Host.dotGeneral (F := Ideal) dot_S50000x2_S2x128_S50000x128_1_0_0_1_n_n none x W1) (RefOps.rows (F := Ideal) b1))
        (RefOps.zeros (F := Ideal)) (ix2 p q)
      = max ((∑ d : Fin 2, x (ix2 p d) * W1 (ix2 d q)) + b1 (ix1 q)) Cert.Gin.zeroW := by
  show max (Host.dotGeneral (F := Ideal) dot_S50000x2_S2x128_S50000x128_1_0_0_1_n_n none x W1 (ix2 p q)
    + RefOps.rows (F := Ideal) b1 (ix2 p q)) (RefOps.zeros (F := Ideal) (ix2 p q)) = _
  rw [dot2_apply, rows_apply, zeros_apply]

/-- A layer on 128-channel features is, index by index, the layer of the specification. -/
theorem refLayer128_eq (h a : FVec Ideal S50000x128 .f32) (W1 : FVec Ideal S128x128 .f32) (b1 : FVec Ideal S128 .f32)
    (W2 : FVec Ideal S128x128 .f32) (b2 g β μ v : FVec Ideal S128 .f32) :
    RefOps.refLayer128 (F := Ideal) h a W1 b1 W2 b2 g β μ v = Cert.Gin.layerR 128 h a W1 b1 W2 b2 g β μ v := by
  funext i
  obtain ⟨p, q, rfl⟩ : ∃ (p : Fin 50000) (q : Fin 128), i = ix2 p q := ⟨i 0, i 1, eq_ix2 i⟩
  show RefOps.norm (F := Ideal) (RefOps.second (F := Ideal) (RefOps.second (F := Ideal) (addf h a) W1 b1) W2 b2) g β μ v (ix2 p q) = _
  rw [norm_apply, second_apply]
  simp only [second_apply]
  rfl

/-- The first layer, on the 2-channel input features, is the specification's layer index by index. -/
theorem refLayer2_eq (h a : FVec Ideal S50000x2 .f32) (W1 : FVec Ideal S2x128 .f32) (b1 : FVec Ideal S128 .f32)
    (W2 : FVec Ideal S128x128 .f32) (b2 g β μ v : FVec Ideal S128 .f32) :
    RefOps.refLayer2 (F := Ideal) h a W1 b1 W2 b2 g β μ v = Cert.Gin.layerR 2 h a W1 b1 W2 b2 g β μ v := by
  funext i
  obtain ⟨p, q, rfl⟩ : ∃ (p : Fin 50000) (q : Fin 128), i = ix2 p q := ⟨i 0, i 1, eq_ix2 i⟩
  unfold RefOps.refLayer2
  rw [norm_apply, second_apply]
  simp only [first2_apply]
  rfl

/-- The head's first bias broadcast down the 512 pooled rows. -/
theorem rows512_apply (y : FVec Ideal S128 .f32) (r : Fin 512) (k : Fin 128) :
    broadcastInDim S512x128 ![0, 1] bcast_S1x128_S512x128_0_1 (broadcastInDim S1x128 ![1] bcast_S128_S1x128_1 y) (ix2 r k)
      = y (ix1 k) := by
  refine (broadcastInDim_apply _ bcast_S1x128_S512x128_0_1 _ (ix2 r k) (ix2 (0 : Fin 1) k) (fun a => ?_)).trans ?_
  · match a with
    | ⟨0, _⟩ => show (0 : Nat) = if (1 : Nat) = 1 then 0 else r.val; rw [if_pos rfl]
    | ⟨1, _⟩ => show k.val = if (128 : Nat) = 1 then 0 else k.val; rw [if_neg (by decide)]
  · exact broadcastInDim_apply _ bcast_S128_S1x128_1 y (ix2 (0 : Fin 1) k) (ix1 k) (fun a => match a with
      | ⟨0, _⟩ => by show k.val = if (128 : Nat) = 1 then 0 else k.val; rw [if_neg (by decide)])

/-- The head's zero array reads the float zero's value everywhere. -/
theorem zeros512_apply (r : Fin 512) (k : Fin 128) :
    broadcastInDim S512x128 ![] bcast_S_S512x128 (constant (F := Ideal) S_ .f32 0x00000000#32) (ix2 r k) = Cert.Gin.zeroW :=
  broadcastInDim_apply _ bcast_S_S512x128 _ (ix2 r k) ix0 (fun a => a.elim0)

/-- The head's last bias, a one-entry vector, broadcast down the 512 rows. -/
theorem bias512_apply (y : FVec Ideal S1 .f32) (r : Fin 512) :
    broadcastInDim S512x1 ![0, 1] bcast_S1x1_S512x1_0_1 (broadcastInDim S1x1 ![1] bcast_S1_S1x1_1 y) (ix2 r (0 : Fin 1))
      = y (ix1 0) := by
  refine (broadcastInDim_apply _ bcast_S1x1_S512x1_0_1 _ (ix2 r (0 : Fin 1)) (ix2 (0 : Fin 1) (0 : Fin 1)) (fun a => ?_)).trans ?_
  · match a with
    | ⟨0, _⟩ => show (0 : Nat) = if (1 : Nat) = 1 then 0 else r.val; rw [if_pos rfl]
    | ⟨1, _⟩ => show (0 : Nat) = if (1 : Nat) = 1 then 0 else 0; rw [if_pos rfl]
  · exact broadcastInDim_apply _ bcast_S1_S1x1_1 y (ix2 (0 : Fin 1) (0 : Fin 1)) (ix1 0) (fun a => match a with
      | ⟨0, _⟩ => by show (0 : Nat) = if (1 : Nat) = 1 then 0 else 0; rw [if_pos rfl])

/-- The head's first product at an index. -/
theorem dot512_apply (l : FVec Ideal S512x128 .f32) (w : FVec Ideal S128x128 .f32) (r : Fin 512) (k : Fin 128) :
    Host.dotGeneral (F := Ideal) dot_S512x128_S128x128_S512x128_1_0_0_1_n_n none l w (ix2 r k)
      = ∑ d : Fin 128, l (ix2 r d) * w (ix2 d k) :=
  Cert.PlainDot.dotGeneral_apply 512 128 128 none .single l w (ix2 r k)

/-- The head's second product, onto one column, at an index. -/
theorem dot512x1_apply (l : FVec Ideal S512x128 .f32) (w : FVec Ideal S128x1 .f32) (r : Fin 512) :
    Host.dotGeneral (F := Ideal) dot_S512x128_S128x1_S512x1_1_0_0_1_n_n none l w (ix2 r (0 : Fin 1))
      = ∑ k : Fin 128, l (ix2 r k) * w (ix2 k 0) :=
  Cert.PlainDot.dotGeneral_apply 512 128 1 none .single l w (ix2 r (0 : Fin 1))

/-- The head's hidden row, clamped, at an index. -/
theorem hidden512_apply (p : FVec Ideal S512x128 .f32) (W1 : FVec Ideal S128x128 .f32) (b1 : FVec Ideal S128 .f32)
    (r : Fin 512) (k : Fin 128) :
    maximumf (addf (Host.dotGeneral (F := Ideal) dot_S512x128_S128x128_S512x128_1_0_0_1_n_n none p W1)
          (broadcastInDim S512x128 ![0, 1] bcast_S1x128_S512x128_0_1 (broadcastInDim S1x128 ![1] bcast_S128_S1x128_1 b1)))
        (broadcastInDim S512x128 ![] bcast_S_S512x128 (constant (F := Ideal) S_ .f32 0x00000000#32)) (ix2 r k)
      = max ((∑ d : Fin 128, p (ix2 r d) * W1 (ix2 d k)) + b1 (ix1 k)) Cert.Gin.zeroW := by
  show max (Host.dotGeneral (F := Ideal) dot_S512x128_S128x128_S512x128_1_0_0_1_n_n none p W1 (ix2 r k)
    + broadcastInDim S512x128 ![0, 1] bcast_S1x128_S512x128_0_1 (broadcastInDim S1x128 ![1] bcast_S128_S1x128_1 b1) (ix2 r k))
    (broadcastInDim S512x128 ![] bcast_S_S512x128 (constant (F := Ideal) S_ .f32 0x00000000#32) (ix2 r k)) = _
  rw [dot512_apply, rows512_apply, zeros512_apply]

/-- The read-out head is, index by index, the head of the specification. -/
theorem refHead_eq (p : FVec Ideal S512x128 .f32) (W1 : FVec Ideal S128x128 .f32) (b1 : FVec Ideal S128 .f32)
    (W2 : FVec Ideal S128x1 .f32) (b2 : FVec Ideal S1 .f32) :
    RefOps.refHead (F := Ideal) p W1 b1 W2 b2 = Cert.Gin.headR p W1 b1 W2 b2 := by
  funext i
  obtain ⟨r, c, rfl⟩ : ∃ (r : Fin 512) (c : Fin 1), i = ix2 r c := ⟨i 0, i 1, eq_ix2 i⟩
  obtain rfl : c = 0 := Subsingleton.elim _ _
  unfold RefOps.refHead
  refine (congrArg₂ (· + ·) ((dot512x1_apply _ W2 r).trans (Finset.sum_congr rfl fun k _ =>
    congrArg (· * W2 (ix2 k 0)) (hidden512_apply p W1 b1 r k))) (bias512_apply b2 r)).trans ?_
  rfl

end Cert.ReferenceIdeal.RefLayer

end
-- ==== Proof.Layout.lean ====
/-
  The kernel program's host-side layout operations, read at an index.

  A vector of length n laid out as a 1 × n matrix has, at (0, j), the vector's entry j: both arrays list the same
  entries in row-major order, and position (0, j) of a 1 × n matrix is position 0 · n + j = j. Row k of a stack of
  four 128-vectors is the 1 × 128 block cut from the 4 × 128 array at row offset k, read back as a vector: entry j
  of the vector is entry (0, j) of the block, which is entry (k + 0, j) of the stack.
-/
import proofs.«115757_j9131100472083_1_alg».proof.Proof.KOps
import Idealize.ShloMosaic.Lib.Pipeline.Value
import Idealize.ShloMosaic.Lib.ValueIdx
import Idealize.ShloMosaic.Lib.ValueLayout

noncomputable section

namespace Cert.KernelIdeal.Layout

open Cert.KernelIdeal Cert.KernelIdeal.Gen Cert.KernelIdeal.KOps Idealize.ShloMosaic Idealize.ShloMosaic.ValueIdx

variable {F : FTy → Type} [FloatOps F]

/-- A 128-vector as a 1 × 128 matrix: the entry at (0, j) is the vector's entry j. -/
theorem rowv_apply (y : FVec F S128 .f32) (j : Fin 128) : rowv y (ix2 0 j) = y (ix1 j) :=
  shapeCast_a_1a_apply y shapeCasts_S128_S1x128 0 j

/-- A 1-vector as a 1 × 1 matrix: its one entry. -/
theorem rowv1_apply (y : FVec F S1 .f32) : rowv1 y (ix2 0 0) = y (ix1 0) :=
  shapeCast_a_1a_apply y shapeCasts_S1_S1x1 0 0

/-- Row 0 of a stack of four 128-vectors: entry j is the stack's entry (0, j). -/
theorem pickV0_apply (x : FVec F S4x128 .f32) (j : Fin 128) : pickV0 x (ix1 j) = x (ix2 0 j) :=
  (shapeCast_1a_a_apply _ shapeCasts_S1x128_S128 j).trans
    (slice2_axis0_apply 0 x slices_S4x128_S1x128_0_0 (0 : Fin 1) j (0 : Fin 4) rfl)

/-- Row 1 of the stack: entry j is the stack's entry (1, j). -/
theorem pickV1_apply (x : FVec F S4x128 .f32) (j : Fin 128) : pickV1 x (ix1 j) = x (ix2 1 j) :=
  (shapeCast_1a_a_apply _ shapeCasts_S1x128_S128 j).trans
    (slice2_axis0_apply 1 x slices_S4x128_S1x128_1_0 (0 : Fin 1) j (1 : Fin 4) rfl)

/-- Row 2 of the stack: entry j is the stack's entry (2, j). -/
theorem pickV2_apply (x : FVec F S4x128 .f32) (j : Fin 128) : pickV2 x (ix1 j) = x (ix2 2 j) :=
  (shapeCast_1a_a_apply _ shapeCasts_S1x128_S128 j).trans
    (slice2_axis0_apply 2 x slices_S4x128_S1x128_2_0 (0 : Fin 1) j (2 : Fin 4) rfl)

/-- Row 3 of the stack: entry j is the stack's entry (3, j). -/
theorem pickV3_apply (x : FVec F S4x128 .f32) (j : Fin 128) : pickV3 x (ix1 j) = x (ix2 3 j) :=
  (shapeCast_1a_a_apply _ shapeCasts_S1x128_S128 j).trans
    (slice2_axis0_apply 3 x slices_S4x128_S1x128_3_0 (0 : Fin 1) j (3 : Fin 4) rfl)

end Cert.KernelIdeal.Layout

end
-- ==== Proof.Join.lean ====
/-
  The two programs' results are one function of the arguments.

  Layer by layer: both programs feed a layer the previous layer's output and its neighbour sum (the same host
  operations on the same array), the same two weight matrices, and the same four parameter vectors — the kernel's laid
  out as one-row matrices —; the layer's two forms differ only in the scale, `gamma · rsqrt(var + eps)` against
  `gamma / sqrt(var + eps)`, one number for a nonnegative variance (`Cert.Gin.layer_join`). The pooling is the same host
  operation and the heads differ only in the biases' layout (`Cert.Gin.head_join`).
-/
import proofs.«115757_j9131100472083_1_alg».proof.Proof.Spec
import proofs.«115757_j9131100472083_1_alg».proof.Proof.KChain
import proofs.«115757_j9131100472083_1_alg».proof.Proof.RChain
import proofs.«115757_j9131100472083_1_alg».proof.Proof.RefLayer
import proofs.«115757_j9131100472083_1_alg».proof.Proof.Layout

noncomputable section

namespace Cert.Join

open Idealize.ShloMosaic Idealize.ShloMosaic.ValueIdx Cert.Gin

section Host

variable {F : FTy → Type} [FloatOps F]

/-- The two programs spell the neighbour sums, the pooling and the parameter picks with the same operations. -/
theorem agg2_eq (e : IVec Cert.KernelIdeal.S2x800000 32) (x : FVec F Cert.KernelIdeal.S50000x2 .f32) :
    Cert.KernelIdeal.KOps.agg2 e x = Cert.ReferenceIdeal.RefAgg.agg2 e x := rfl
theorem agg128_eq (e : IVec Cert.KernelIdeal.S2x800000 32) (h : FVec F Cert.KernelIdeal.S50000x128 .f32) :
    Cert.KernelIdeal.KOps.agg128 e h = Cert.ReferenceIdeal.RefAgg.agg128 e h := rfl
theorem pool_eq (bt : IVec Cert.KernelIdeal.S50000 32) (h : FVec F Cert.KernelIdeal.S50000x128 .f32) :
    Cert.KernelIdeal.KOps.pool bt h = Cert.ReferenceIdeal.RefAgg.pool bt h := rfl
theorem pickM0_eq (x : FVec F Cert.KernelIdeal.S4x128x128 .f32) : Cert.KernelIdeal.KOps.pickM0 x = Cert.ReferenceIdeal.RefAgg.pickM0 x := rfl
theorem pickM1_eq (x : FVec F Cert.KernelIdeal.S4x128x128 .f32) : Cert.KernelIdeal.KOps.pickM1 x = Cert.ReferenceIdeal.RefAgg.pickM1 x := rfl
theorem pickM2_eq (x : FVec F Cert.KernelIdeal.S4x128x128 .f32) : Cert.KernelIdeal.KOps.pickM2 x = Cert.ReferenceIdeal.RefAgg.pickM2 x := rfl
theorem pickM3_eq (x : FVec F Cert.KernelIdeal.S4x128x128 .f32) : Cert.KernelIdeal.KOps.pickM3 x = Cert.ReferenceIdeal.RefAgg.pickM3 x := rfl
theorem pickV0_eq (x : FVec F Cert.KernelIdeal.S4x128 .f32) : Cert.KernelIdeal.KOps.pickV0 x = Cert.ReferenceIdeal.RefAgg.pickV0 x := rfl
theorem pickV1_eq (x : FVec F Cert.KernelIdeal.S4x128 .f32) : Cert.KernelIdeal.KOps.pickV1 x = Cert.ReferenceIdeal.RefAgg.pickV1 x := rfl
theorem pickV2_eq (x : FVec F Cert.KernelIdeal.S4x128 .f32) : Cert.KernelIdeal.KOps.pickV2 x = Cert.ReferenceIdeal.RefAgg.pickV2 x := rfl
theorem pickV3_eq (x : FVec F Cert.KernelIdeal.S4x128 .f32) : Cert.KernelIdeal.KOps.pickV3 x = Cert.ReferenceIdeal.RefAgg.pickV3 x := rfl

end Host

open Cert.KernelIdeal.KChain in
/-- The kernel program's arguments as the reference program's (the same arrays). -/
def toR (a : Cert.KernelIdeal.KChain.Args) : Cert.ReferenceIdeal.RChain.Args Ideal where
  x0 := a.x0
  x1 := a.x1
  x2 := a.x2
  x3 := a.x3
  x4 := a.x4
  x5 := a.x5
  x6 := a.x6
  x7 := a.x7
  x8 := a.x8
  x9 := a.x9
  x10 := a.x10
  x11 := a.x11
  x12 := a.x12
  x13 := a.x13
  x14 := a.x14
  x15 := a.x15
  x16 := a.x16
  x17 := a.x17
  x18 := a.x18
  x19 := a.x19
  x20 := a.x20
  x21 := a.x21
  x22 := a.x22

/-- The first layers agree when the first variance vector is nonnegative. -/
theorem h1_eq (a : Cert.KernelIdeal.KChain.Args) (h10 : ∀ j : Fin 128, (0 : EReal) ≤ a.x10 (ix1 j)) :
    Cert.KernelIdeal.KChain.h1 a = Cert.ReferenceIdeal.RChain.r1 (toR a) := by
  unfold Cert.KernelIdeal.KChain.h1 Cert.ReferenceIdeal.RChain.r1
  rw [Cert.ReferenceIdeal.RefLayer.refLayer2_eq, agg2_eq]
  exact layer_join 2 _ _ _ _ _ _ _ _ _ _ _ _ _ _ _ _
    (fun j => Cert.KernelIdeal.Layout.rowv_apply _ j) (fun j => Cert.KernelIdeal.Layout.rowv_apply _ j)
    (fun j => Cert.KernelIdeal.Layout.rowv_apply _ j) (fun j => Cert.KernelIdeal.Layout.rowv_apply _ j)
    (fun j => Cert.KernelIdeal.Layout.rowv_apply _ j) (fun j => Cert.KernelIdeal.Layout.rowv_apply _ j) h10

/-- A later layer agrees when the previous layers do, the picks are the same functions, and the picked variance
    row is nonnegative. -/
theorem next_eq (pmK : FVec Ideal Cert.KernelIdeal.S4x128x128 .f32 → FVec Ideal Cert.KernelIdeal.S128x128 .f32)
    (pvK : FVec Ideal Cert.KernelIdeal.S4x128 .f32 → FVec Ideal Cert.KernelIdeal.S128 .f32)
    (pmR : FVec Ideal Cert.ReferenceIdeal.S4x128x128 .f32 → FVec Ideal Cert.ReferenceIdeal.S128x128 .f32)
    (pvR : FVec Ideal Cert.ReferenceIdeal.S4x128 .f32 → FVec Ideal Cert.ReferenceIdeal.S128 .f32)
    (hpm : ∀ x, pmK x = pmR x) (hpv : ∀ x, pvK x = pvR x)
    (a : Cert.KernelIdeal.KChain.Args) (hK : FVec Ideal Cert.KernelIdeal.S50000x128 .f32)
    (hR : FVec Ideal Cert.ReferenceIdeal.S50000x128 .f32) (hh : hK = hR)
    (hpos : ∀ j : Fin 128, (0 : EReal) ≤ pvK a.x18 (ix1 j)) :
    Cert.KernelIdeal.KChain.next pmK pvK a hK = Cert.ReferenceIdeal.RChain.next pmR pvR (toR a) hR := by
  subst hh
  unfold Cert.KernelIdeal.KChain.next Cert.ReferenceIdeal.RChain.next
  rw [Cert.ReferenceIdeal.RefLayer.refLayer128_eq, agg128_eq, hpm, hpm]
  have e12 : pvR (toR a).x12 = pvK a.x12 := (hpv _).symm
  have e14 : pvR (toR a).x14 = pvK a.x14 := (hpv _).symm
  have e15 : pvR (toR a).x15 = pvK a.x15 := (hpv _).symm
  have e16 : pvR (toR a).x16 = pvK a.x16 := (hpv _).symm
  have e17 : pvR (toR a).x17 = pvK a.x17 := (hpv _).symm
  have e18 : pvR (toR a).x18 = pvK a.x18 := (hpv _).symm
  rw [e12, e14, e15, e16, e17, e18]
  exact layer_join 128 _ _ _ _ _ _ _ _ _ _ _ _ _ _ _ _
    (fun j => Cert.KernelIdeal.Layout.rowv_apply _ j) (fun j => Cert.KernelIdeal.Layout.rowv_apply _ j)
    (fun j => Cert.KernelIdeal.Layout.rowv_apply _ j) (fun j => Cert.KernelIdeal.Layout.rowv_apply _ j)
    (fun j => Cert.KernelIdeal.Layout.rowv_apply _ j) (fun j => Cert.KernelIdeal.Layout.rowv_apply _ j) hpos

/-- The whole chains agree when both variance inputs are nonnegative. -/
theorem out_eq (a : Cert.KernelIdeal.KChain.Args) (h10 : ∀ j : Fin 128, (0 : EReal) ≤ a.x10 (ix1 j))
    (h18 : ∀ (l : Fin 4) (j : Fin 128), (0 : EReal) ≤ a.x18 (ix2 l j)) :
    Cert.KernelIdeal.KChain.out a = Cert.ReferenceIdeal.RChain.out (toR a) := by
  have e1 := h1_eq a h10
  have e2 : Cert.KernelIdeal.KChain.h2 a = Cert.ReferenceIdeal.RChain.r2 (toR a) :=
    next_eq _ _ _ _ pickM0_eq pickV0_eq a _ _ e1 (fun j => by rw [Cert.KernelIdeal.Layout.pickV0_apply]; exact h18 0 j)
  have e3 : Cert.KernelIdeal.KChain.h3 a = Cert.ReferenceIdeal.RChain.r3 (toR a) :=
    next_eq _ _ _ _ pickM1_eq pickV1_eq a _ _ e2 (fun j => by rw [Cert.KernelIdeal.Layout.pickV1_apply]; exact h18 1 j)
  have e4 : Cert.KernelIdeal.KChain.h4 a = Cert.ReferenceIdeal.RChain.r4 (toR a) :=
    next_eq _ _ _ _ pickM2_eq pickV2_eq a _ _ e3 (fun j => by rw [Cert.KernelIdeal.Layout.pickV2_apply]; exact h18 2 j)
  have e5 : Cert.KernelIdeal.KChain.h5 a = Cert.ReferenceIdeal.RChain.r5 (toR a) :=
    next_eq _ _ _ _ pickM3_eq pickV3_eq a _ _ e4 (fun j => by rw [Cert.KernelIdeal.Layout.pickV3_apply]; exact h18 3 j)
  have eh : Cert.KernelIdeal.KChain.head a = Cert.ReferenceIdeal.RChain.head (toR a) := by
    unfold Cert.KernelIdeal.KChain.head Cert.ReferenceIdeal.RChain.head
    rw [Cert.ReferenceIdeal.RefLayer.refHead_eq, e5, pool_eq]
    exact head_join _ _ _ _ _ _ _ (fun j => Cert.KernelIdeal.Layout.rowv_apply _ j) (Cert.KernelIdeal.Layout.rowv1_apply _)
  unfold Cert.KernelIdeal.KChain.out Cert.ReferenceIdeal.RChain.out
  rw [eh]

end Cert.Join

end
-- ==== Proof.PreVar.lean ====
/-
  The precondition of the certificate is a conjunction of scalar tests on the 23 inputs: 21 tests "every entry
  is finite" followed by two tests "every entry is nonnegative", on the two batch-norm variance arrays
  (input 10, of shape [128], and input 18, of shape [4, 128]). The conjunction is left-nested,

      ((… ∧ all (x10 ≥ 0)) ∧ all (x18 ≥ 0)),

  so the two variance tests are reached by splitting the outermost two conjunctions and keeping the right
  factor each time; the 21 finiteness tests stay closed. Each "all" is a reduction by "and" over every axis
  starting from 1, hence equal to 1 only if every entry of the reduced array of bits is 1; and the bit at an
  index is the comparison x ≥ 0 of extended reals, 0 being what the f32 word 0x00000000 denotes.
-/
import proofs.«115757_j9131100472083_1_alg».proof.Pre_finite_inputs
import proofs.«115757_j9131100472083_1_alg».proof.Proof.Gen.Pre_finite_inputs
import Idealize.ShloMosaic.Lib.ReduceAll
import Idealize.ShloMosaic.Lib.ValueIdx
import Idealize.ShloMosaic.PureOps.Ideal.Laws

noncomputable section

namespace Cert.PreVar

open Idealize.ShloMosaic Cert.Pre_finite_inputs

/-- The shape of rank 0 has exactly one index (a function out of the empty set of axes). -/
instance : Subsingleton S_.Idx := ⟨fun a b => funext fun d => d.elim0⟩

/-- On the extended reals the comparison "x ≥ y" against the f32 word of +0.0 gives the bit 1 only when
    0 ≤ x: the word 0x00000000 denotes the extended real 0, and the bit is the truth value of 0 ≤ x. -/
theorem nonneg_of_oge_zero (x : EReal)
    (h : Ideal.cmp .oge x (Ideal.ofBits .f32 0x00000000#32) = 1#1) : (0 : EReal) ≤ x := by
  rw [Ideal.ofBits_zero_f32] at h
  by_contra hx
  have hd : decide ((0 : EReal) ≤ x) = false := decide_eq_false hx
  have hc : Ideal.cmp .oge x 0 = BitVec.ofBool (decide ((0 : EReal) ≤ x)) := rfl
  rw [hc, hd] at h
  exact absurd h (by decide)

/-- Under the precondition both variance arrays are entrywise nonnegative. -/
theorem var_nonneg [Cert.Pre_finite_inputs.Facts] (x0 : FVec Ideal S50000x2 .f32) (x1 : IVec S2x800000 32) (x2 : IVec S50000 32) (x3 : FVec Ideal S2x128 .f32) (x4 : FVec Ideal S128 .f32) (x5 : FVec Ideal S128x128 .f32) (x6 x7 x8 x9 x10 : FVec Ideal S128 .f32) (x11 : FVec Ideal S4x128x128 .f32) (x12 : FVec Ideal S4x128 .f32) (x13 : FVec Ideal S4x128x128 .f32) (x14 x15 x16 x17 x18 : FVec Ideal S4x128 .f32) (x19 : FVec Ideal S128x128 .f32) (x20 : FVec Ideal S128 .f32) (x21 : FVec Ideal S128x1 .f32) (x22 : FVec Ideal S1 .f32)
    (h : Cert.Pre_finite_inputs.fn (F := Ideal) x0 x1 x2 x3 x4 x5 x6 x7 x8 x9 x10 x11 x12 x13 x14 x15 x16 x17 x18 x19 x20 x21 x22 = fun _ => 1#1) :
    (∀ j : Fin 128, (0 : EReal) ≤ x10 (ValueIdx.ix1 j)) ∧ (∀ (l : Fin 4) (j : Fin 128), (0 : EReal) ≤ x18 (ValueIdx.ix2 l j)) := by
  -- the scalar result, read at its one index
  have e : Cert.Pre_finite_inputs.fn (F := Ideal) x0 x1 x2 x3 x4 x5 x6 x7 x8 x9 x10 x11 x12 x13 x14 x15 x16 x17 x18 x19 x20 x21 x22 ValueIdx.ix0 = 1#1 :=
    congrFun h ValueIdx.ix0
  -- (rest ∧ all (x10 ≥ 0)) ∧ all (x18 ≥ 0): an "and" of two bits is 1 exactly when both are
  obtain ⟨eInner, e18⟩ := IntOp.andi_eq_one.1 e
  obtain ⟨-, e10⟩ := IntOp.andi_eq_one.1 eInner
  -- a total reduction by "and" that is 1 had the bit 1 at every index; the bit there is x ≥ 0
  refine ⟨fun j => ?_, fun l j => ?_⟩
  · exact nonneg_of_oge_zero _ (Host.reduce_andi_all _ _ _ _ ValueIdx.ix0 e10 (ValueIdx.ix1 j))
  · exact nonneg_of_oge_zero _ (Host.reduce_andi_all _ _ _ _ ValueIdx.ix0 e18 (ValueIdx.ix2 l j))

end Cert.PreVar

end
-- ==== Proof.lean ====
/-
  A five-layer graph isomorphism network with batch normalisation, a per-graph sum pooling and a two-layer read-out
  head: the kernel program computes each layer's dense part (two matrix products with bias and clamp at zero, then the
  normalisation) and the head in pallas regions tiled over 2000-node row blocks, and the neighbour sums and the pooling
  by host gather / scatter-add lines; the reference computes everything by host lines.

  On the extended reals the two programs are one function of the arguments. The neighbour sums, the pooling and the
  parameter picks are the same operations on both sides. A layer's output row depends on the node's own two input rows
  only, so the row blocks of the kernel's regions are the row blocks of one whole-array function (`Cert.Gin.layerK`),
  which is the reference's layer (`Cert.Gin.layerR`) but for the scale: the kernel multiplies by
  `gamma · rsqrt(var + eps)`, the reference by `gamma / sqrt(var + eps)`. For `var ≥ 0` — the precondition's last
  two conjuncts, on the two variance inputs — `var + eps` is a positive real or `+∞` and the two scales are one number
  (`Cert.Gin.scale_eq`). Finiteness of the inputs is not used.

  The frames of the two kernel programs are the generated ones; the reference's is its run through the 294 host
  operations with the result dropped. `preserves` has no entry.
-/
import proofs.«115757_j9131100472083_1_alg».proof.Defs
import proofs.«115757_j9131100472083_1_alg».proof.Proof.Gen.Kernel
import proofs.«115757_j9131100472083_1_alg».proof.Proof.Gen.Kernel.Skeleton
import proofs.«115757_j9131100472083_1_alg».proof.Proof.Gen.Kernel.Launch
import proofs.«115757_j9131100472083_1_alg».proof.Proof.Gen.Kernel.Points
import proofs.«115757_j9131100472083_1_alg».proof.Proof.Gen.Kernel.Frame
import proofs.«115757_j9131100472083_1_alg».proof.Proof.Gen.KernelIdeal
import proofs.«115757_j9131100472083_1_alg».proof.Proof.Gen.KernelIdeal.Skeleton
import proofs.«115757_j9131100472083_1_alg».proof.Proof.Gen.KernelIdeal.Launch
import proofs.«115757_j9131100472083_1_alg».proof.Proof.Gen.KernelIdeal.Points
import proofs.«115757_j9131100472083_1_alg».proof.Proof.Gen.KernelIdeal.Frame
import proofs.«115757_j9131100472083_1_alg».proof.Proof.Gen.ReferenceIdeal
import proofs.«115757_j9131100472083_1_alg».proof.Proof.Gen.Pre_finite_inputs
import proofs.«115757_j9131100472083_1_alg».proof.Proof.RefRunP
import proofs.«115757_j9131100472083_1_alg».proof.Proof.RKept
import proofs.«115757_j9131100472083_1_alg».proof.Proof.RFold
import proofs.«115757_j9131100472083_1_alg».proof.Proof.KRun
import proofs.«115757_j9131100472083_1_alg».proof.Proof.KFold
import proofs.«115757_j9131100472083_1_alg».proof.Proof.Region0
import proofs.«115757_j9131100472083_1_alg».proof.Proof.Region1
import proofs.«115757_j9131100472083_1_alg».proof.Proof.Region2
import proofs.«115757_j9131100472083_1_alg».proof.Proof.Region3
import proofs.«115757_j9131100472083_1_alg».proof.Proof.Region4
import proofs.«115757_j9131100472083_1_alg».proof.Proof.Region5
import proofs.«115757_j9131100472083_1_alg».proof.Proof.Join
import proofs.«115757_j9131100472083_1_alg».proof.Proof.PreVar
import Idealize.ShloMosaic.Adequacy
import Idealize.ShloMosaic.Init

noncomputable section

namespace Cert.Proof

open Idealize.ShloMosaic Idealize.ShloMosaic.TcCoe Idealize.SL.Sem

/-- The six regions leave in their output arrays the layer's, or the head's, function of their input arrays. -/
theorem finals : Cert.KernelIdeal.KFold.Finals :=
  ⟨Cert.KernelIdeal.Region0.final, Cert.KernelIdeal.Region1.final, Cert.KernelIdeal.Region2.final,
   Cert.KernelIdeal.Region3.final, Cert.KernelIdeal.Region4.final, Cert.KernelIdeal.Region5.final⟩

theorem frame_k : Cert.frame_Kernel := fun m ρ _ => Cert.Kernel.Gen.frame m ρ

theorem frame_ki : Cert.frame_KernelIdeal := fun m ρ _ => Cert.KernelIdeal.Gen.frame m ρ

/-- The reference runs through its host operations, none of which writes an argument buffer. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RKept.kept0 _),
     (h c Cert.ReferenceIdeal.main_arg1).trans (Cert.ReferenceIdeal.RKept.kept1 _),
     (h c Cert.ReferenceIdeal.main_arg2).trans (Cert.ReferenceIdeal.RKept.kept2 _),
     (h c Cert.ReferenceIdeal.main_arg3).trans (Cert.ReferenceIdeal.RKept.kept3 _),
     (h c Cert.ReferenceIdeal.main_arg4).trans (Cert.ReferenceIdeal.RKept.kept4 _),
     (h c Cert.ReferenceIdeal.main_arg5).trans (Cert.ReferenceIdeal.RKept.kept5 _),
     (h c Cert.ReferenceIdeal.main_arg6).trans (Cert.ReferenceIdeal.RKept.kept6 _),
     (h c Cert.ReferenceIdeal.main_arg7).trans (Cert.ReferenceIdeal.RKept.kept7 _),
     (h c Cert.ReferenceIdeal.main_arg8).trans (Cert.ReferenceIdeal.RKept.kept8 _),
     (h c Cert.ReferenceIdeal.main_arg9).trans (Cert.ReferenceIdeal.RKept.kept9 _),
     (h c Cert.ReferenceIdeal.main_arg10).trans (Cert.ReferenceIdeal.RKept.kept10 _),
     (h c Cert.ReferenceIdeal.main_arg11).trans (Cert.ReferenceIdeal.RKept.kept11 _),
     (h c Cert.ReferenceIdeal.main_arg12).trans (Cert.ReferenceIdeal.RKept.kept12 _),
     (h c Cert.ReferenceIdeal.main_arg13).trans (Cert.ReferenceIdeal.RKept.kept13 _),
     (h c Cert.ReferenceIdeal.main_arg14).trans (Cert.ReferenceIdeal.RKept.kept14 _),
     (h c Cert.ReferenceIdeal.main_arg15).trans (Cert.ReferenceIdeal.RKept.kept15 _),
     (h c Cert.ReferenceIdeal.main_arg16).trans (Cert.ReferenceIdeal.RKept.kept16 _),
     (h c Cert.ReferenceIdeal.main_arg17).trans (Cert.ReferenceIdeal.RKept.kept17 _),
     (h c Cert.ReferenceIdeal.main_arg18).trans (Cert.ReferenceIdeal.RKept.kept18 _),
     (h c Cert.ReferenceIdeal.main_arg19).trans (Cert.ReferenceIdeal.RKept.kept19 _),
     (h c Cert.ReferenceIdeal.main_arg20).trans (Cert.ReferenceIdeal.RKept.kept20 _),
     (h c Cert.ReferenceIdeal.main_arg21).trans (Cert.ReferenceIdeal.RKept.kept21 _),
     (h c Cert.ReferenceIdeal.main_arg22).trans (Cert.ReferenceIdeal.RKept.kept22 _)⟩)
    (Cert.ReferenceIdeal.ValueP.run (F := Ideal) m ρ)

theorem preserves : Cert.preserves_Kernel_KernelIdeal := trivial

/-- From memories agreeing on the arguments both programs end with the chain's value in their result buffers: the
    kernel's read back through its segments, the reference's through its operations, the two chains one function
    because both variance inputs are nonnegative. -/
theorem algebraic : Cert.algebraic_KernelIdeal_ReferenceIdeal := by
  intro m ρ m' ρ' hpre hagree
  refine ⟨fun c => Cert.KernelIdeal.KChain.out (Cert.KernelIdeal.KFold.argsOf m c), ?_, ?_⟩
  · exact (θ_run Cert.KernelIdeal.defs _ _).mono
      (fun r h c => ⟨(h c).1.trans (Cert.KernelIdeal.KFold.result_eq m ρ finals c), (h c).2⟩)
      (Cert.KernelIdeal.KRun.run_named (F := Ideal) m ρ)
  · refine (θ_run Cert.ReferenceIdeal.defs _ _).mono (fun r h c => ?_) (Cert.ReferenceIdeal.ValueP.run (F := Ideal) m' ρ')
    refine ⟨?_, (h c Cert.ReferenceIdeal.main_arg0).trans (Cert.ReferenceIdeal.RKept.kept0 _),
      (h c Cert.ReferenceIdeal.main_arg1).trans (Cert.ReferenceIdeal.RKept.kept1 _),
      (h c Cert.ReferenceIdeal.main_arg2).trans (Cert.ReferenceIdeal.RKept.kept2 _),
      (h c Cert.ReferenceIdeal.main_arg3).trans (Cert.ReferenceIdeal.RKept.kept3 _),
      (h c Cert.ReferenceIdeal.main_arg4).trans (Cert.ReferenceIdeal.RKept.kept4 _),
      (h c Cert.ReferenceIdeal.main_arg5).trans (Cert.ReferenceIdeal.RKept.kept5 _),
      (h c Cert.ReferenceIdeal.main_arg6).trans (Cert.ReferenceIdeal.RKept.kept6 _),
      (h c Cert.ReferenceIdeal.main_arg7).trans (Cert.ReferenceIdeal.RKept.kept7 _),
      (h c Cert.ReferenceIdeal.main_arg8).trans (Cert.ReferenceIdeal.RKept.kept8 _),
      (h c Cert.ReferenceIdeal.main_arg9).trans (Cert.ReferenceIdeal.RKept.kept9 _),
      (h c Cert.ReferenceIdeal.main_arg10).trans (Cert.ReferenceIdeal.RKept.kept10 _),
      (h c Cert.ReferenceIdeal.main_arg11).trans (Cert.ReferenceIdeal.RKept.kept11 _),
      (h c Cert.ReferenceIdeal.main_arg12).trans (Cert.ReferenceIdeal.RKept.kept12 _),
      (h c Cert.ReferenceIdeal.main_arg13).trans (Cert.ReferenceIdeal.RKept.kept13 _),
      (h c Cert.ReferenceIdeal.main_arg14).trans (Cert.ReferenceIdeal.RKept.kept14 _),
      (h c Cert.ReferenceIdeal.main_arg15).trans (Cert.ReferenceIdeal.RKept.kept15 _),
      (h c Cert.ReferenceIdeal.main_arg16).trans (Cert.ReferenceIdeal.RKept.kept16 _),
      (h c Cert.ReferenceIdeal.main_arg17).trans (Cert.ReferenceIdeal.RKept.kept17 _),
      (h c Cert.ReferenceIdeal.main_arg18).trans (Cert.ReferenceIdeal.RKept.kept18 _),
      (h c Cert.ReferenceIdeal.main_arg19).trans (Cert.ReferenceIdeal.RKept.kept19 _),
      (h c Cert.ReferenceIdeal.main_arg20).trans (Cert.ReferenceIdeal.RKept.kept20 _),
      (h c Cert.ReferenceIdeal.main_arg21).trans (Cert.ReferenceIdeal.RKept.kept21 _),
      (h c Cert.ReferenceIdeal.main_arg22).trans (Cert.ReferenceIdeal.RKept.kept22 _)⟩
    obtain ⟨h10, h18⟩ := Cert.PreVar.var_nonneg _ _ _ _ _ _ _ _ _ _ _ _ _ _ _ _ _ _ _ _ _ _ _ (hpre c)
    refine (h c Cert.ReferenceIdeal.main_v250).trans ((Cert.ReferenceIdeal.RFold.result_eq _).trans ?_)
    show _ = Cert.KernelIdeal.KChain.out (Cert.KernelIdeal.KFold.argsOf m c)
    rw [Cert.Join.out_eq (Cert.KernelIdeal.KFold.argsOf m c) h10 h18]
    have ha : Cert.ReferenceIdeal.RFold.argsOf (F := Ideal) (StableHlo.launchContents m' c)
        = Cert.Join.toR (Cert.KernelIdeal.KFold.argsOf m c) := by
      obtain ⟨e0, e1, e2, e3, e4, e5, e6, e7, e8, e9, e10, e11, e12, e13, e14, e15, e16, e17, e18, e19, e20, e21, e22⟩ := hagree c
      show Cert.ReferenceIdeal.RChain.Args.mk (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) = _
      rw [e0, e1, e2, e3, e4, e5, e6, e7, e8, e9, e10, e11, e12, e13, e14, e15, e16, e17, e18, e19, e20, e21, e22]
      rfl
    rw [ha]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
